-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x500000 : Shape := ⟨2, ![2, 500000]⟩
abbrev S50000x6 : Shape := ⟨2, ![50000, 6]⟩
abbrev S50000x11 : Shape := ⟨2, ![50000, 11]⟩
abbrev S768x32 : Shape := ⟨2, ![768, 32]⟩
abbrev S32 : Shape := ⟨1, ![32]⟩
abbrev S6x32 : Shape := ⟨2, ![6, 32]⟩
abbrev S11x32 : Shape := ⟨2, ![11, 32]⟩
abbrev S160x160 : Shape := ⟨2, ![160, 160]⟩
abbrev S160 : Shape := ⟨1, ![160]⟩
abbrev S160x2 : Shape := ⟨2, ![160, 2]⟩
abbrev S2 : Shape := ⟨1, ![2]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S50000x6 : S_.BroadcastsInDim S50000x6 (![] : Fin 0 → Fin S50000x6.rank)
  reducesTo_S50000x6_S_d0_1 : S50000x6.ReducesTo [0, 1] S_
  bcast_S_S50000x11 : S_.BroadcastsInDim S50000x11 (![] : Fin 0 → Fin S50000x11.rank)
  reducesTo_S50000x11_S_d0_1 : S50000x11.ReducesTo [0, 1] S_
  bcast_S_S768x32 : S_.BroadcastsInDim S768x32 (![] : Fin 0 → Fin S768x32.rank)
  reducesTo_S768x32_S_d0_1 : S768x32.ReducesTo [0, 1] S_
  bcast_S_S32 : S_.BroadcastsInDim S32 (![] : Fin 0 → Fin S32.rank)
  reducesTo_S32_S_d0 : S32.ReducesTo [0] S_
  bcast_S_S6x32 : S_.BroadcastsInDim S6x32 (![] : Fin 0 → Fin S6x32.rank)
  reducesTo_S6x32_S_d0_1 : S6x32.ReducesTo [0, 1] S_
  bcast_S_S11x32 : S_.BroadcastsInDim S11x32 (![] : Fin 0 → Fin S11x32.rank)
  reducesTo_S11x32_S_d0_1 : S11x32.ReducesTo [0, 1] S_
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_
  bcast_S_S160x2 : S_.BroadcastsInDim S160x2 (![] : Fin 0 → Fin S160x2.rank)
  reducesTo_S160x2_S_d0_1 : S160x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg22 : FVec F S160 .f32) (main_arg23 : FVec F S160x2 .f32) (main_arg24 : FVec F S2 .f32) (main_v98 : IVec S_ 1) (main_v101 : IVec S160x160 1) (main_c_39 : IVec S_ 1) : IVec S_ 1 :=
  let main_v102 : IVec S_ 1 := (fun x v => Host.reduce IntOp.andi x v reducesTo_S160x160_S_d0_1 h_S_) main_v101 main_c_39
  let main_v103 : IVec S_ 1 := andi main_v98 main_v102
  let main_v104 : FVec F S160 .f32 := Host.absf main_arg22
  let main_cst_40 : FVec F S_ .f32 := constant S_ .f32 0x7F800000#32
  let main_v105 : FVec F S160 .f32 := broadcastInDim S160 ![] bcast_S_S160 main_cst_40
  let main_v106 : IVec S160 1 := cmpf .olt main_v104 main_v105
  let main_c_41 : IVec S_ 1 := constantI S_ 1 1#1
  let main_v107 : IVec S_ 1 := (fun x v => Host.reduce IntOp.andi x v reducesTo_S160_S_d0 h_S_) main_v106 main_c_41
  let main_v108 : IVec S_ 1 := andi main_v103 main_v107
  let main_v109 : FVec F S160x2 .f32 := Host.absf main_arg23
  let main_cst_42 : FVec F S_ .f32 := constant S_ .f32 0x7F800000#32
  let main_v110 : FVec F S160x2 .f32 := broadcastInDim S160x2 ![] bcast_S_S160x2 main_cst_42
  let main_v111 : IVec S160x2 1 := cmpf .olt main_v109 main_v110
  let main_c_43 : IVec S_ 1 := constantI S_ 1 1#1
  let main_v112 : IVec S_ 1 := (fun x v => Host.reduce IntOp.andi x v reducesTo_S160x2_S_d0_1 h_S_) main_v111 main_c_43
  let main_v113 : IVec S_ 1 := andi main_v108 main_v112
  let main_v114 : FVec F S2 .f32 := Host.absf main_arg24
  let main_cst_44 : FVec F S_ .f32 := constant S_ .f32 0x7F800000#32
  let main_v115 : FVec F S2 .f32 := broadcastInDim S2 ![] bcast_S_S2 main_cst_44
  let main_v116 : IVec S2 1 := cmpf .olt main_v114 main_v115
  let main_c_45 : IVec S_ 1 := constantI S_ 1 1#1
  let main_v117 : IVec S_ 1 := (fun x v => Host.reduce IntOp.andi x v reducesTo_S2_S_d0 h_S_) main_v116 main_c_45
  let main_v118 : IVec S_ 1 := andi main_v113 main_v117
  main_v118

def fn_part5 {F : FTy → Type} [FloatOps F] (main_arg19 : FVec F S160 .f32) (main_arg20 : FVec F S160x160 .f32) (main_arg21 : FVec F S160x160 .f32) (main_arg22 : FVec F S160 .f32) (main_arg23 : FVec F S160x2 .f32) (main_arg24 : FVec F S2 .f32) (main_v83 : IVec S_ 1) (main_v84 : FVec F S160x160 .f32) (main_cst_32 : FVec F S_ .f32) : IVec S_ 1 :=
  let main_v85 : FVec F S160x160 .f32 := broadcastInDim S160x160 ![] bcast_S_S160x160 main_cst_32
  let main_v86 : IVec S160x160 1 := cmpf .olt main_v84 main_v85
  let main_c_33 : IVec S_ 1 := constantI S_ 1 1#1
  let main_v87 : IVec S_ 1 := (fun x v => Host.reduce IntOp.andi x v reducesTo_S160x160_S_d0_1 h_S_) main_v86 main_c_33
  let main_v88 : IVec S_ 1 := andi main_v83 main_v87
  let main_v89 : FVec F S160 .f32 := Host.absf main_arg19
  let main_cst_34 : FVec F S_ .f32 := constant S_ .f32 0x7F800000#32
  let main_v90 : FVec F S160 .f32 := broadcastInDim S160 ![] bcast_S_S160 main_cst_34
  let main_v91 : IVec S160 1 := cmpf .olt main_v89 main_v90
  let main_c_35 : IVec S_ 1 := constantI S_ 1 1#1
  let main_v92 : IVec S_ 1 := (fun x v => Host.reduce IntOp.andi x v reducesTo_S160_S_d0 h_S_) main_v91 main_c_35
  let main_v93 : IVec S_ 1 := andi main_v88 main_v92
  let main_v94 : FVec F S160x160 .f32 := Host.absf main_arg20
  let main_cst_36 : FVec F S_ .f32 := constant S_ .f32 0x7F800000#32
  let main_v95 : FVec F S160x160 .f32 := broadcastInDim S160x160 ![] bcast_S_S160x160 main_cst_36
  let main_v96 : IVec S160x160 1 := cmpf .olt main_v94 main_v95
  let main_c_37 : IVec S_ 1 := constantI S_ 1 1#1
  let main_v97 : IVec S_ 1 := (fun x v => Host.reduce IntOp.andi x v reducesTo_S160x160_S_d0_1 h_S_) main_v96 main_c_37
  let main_v98 : IVec S_ 1 := andi main_v93 main_v97
  let main_v99 : FVec F S160x160 .f32 := Host.absf main_arg21
  let main_cst_38 : FVec F S_ .f32 := constant S_ .f32 0x7F800000#32
  let main_v100 : FVec F S160x160 .f32 := broadcastInDim S160x160 ![] bcast_S_S160x160 main_cst_38
  let main_v101 : IVec S160x160 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S32 .f32) (main_arg16 : FVec F S160x160 .f32) (main_arg17 : FVec F S160 .f32) (main_arg18 : FVec F S160x160 .f32) (main_arg19 : FVec F S160 .f32) (main_arg20 : FVec F S160x160 .f32) (main_arg21 : FVec F S160x160 .f32) (main_arg22 : FVec F S160 .f32) (main_arg23 : FVec F S160x2 .f32) (main_arg24 : FVec F S2 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S160x160 .f32 := Host.absf main_arg16
  let main_cst_28 : FVec F S_ .f32 := constant S_ .f32 0x7F800000#32
  let main_v75 : FVec F S160x160 .f32 := broadcastInDim S160x160 ![] bcast_S_S160x160 main_cst_28
  let main_v76 : IVec S160x160 1 := cmpf .olt main_v74 main_v75
  let main_c_29 : IVec S_ 1 := constantI S_ 1 1#1
  let main_v77 : IVec S_ 1 := (fun x v => Host.reduce IntOp.andi x v reducesTo_S160x160_S_d0_1 h_S_) main_v76 main_c_29
  let main_v78 : IVec S_ 1 := andi main_v73 main_v77
  let main_v79 : FVec F S160 .f32 := Host.absf main_arg17
  let main_cst_30 : FVec F S_ .f32 := constant S_ .f32 0x7F800000#32
  let main_v80 : FVec F S160 .f32 := broadcastInDim S160 ![] bcast_S_S160 main_cst_30
  let main_v81 : IVec S160 1 := cmpf .olt main_v79 main_v80
  let main_c_31 : IVec S_ 1 := constantI S_ 1 1#1
  let main_v82 : IVec S_ 1 := (fun x v => Host.reduce IntOp.andi x v reducesTo_S160_S_d0 h_S_) main_v81 main_c_31
  let main_v83 : IVec S_ 1 := andi main_v78 main_v82
  let main_v84 : FVec F S160x160 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S6x32 .f32) (main_arg13 : FVec F S32 .f32) (main_arg14 : FVec F S11x32 .f32) (main_arg15 : FVec F S32 .f32) (main_arg16 : FVec F S160x160 .f32) (main_arg17 : FVec F S160 .f32) (main_arg18 : FVec F S160x160 .f32) (main_arg19 : FVec F S160 .f32) (main_arg20 : FVec F S160x160 .f32) (main_arg21 : FVec F S160x160 .f32) (main_arg22 : FVec F S160 .f32) (main_arg23 : FVec F S160x2 .f32) (main_arg24 : FVec F S2 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S6x32 .f32 := Host.absf main_arg12
  let main_cst_20 : FVec F S_ .f32 := constant S_ .f32 0x7F800000#32
  let main_v55 : FVec F S6x32 .f32 := broadcastInDim S6x32 ![] bcast_S_S6x32 main_cst_20
  let main_v56 : IVec S6x32 1 := cmpf .olt main_v54 main_v55
  let main_c_21 : IVec S_ 1 := constantI S_ 1 1#1
  let main_v57 : IVec S_ 1 := (fun x v => Host.reduce IntOp.andi x v reducesTo_S6x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S11x32 .f32 := Host.absf main_arg14
  let main_cst_24 : FVec F S_ .f32 := constant S_ .f32 0x7F800000#32
  let main_v65 : FVec F S11x32 .f32 := broadcastInDim S11x32 ![] bcast_S_S11x32 main_cst_24
  let main_v66 : IVec S11x32 1 := cmpf .olt main_v64 main_v65
  let main_c_25 : IVec S_ 1 := constantI S_ 1 1#1
  let main_v67 : IVec S_ 1 := (fun x v => Host.reduce IntOp.andi x v reducesTo_S11x32_S_d0_1 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S768x32 .f32) (main_arg9 : FVec F S32 .f32) (main_arg10 : FVec F S768x32 .f32) (main_arg11 : FVec F S32 .f32) (main_arg12 : FVec F S6x32 .f32) (main_arg13 : FVec F S32 .f32) (main_arg14 : FVec F S11x32 .f32) (main_arg15 : FVec F S32 .f32) (main_arg16 : FVec F S160x160 .f32) (main_arg17 : FVec F S160 .f32) (main_arg18 : FVec F S160x160 .f32) (main_arg19 : FVec F S160 .f32) (main_arg20 : FVec F S160x160 .f32) (main_arg21 : FVec F S160x160 .f32) (main_arg22 : FVec F S160 .f32) (main_arg23 : FVec F S160x2 .f32) (main_arg24 : FVec F S2 .f32) (main_v33 : IVec S_ 1) : IVec S_ 1 :=
  let main_v34 : FVec F S768x32 .f32 := Host.absf main_arg8
  let main_cst_12 : FVec F S_ .f32 := constant S_ .f32 0x7F800000#32
  let main_v35 : FVec F S768x32 .f32 := broadcastInDim S768x32 ![] bcast_S_S768x32 main_cst_12
  let main_v36 : IVec S768x32 1 := cmpf .olt main_v34 main_v35
  let main_c_13 : IVec S_ 1 := constantI S_ 1 1#1
  let main_v37 : IVec S_ 1 := (fun x v => Host.reduce IntOp.andi x v reducesTo_S768x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S768x32 .f32 := Host.absf main_arg10
  let main_cst_16 : FVec F S_ .f32 := constant S_ .f32 0x7F800000#32
  let main_v45 : FVec F S768x32 .f32 := broadcastInDim S768x32 ![] bcast_S_S768x32 main_cst_16
  let main_v46 : IVec S768x32 1 := cmpf .olt main_v44 main_v45
  let main_c_17 : IVec S_ 1 := constantI S_ 1 1#1
  let main_v47 : IVec S_ 1 := (fun x v => Host.reduce IntOp.andi x v reducesTo_S768x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S50000x768 .f32) (main_arg6 : FVec F S768x32 .f32) (main_arg7 : FVec F S32 .f32) (main_arg8 : FVec F S768x32 .f32) (main_arg9 : FVec F S32 .f32) (main_arg10 : FVec F S768x32 .f32) (main_arg11 : FVec F S32 .f32) (main_arg12 : FVec F S6x32 .f32) (main_arg13 : FVec F S32 .f32) (main_arg14 : FVec F S11x32 .f32) (main_arg15 : FVec F S32 .f32) (main_arg16 : FVec F S160x160 .f32) (main_arg17 : FVec F S160 .f32) (main_arg18 : FVec F S160x160 .f32) (main_arg19 : FVec F S160 .f32) (main_arg20 : FVec F S160x160 .f32) (main_arg21 : FVec F S160x160 .f32) (main_arg22 : FVec F S160 .f32) (main_arg23 : FVec F S160x2 .f32) (main_arg24 : FVec F S2 .f32) (main_v13 : IVec S_ 1) (main_v16 : IVec S50000x768 1) : IVec S_ 1 :=
  let main_c_5 : IVec S_ 1 := constantI S_ 1 1#1
  let main_v17 : IVec S_ 1 := (fun x v => Host.reduce IntOp.andi x v reducesTo_S50000x768_S_d0_1 h_S_) main_v16 main_c_5
  let main_v18 : IVec S_ 1 := andi main_v13 main_v17
  let main_v19 : FVec F S50000x768 .f32 := Host.absf main_arg5
  let main_cst_6 : FVec F S_ .f32 := constant S_ .f32 0x7F800000#32
  let main_v20 : FVec F S50000x768 .f32 := broadcastInDim S50000x768 ![] bcast_S_S50000x768 main_cst_6
  let main_v21 : IVec S50000x768 1 := cmpf .olt main_v19 main_v20
  let main_c_7 : IVec S_ 1 := constantI S_ 1 1#1
  let main_v22 : IVec S_ 1 := (fun x v => Host.reduce IntOp.andi x v reducesTo_S50000x768_S_d0_1 h_S_) main_v21 main_c_7
  let main_v23 : IVec S_ 1 := andi main_v18 main_v22
  let main_v24 : FVec F S768x32 .f32 := Host.absf main_arg6
  let main_cst_8 : FVec F S_ .f32 := constant S_ .f32 0x7F800000#32
  let main_v25 : FVec F S768x32 .f32 := broadcastInDim S768x32 ![] bcast_S_S768x32 main_cst_8
  let main_v26 : IVec S768x32 1 := cmpf .olt main_v24 main_v25
  let main_c_9 : IVec S_ 1 := constantI S_ 1 1#1
  let main_v27 : IVec S_ 1 := (fun x v => Host.reduce IntOp.andi x v reducesTo_S768x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x768 .f32) (main_arg1 : IVec S2x500000 32) (main_arg2 : FVec F S50000x6 .f32) (main_arg3 : FVec F S50000x11 .f32) (main_arg4 : FVec F S50000x768 .f32) (main_arg5 : FVec F S50000x768 .f32) (main_arg6 : FVec F S768x32 .f32) (main_arg7 : FVec F S32 .f32) (main_arg8 : FVec F S768x32 .f32) (main_arg9 : FVec F S32 .f32) (main_arg10 : FVec F S768x32 .f32) (main_arg11 : FVec F S32 .f32) (main_arg12 : FVec F S6x32 .f32) (main_arg13 : FVec F S32 .f32) (main_arg14 : FVec F S11x32 .f32) (main_arg15 : FVec F S32 .f32) (main_arg16 : FVec F S160x160 .f32) (main_arg17 : FVec F S160 .f32) (main_arg18 : FVec F S160x160 .f32) (main_arg19 : FVec F S160 .f32) (main_arg20 : FVec F S160x160 .f32) (main_arg21 : FVec F S160x160 .f32) (main_arg22 : FVec F S160 .f32) (main_arg23 : FVec F S160x2 .f32) (main_arg24 : FVec F S2 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S50000x6 .f32 := Host.absf main_arg2
  let main_cst_0 : FVec F S_ .f32 := constant S_ .f32 0x7F800000#32
  let main_v5 : FVec F S50000x6 .f32 := broadcastInDim S50000x6 ![] bcast_S_S50000x6 main_cst_0
  let main_v6 : IVec S50000x6 1 := cmpf .olt main_v4 main_v5
  let main_c_1 : IVec S_ 1 := constantI S_ 1 1#1
  let main_v7 : IVec S_ 1 := (fun x v => Host.reduce IntOp.andi x v reducesTo_S50000x6_S_d0_1 h_S_) main_v6 main_c_1
  let main_v8 : IVec S_ 1 := andi main_v3 main_v7
  let main_v9 : FVec F S50000x11 .f32 := Host.absf main_arg3
  let main_cst_2 : FVec F S_ .f32 := constant S_ .f32 0x7F800000#32
  let main_v10 : FVec F S50000x11 .f32 := broadcastInDim S50000x11 ![] bcast_S_S50000x11 main_cst_2
  let main_v11 : IVec S50000x11 1 := cmpf .olt main_v9 main_v10
  let main_c_3 : IVec S_ 1 := constantI S_ 1 1#1
  let main_v12 : IVec S_ 1 := (fun x v => Host.reduce IntOp.andi x v reducesTo_S50000x11_S_d0_1 h_S_) main_v11 main_c_3
  let main_v13 : IVec S_ 1 := andi main_v8 main_v12
  let main_v14 : FVec F S50000x768 .f32 := Host.absf main_arg4
  let main_cst_4 : FVec F S_ .f32 := constant S_ .f32 0x7F800000#32
  let main_v15 : FVec F S50000x768 .f32 := broadcastInDim S50000x768 ![] bcast_S_S50000x768 main_cst_4
  let main_v16 : IVec S50000x768 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x768 : Shape := ⟨2, ![50000, 768]⟩
abbrev S2x500000 : Shape := ⟨2, ![2, 500000]⟩
abbrev S50000x6 : Shape := ⟨2, ![50000, 6]⟩
abbrev S50000x11 : Shape := ⟨2, ![50000, 11]⟩
abbrev S768x32 : Shape := ⟨2, ![768, 32]⟩
abbrev S32 : Shape := ⟨1, ![32]⟩
abbrev S6x32 : Shape := ⟨2, ![6, 32]⟩
abbrev S11x32 : Shape := ⟨2, ![11, 32]⟩
abbrev S160x160 : Shape := ⟨2, ![160, 160]⟩
abbrev S160 : Shape := ⟨1, ![160]⟩
abbrev S160x2 : Shape := ⟨2, ![160, 2]⟩
abbrev S2 : Shape := ⟨1, ![2]⟩
abbrev S1x500000 : Shape := ⟨2, ![1, 500000]⟩
abbrev S500000 : Shape := ⟨1, ![500000]⟩
abbrev S50000x160 : Shape := ⟨2, ![50000, 160]⟩
abbrev S1000x768 : Shape := ⟨2, ![1000, 768]⟩
abbrev S1000x6 : Shape := ⟨2, ![1000, 6]⟩
abbrev S1000x11 : Shape := ⟨2, ![1000, 11]⟩
abbrev S1000x160 : Shape := ⟨2, ![1000, 160]⟩
abbrev S1000x32 : Shape := ⟨2, ![1000, 32]⟩
abbrev S1x32 : Shape := ⟨2, ![1, 32]⟩
abbrev S1x160 : Shape := ⟨2, ![1, 160]⟩
abbrev S_ : Shape := ⟨0, ![]⟩
abbrev S500000x1 : Shape := ⟨2, ![500000, 1]⟩
abbrev S50000x1 : Shape := ⟨2, ![50000, 1]⟩
abbrev S500000x160 : Shape := ⟨2, ![500000, 160]⟩
abbrev S2000x160 : Shape := ⟨2, ![2000, 160]⟩
abbrev S50000x2 : Shape := ⟨2, ![50000, 2]⟩
abbrev S2000x2 : Shape := ⟨2, ![2000, 2]⟩
abbrev S1x2 : Shape := ⟨2, ![1, 2]⟩

abbrev nBuf : Space → Nat
  | .hbm => 73
  | .vmem => 52
  | .smem => 0
  | _ => 0

abbrev bufTy : (tb : Table) → Fin (tcTables nBuf tb) → BufTy
  | .hbm, ⟨0, _⟩ => ⟨S50000x768, .f32⟩
  | .hbm, ⟨1, _⟩ => ⟨S2x500000, .i32⟩
  | .hbm, ⟨2, _⟩ => ⟨S50000x6, .f32⟩
  | .hbm, ⟨3, _⟩ => ⟨S50000x11, .f32⟩
  | .hbm, ⟨4, _⟩ => ⟨S50000x768, .f32⟩
  | .hbm, ⟨5, _⟩ => ⟨S50000x768, .f32⟩
  | .hbm, ⟨6, _⟩ => ⟨S768x32, .f32⟩
  | .hbm, ⟨7, _⟩ => ⟨S32, .f32⟩
  | .hbm, ⟨8, _⟩ => ⟨S768x32, .f32⟩
  | .hbm, ⟨9, _⟩ => ⟨S32, .f32⟩
  | .hbm, ⟨10, _⟩ => ⟨S768x32, .f32⟩
  | .hbm, ⟨11, _⟩ => ⟨S32, .f32⟩
  | .hbm, ⟨12, _⟩ => ⟨S6x32, .f32⟩
  | .hbm, ⟨13, _⟩ => ⟨S32, .f32⟩
  | .hbm, ⟨14, _⟩ => ⟨S11x32, .f32⟩
  | .hbm, ⟨15, _⟩ => ⟨S32, .f32⟩
  | .hbm, ⟨16, _⟩ => ⟨S160x160, .f32⟩
  | .hbm, ⟨17, _⟩ => ⟨S160, .f32⟩
  | .hbm, ⟨18, _⟩ => ⟨S160x160, .f32⟩
  | .hbm, ⟨19, _⟩ => ⟨S160, .f32⟩
  | .hbm, ⟨20, _⟩ => ⟨S160x160, .f32⟩
  | .hbm, ⟨21, _⟩ => ⟨S160x160, .f32⟩
  | .hbm, ⟨22, _⟩ => ⟨S160, .f32⟩
  | .hbm, ⟨23, _⟩ => ⟨S160x2, .f32⟩
  | .hbm, ⟨24, _⟩ => ⟨S2, .f32⟩
  | .hbm, ⟨25, _⟩ => ⟨S1x500000, .i32⟩
  | .hbm, ⟨26, _⟩ => ⟨S500000, .i32⟩
  | .hbm, ⟨27, _⟩ => ⟨S1x500000, .i32⟩
  | .hbm, ⟨28, _⟩ => ⟨S500000, .i32⟩
  | .hbm, ⟨29, _⟩ => ⟨S50000x160, .f32⟩
  | .hbm, ⟨30, _⟩ => ⟨S_, .f32⟩
  | .hbm, ⟨31, _⟩ => ⟨S500000x1, .f32⟩
  | .hbm, ⟨32, _⟩ => ⟨S_, .f32⟩
  | .hbm, ⟨33, _⟩ => ⟨S50000x1, .f32⟩
  | .hbm, ⟨34, _⟩ => ⟨S500000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x160, .f32⟩
  | .hbm, ⟨48, _⟩ => ⟨S_, .f32⟩
  | .hbm, ⟨49, _⟩ => ⟨S50000x160, .f32⟩
  | .hbm, ⟨50, _⟩ => ⟨S500000x1, .i32⟩
  | .hbm, ⟨51, _⟩ => ⟨S50000x160, .f32⟩
  | .hbm, ⟨52, _⟩ => ⟨S50000x160, .f32⟩
  | .hbm, ⟨53, _⟩ => ⟨S50000x160, .f32⟩
  | .hbm, ⟨54, _⟩ => ⟨S50000x160, .f32⟩
  | .hbm, ⟨55, _⟩ => ⟨S_, .i32⟩
  | .hbm, ⟨56, _⟩ => ⟨S500000, .i32⟩
  | .hbm, ⟨57, _⟩ => ⟨S500000, .i1⟩
  | .hbm, ⟨58, _⟩ => ⟨S_, .i32⟩
  | .hbm, ⟨59, _⟩ => ⟨S500000, .i32⟩
  | .hbm, ⟨60, _⟩ => ⟨S500000, .i32⟩
  | .hbm, ⟨61, _⟩ => ⟨S500000, .i32⟩
  | .hbm, ⟨62, _⟩ => ⟨S500000x1, .i32⟩
  | .hbm, ⟨63, _⟩ => ⟨S500000x160, .f32⟩
  | .hbm, ⟨64, _⟩ => ⟨S_, .f32⟩
  | .hbm, ⟨65, _⟩ => ⟨S50000x160, .f32⟩
  | .hbm, ⟨66, _⟩ => ⟨S500000x1, .i32⟩
  | .hbm, ⟨67, _⟩ => ⟨S50000x160, .f32⟩
  | .hbm, ⟨68, _⟩ => ⟨S50000x160, .f32⟩
  | .hbm, ⟨69, _⟩ => ⟨S50000x160, .f32⟩
  | .hbm, ⟨70, _⟩ => ⟨S50000x160, .f32⟩
  | .hbm, ⟨71, _⟩ => ⟨S50000x2, .f32⟩
  | .hbm, ⟨72, _⟩ => ⟨S50000x160, .f32⟩
  | .local _ .vmem, ⟨0, _⟩ => ⟨S1000x768, .f32⟩
  | .local _ .vmem, ⟨1, _⟩ => ⟨S1000x768, .f32⟩
  | .local _ .vmem, ⟨2, _⟩ => ⟨S1000x768, .f32⟩
  | .local _ .vmem, ⟨3, _⟩ => ⟨S1000x768, .f32⟩
  | .local _ .vmem, ⟨4, _⟩ => ⟨S1000x768, .f32⟩
  | .local _ .vmem, ⟨5, _⟩ => ⟨S1000x768, .f32⟩
  | .local _ .vmem, ⟨6, _⟩ => ⟨S1000x6, .f32⟩
  | .local _ .vmem, ⟨7, _⟩ => ⟨S1000x6, .f32⟩
  | .local _ .vmem, ⟨8, _⟩ => ⟨S1000x11, .f32⟩
  | .local _ .vmem, ⟨9, _⟩ => ⟨S1000x11, .f32⟩
  | .local _ .vmem, ⟨10, _⟩ => ⟨S768x32, .f32⟩
  | .local _ .vmem, ⟨11, _⟩ => ⟨S32, .f32⟩
  | .local _ .vmem, ⟨12, _⟩ => ⟨S768x32, .f32⟩
  | .local _ .vmem, ⟨13, _⟩ => ⟨S32, .f32⟩
  | .local _ .vmem, ⟨14, _⟩ => ⟨S768x32, .f32⟩
  | .local _ .vmem, ⟨15, _⟩ => ⟨S32, .f32⟩
  | .local _ .vmem, ⟨16, _⟩ => ⟨S6x32, .f32⟩
  | .local _ .vmem, ⟨17, _⟩ => ⟨S32, .f32⟩
  | .local _ .vmem, ⟨18, _⟩ => ⟨S11x32, .f32⟩
  | .local _ .vmem, ⟨19, _⟩ => ⟨S32, .f32⟩
  | .local _ .vmem, ⟨20, _⟩ => ⟨S160x160, .f32⟩
  | .local _ .vmem, ⟨21, _⟩ => ⟨S160, .f32⟩
  | .local _ .vmem, ⟨22, _⟩ => ⟨S1000x160, .f32⟩
  | .local _ .vmem, ⟨23, _⟩ => ⟨S1000x160, .f32⟩
  | .local _ .vmem, ⟨24, _⟩ => ⟨S2000x160, .f32⟩
  | .local _ .vmem, ⟨25, _⟩ => ⟨S2000x160, .f32⟩
  | .local _ .vmem, ⟨26, _⟩ => ⟨S2000x160, .f32⟩
  | .local _ .vmem, ⟨27, _⟩ => ⟨S2000x160, .f32⟩
  | .local _ .vmem, ⟨28, _⟩ => ⟨S160x160, .f32⟩
  | .local _ .vmem, ⟨29, _⟩ => ⟨S160, .f32⟩
  | .local _ .vmem, ⟨30, _⟩ => ⟨S160x160, .f32⟩
  | .local _ .vmem, ⟨31, _⟩ => ⟨S2000x160, .f32⟩
  | .local _ .vmem, ⟨32, _⟩ => ⟨S2000x160, .f32⟩
  | .local _ .vmem, ⟨33, _⟩ => ⟨S2000x160, .f32⟩
  | .local _ .vmem, ⟨34, _⟩ => ⟨S2000x160, .f32⟩
  | .local _ .vmem, ⟨35, _⟩ => ⟨S2000x160, .f32⟩
  | .local _ .vmem, ⟨36, _⟩ => ⟨S2000x160, .f32⟩
  | .local _ .vmem, ⟨37, _⟩ => ⟨S160x160, .f32⟩
  | .local _ .vmem, ⟨38, _⟩ => ⟨S160, .f32⟩
  | .local _ .vmem, ⟨39, _⟩ => ⟨S160x160, .f32⟩
  | .local _ .vmem, ⟨40, _⟩ => ⟨S2000x160, .f32⟩
  | .local _ .vmem, ⟨41, _⟩ => ⟨S2000x160, .f32⟩
  | .local _ .vmem, ⟨42, _⟩ => ⟨S2000x160, .f32⟩
  | .local _ .vmem, ⟨43, _⟩ => ⟨S2000x160, .f32⟩
  | .local _ .vmem, ⟨44, _⟩ => ⟨S160x160, .f32⟩
  | .local _ .vmem, ⟨45, _⟩ => ⟨S160, .f32⟩
  | .local _ .vmem, ⟨46, _⟩ => ⟨S160x2, .f32⟩
  | .local _ .vmem, ⟨47, _⟩ => ⟨S2, .f32⟩
  | .local _ .vmem, ⟨48, _⟩ => ⟨S2000x2, .f32⟩
  | .local _ .vmem, ⟨49, _⟩ => ⟨S2000x2, .f32⟩
  | .local _ .vmem, ⟨50, _⟩ => ⟨S2000x160, .f32⟩
  | .local _ .vmem, ⟨51, _⟩ => ⟨S2000x160, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst_1 : Ref sig .tc := ⟨.hbm, 36, rfl⟩
abbrev main_v9 : Ref sig .tc := ⟨.hbm, 37, rfl⟩
abbrev main_v10 : Ref sig .tc := ⟨.hbm, 38, rfl⟩
abbrev main_c : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_4 : Ref sig .tc := ⟨.hbm, 55, rfl⟩
abbrev main_v24 : Ref sig .tc := ⟨.hbm, 56, rfl⟩
abbrev main_v25 : Ref sig .tc := ⟨.hbm, 57, rfl⟩
abbrev main_c_5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37_0 : Ref sig .tc := ⟨.hbm, 71, rfl⟩
abbrev main_v37_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg5_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg5_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg5_1 : Ref sig .tc := ⟨.vmem, 49, rfl⟩
abbrev cc3_stg6_0 : Ref sig .tc := ⟨.vmem, 50, rfl⟩
abbrev cc3_stg6_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem3_0 : DmaSem sig := 29
abbrev cc1_sem4_0 : DmaSem sig := 30
abbrev cc1_sem5_0 : DmaSem sig := 31
abbrev cc1_sem5_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem3_0 : DmaSem sig := 38
abbrev cc2_sem4_0 : DmaSem sig := 39
abbrev cc2_sem5_0 : DmaSem sig := 40
abbrev cc2_sem5_1 : DmaSem sig := 41
abbrev cc3_sem0_0 : DmaSem sig := 42
abbrev cc3_sem0_1 : DmaSem sig := 43
abbrev cc3_sem1_0 : DmaSem sig := 44
abbrev cc3_sem2_0 : DmaSem sig := 45
abbrev cc3_sem3_0 : DmaSem sig := 46
abbrev cc3_sem4_0 : DmaSem sig := 47
abbrev cc3_sem5_0 : DmaSem sig := 48
abbrev cc3_sem5_1 : DmaSem sig := 49
abbrev cc3_sem6_0 : DmaSem sig := 50
abbrev cc3_sem6_1 : DmaSem sig := 51

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x11 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S11x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S160x160 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S160 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1000x160 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x160 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S160x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S160 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S160x160 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x160 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x160 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x160 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S160x160 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S160 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S160x160 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x160 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x160 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S160x160 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S160 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S160x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x160 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  inb_S1000x768_S1000x768_0_0 : ∀ a, (![0, 0] : Fin 2 → Nat) a + S1000x768.size a ≤ S1000x768.size a
  h_S1000x768 : 0 < S1000x768.numel
  bitsLt_bf16_f32 : FTy.bits .bf16 < FTy.bits .f32
  inb_S768x32_S768x32_0_0 : ∀ a, (![0, 0] : Fin 2 → Nat) a + S768x32.size a ≤ S768x32.size a
  h_S768x32 : 0 < S768x32.numel
  inb_S32_S32_0 : ∀ a, (![0] : Fin 1 → Nat) a + S32.size a ≤ S32.size a
  h_S32 : 0 < S32.numel
  shapeCasts_S32_S1x32 : S32.ShapeCasts S1x32
  broadcasts_S1x32_S1000x32 : S1x32.Broadcasts S1000x32
  inb_S1000x6_S1000x6_0_0 : ∀ a, (![0, 0] : Fin 2 → Nat) a + S1000x6.size a ≤ S1000x6.size a
  h_S1000x6 : 0 < S1000x6.numel
  inb_S6x32_S6x32_0_0 : ∀ a, (![0, 0] : Fin 2 → Nat) a + S6x32.size a ≤ S6x32.size a
  h_S6x32 : 0 < S6x32.numel
  inb_S1000x11_S1000x11_0_0 : ∀ a, (![0, 0] : Fin 2 → Nat) a + S1000x11.size a ≤ S1000x11.size a
  h_S1000x11 : 0 < S1000x11.numel
  inb_S11x32_S11x32_0_0 : ∀ a, (![0, 0] : Fin 2 → Nat) a + S11x32.size a ≤ S11x32.size a
  h_S11x32 : 0 < S11x32.numel
  concatenates_S1000x32_S1000x32_S1000x32_S1000x32_S1000x32_S1000x160_d1 : Shape.Concatenates [S1000x32, S1000x32, S1000x32, S1000x32, S1000x32] S1000x160 1
  inb_S160x160_S160x160_0_0 : ∀ a, (![0, 0] : Fin 2 → Nat) a + S160x160.size a ≤ S160x160.size a
  h_S160x160 : 0 < S160x160.numel
  inb_S160_S160_0 : ∀ a, (![0] : Fin 1 → Nat) a + S160.size a ≤ S160.size a
  h_S160 : 0 < S160.numel
  shapeCasts_S160_S1x160 : S160.ShapeCasts S1x160
  broadcasts_S1x160_S1000x160 : S1x160.Broadcasts S1000x160
  inb_S1000x160_S1000x160_0_0 : ∀ a, (![0, 0] : Fin 2 → Nat) a + S1000x160.size a ≤ S1000x160.size a
  h_S1000x160 : 0 < S1000x160.numel
  bcast_S_S500000x1 : S_.BroadcastsInDim S500000x1 (![] : Fin 0 → Fin S500000x1.rank)
  bcast_S_S50000x1 : S_.BroadcastsInDim S50000x1 (![] : Fin 0 → Fin S50000x1.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S50000x160 : S_.BroadcastsInDim S50000x160 (![] : Fin 0 → Fin S50000x160.rank)
  bcast_S50000x1_S50000x160_0_1 : S50000x1.BroadcastsInDim S50000x160 (![0, 1] : Fin 2 → Fin S50000x160.rank)
  inb_S2000x160_S2000x160_0_0 : ∀ a, (![0, 0] : Fin 2 → Nat) a + S2000x160.size a ≤ S2000x160.size a
  h_S2000x160 : 0 < S2000x160.numel
  shapeCasts_S2000x160_S2000x160 : S2000x160.ShapeCasts S2000x160
  broadcasts_S1x160_S2000x160 : S1x160.Broadcasts S2000x160
  inb_S160x2_S160x2_0_0 : ∀ a, (![0, 0] : Fin 2 → Nat) a + S160x2.size a ≤ S160x2.size a
  h_S160x2 : 0 < S160x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  dot_S1000x768_S768x32_S1000x32_1_0_0_1_n_n_wf : DotDims.WF S1000x768 S768x32 S1000x32 [1] [0] [0] [1] [] []
  dot_S1000x6_S6x32_S1000x32_1_0_0_1_n_n_wf : DotDims.WF S1000x6 S6x32 S1000x32 [1] [0] [0] [1] [] []
  dot_S1000x11_S11x32_S1000x32_1_0_0_1_n_n_wf : DotDims.WF S1000x11 S11x32 S1000x32 [1] [0] [0] [1] [] []
  dot_S1000x160_S160x160_S1000x160_1_0_0_1_n_n_wf : DotDims.WF S1000x160 S160x160 S1000x160 [1] [0] [0] [1] [] []
  scatter_S50000x1_S500000x1_S500000x1_1_0_0_1_wf : ScatterDims.WF S50000x1 S500000x1 S500000x1 [1] [0] [0] 1
  gather_S50000x160_S500000x1_S500000x160_1_0_n_n_0_1_1160_wf : GatherDims.WF S50000x160 S500000x1 S500000x160 [1] [0] [] [0] [] 1 ![1, 160]
  scatter_S50000x160_S500000x1_S500000x160_1_0_0_1_wf : ScatterDims.WF S50000x160 S500000x1 S500000x160 [1] [0] [0] 1
  dot_S2000x160_S160x160_S2000x160_1_0_0_1_n_n_wf : DotDims.WF S2000x160 S160x160 S2000x160 [1] [0] [0] [1] [] []
  dot_S2000x160_S160x2_S2000x2_1_0_0_1_n_n_wf : DotDims.WF S2000x160 S160x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S50000x768.size a
  hwx0_0 : ∀ i : grid0.Coords, EltTy.bits .f32 = 32 ∨ (Rect.block (s := S50000x768) S1000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x768.size a ≤ S50000x768.size a
  hwx0_1 : ∀ i : grid0.Coords, EltTy.bits .f32 = 32 ∨ (Rect.block (s := S50000x768) S1000x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x768.size a ≤ S50000x768.size a
  hwx0_2 : ∀ i : grid0.Coords, EltTy.bits .f32 = 32 ∨ (Rect.block (s := S50000x768) S1000x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x6.size a ≤ S50000x6.size a
  hwx0_3 : ∀ i : grid0.Coords, EltTy.bits .f32 = 32 ∨ (Rect.block (s := S50000x6) S1000x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x11.size a ≤ S50000x11.size a
  hwx0_4 : ∀ i : grid0.Coords, EltTy.bits .f32 = 32 ∨ (Rect.block (s := S50000x11) S1000x11.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x32.size a ≤ S768x32.size a
  hwx0_5 : ∀ i : grid0.Coords, EltTy.bits .f32 = 32 ∨ (Rect.block (s := S768x32) S768x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x32.size a ≤ S768x32.size a
  hwx0_7 : ∀ i : grid0.Coords, EltTy.bits .f32 = 32 ∨ (Rect.block (s := S768x32) S768x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768x32.size a ≤ S768x32.size a
  hwx0_9 : ∀ i : grid0.Coords, EltTy.bits .f32 = 32 ∨ (Rect.block (s := S768x32) S768x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S6x32.size a ≤ S6x32.size a
  hwx0_11 : ∀ i : grid0.Coords, EltTy.bits .f32 = 32 ∨ (Rect.block (s := S6x32) S6x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32.size a ≤ S32.size a
  hwx0_12 : ∀ i : grid0.Coords, EltTy.bits .f32 = 32 ∨ (Rect.block (s := S32) S32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S11x32.size a ≤ S11x32.size a
  hwx0_13 : ∀ i : grid0.Coords, EltTy.bits .f32 = 32 ∨ (Rect.block (s := S11x32) S11x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32.size a ≤ S32.size a
  hwx0_14 : ∀ i : grid0.Coords, EltTy.bits .f32 = 32 ∨ (Rect.block (s := S32) S32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S160x160.size a ≤ S160x160.size a
  hwx0_15 : ∀ i : grid0.Coords, EltTy.bits .f32 = 32 ∨ (Rect.block (s := S160x160) S160x160.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S160.size a ≤ S160.size a
  hwx0_16 : ∀ i : grid0.Coords, EltTy.bits .f32 = 32 ∨ (Rect.block (s := S160) S160.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1000x160.size a ≤ S50000x160.size a
  hwx0_17 : ∀ i : grid0.Coords, EltTy.bits .f32 = 32 ∨ (Rect.block (s := S50000x160) S1000x160.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x160.size a ≤ S50000x160.size a
  hwx1_0 : ∀ i : grid1.Coords, EltTy.bits .f32 = 32 ∨ (Rect.block (s := S50000x160) S2000x160.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x160.size a ≤ S50000x160.size a
  hwx1_1 : ∀ i : grid1.Coords, EltTy.bits .f32 = 32 ∨ (Rect.block (s := S50000x160) S2000x160.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S160x160.size a ≤ S160x160.size a
  hwx1_2 : ∀ i : grid1.Coords, EltTy.bits .f32 = 32 ∨ (Rect.block (s := S160x160) S160x160.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S160.size a ≤ S160.size a
  hwx1_3 : ∀ i : grid1.Coords, EltTy.bits .f32 = 32 ∨ (Rect.block (s := S160) S160.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S160x160.size a ≤ S160x160.size a
  hwx1_4 : ∀ i : grid1.Coords, EltTy.bits .f32 = 32 ∨ (Rect.block (s := S160x160) S160x160.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x160.size a ≤ S50000x160.size a
  hwx1_5 : ∀ i : grid1.Coords, EltTy.bits .f32 = 32 ∨ (Rect.block (s := S50000x160) S2000x160.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x160.size a ≤ S50000x160.size a
  hwx2_0 : ∀ i : grid2.Coords, EltTy.bits .f32 = 32 ∨ (Rect.block (s := S50000x160) S2000x160.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x160.size a ≤ S50000x160.size a
  hwx2_1 : ∀ i : grid2.Coords, EltTy.bits .f32 = 32 ∨ (Rect.block (s := S50000x160) S2000x160.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S160x160.size a ≤ S160x160.size a
  hwx2_2 : ∀ i : grid2.Coords, EltTy.bits .f32 = 32 ∨ (Rect.block (s := S160x160) S160x160.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S160.size a ≤ S160.size a
  hwx2_3 : ∀ i : grid2.Coords, EltTy.bits .f32 = 32 ∨ (Rect.block (s := S160) S160.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S160x160.size a ≤ S160x160.size a
  hwx2_4 : ∀ i : grid2.Coords, EltTy.bits .f32 = 32 ∨ (Rect.block (s := S160x160) S160x160.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x160.size a ≤ S50000x160.size a
  hwx2_5 : ∀ i : grid2.Coords, EltTy.bits .f32 = 32 ∨ (Rect.block (s := S50000x160) S2000x160.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x160.size a ≤ S50000x160.size a
  hwx3_0 : ∀ i : grid3.Coords, EltTy.bits .f32 = 32 ∨ (Rect.block (s := S50000x160) S2000x160.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S160x160.size a ≤ S160x160.size a
  hwx3_1 : ∀ i : grid3.Coords, EltTy.bits .f32 = 32 ∨ (Rect.block (s := S160x160) S160x160.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S160.size a ≤ S160.size a
  hwx3_2 : ∀ i : grid3.Coords, EltTy.bits .f32 = 32 ∨ (Rect.block (s := S160) S160.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S160x2.size a ≤ S160x2.size a
  hwx3_3 : ∀ i : grid3.Coords, EltTy.bits .f32 = 32 ∨ (Rect.block (s := S160x2) S160x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2.size a ≤ S2.size a
  hwx3_4 : ∀ i : grid3.Coords, EltTy.bits .f32 = 32 ∨ (Rect.block (s := S2) S2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x2.size a ≤ S50000x2.size a
  hwx3_5 : ∀ i : grid3.Coords, EltTy.bits .f32 = 32 ∨ (Rect.block (s := S50000x2) S2000x2.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x160.size a ≤ S50000x160.size a
  hwx3_6 : ∀ i : grid3.Coords, EltTy.bits .f32 = 32 ∨ (Rect.block (s := S50000x160) S2000x160.size (cc3_transform_6 i) (hinb3_6 i)).WholeWords (EltTy.packing .f32)

variable [Facts₀]

def dot_S1000x768_S768x32_S1000x32_1_0_0_1_n_n : DotDims S1000x768 S768x32 S1000x32 where
  lhsContracting := [1]
  rhsContracting := [0]
  lhsNonContracting := [0]
  rhsNonContracting := [1]
  lhsBatch := []
  rhsBatch := []
  wf := dot_S1000x768_S768x32_S1000x32_1_0_0_1_n_n_wf
def dot_S1000x6_S6x32_S1000x32_1_0_0_1_n_n : DotDims S1000x6 S6x32 S1000x32 where
  lhsContracting := [1]
  rhsContracting := [0]
  lhsNonContracting := [0]
  rhsNonContracting := [1]
  lhsBatch := []
  rhsBatch := []
  wf := dot_S1000x6_S6x32_S1000x32_1_0_0_1_n_n_wf
def dot_S1000x11_S11x32_S1000x32_1_0_0_1_n_n : DotDims S1000x11 S11x32 S1000x32 where
  lhsContracting := [1]
  rhsContracting := [0]
  lhsNonContracting := [0]
  rhsNonContracting := [1]
  lhsBatch := []
  rhsBatch := []
  wf := dot_S1000x11_S11x32_S1000x32_1_0_0_1_n_n_wf
def dot_S1000x160_S160x160_S1000x160_1_0_0_1_n_n : DotDims S1000x160 S160x160 S1000x160 where
  lhsContracting := [1]
  rhsContracting := [0]
  lhsNonContracting := [0]
  rhsNonContracting := [1]
  lhsBatch := []
  rhsBatch := []
  wf := dot_S1000x160_S160x160_S1000x160_1_0_0_1_n_n_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def gather_S50000x160_S500000x1_S500000x160_1_0_n_n_0_1_1160 : GatherDims S50000x160 S500000x1 S500000x160 where
  offsetDims := [1]
  collapsedSliceDims := [0]
  operandBatchingDims := []
  startIndicesBatchingDims := []
  startIndexMap := [0]
  indexVectorDim := 1
  sliceSizes := ![1, 160]
  wf := gather_S50000x160_S500000x1_S500000x160_1_0_n_n_0_1_1160_wf
def scatter_S50000x160_S500000x1_S500000x160_1_0_0_1 : ScatterDims S50000x160 S500000x1 S500000x160 where
  updateWindowDims := [1]
  insertedWindowDims := [0]
  scatterDimsToOperandDims := [0]
  indexVectorDim := 1
  wf := scatter_S50000x160_S500000x1_S500000x160_1_0_0_1_wf
def dot_S2000x160_S160x160_S2000x160_1_0_0_1_n_n : DotDims S2000x160 S160x160 S2000x160 where
  lhsContracting := [1]
  rhsContracting := [0]
  lhsNonContracting := [0]
  rhsNonContracting := [1]
  lhsBatch := []
  rhsBatch := []
  wf := dot_S2000x160_S160x160_S2000x160_1_0_0_1_n_n_wf
def dot_S2000x160_S160x2_S2000x2_1_0_0_1_n_n : DotDims S2000x160 S160x2 S2000x2 where
  lhsContracting := [1]
  rhsContracting := [0]
  lhsNonContracting := [0]
  rhsNonContracting := [1]
  lhsBatch := []
  rhsBatch := []
  wf := dot_S2000x160_S160x2_S2000x2_1_0_0_1_n_n_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1000x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1000x6.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1000x11.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S768x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S768x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S768x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S6x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S11x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S160x160.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S160.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v4) S1000x160.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_v22) S2000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x160.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg18) S160x160.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg19) S160.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg20) S160x160.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S2000x160.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S2000x160.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S2000x160.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg18) S160x160.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg19) S160.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg20) S160x160.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S2000x160.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v36) S2000x160.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg21) S160x160.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg22) S160.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg23) S160x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg24) S2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37_0) S2000x2.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v37_1) S2000x160.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x768 : Shape := ⟨2, ![50000, 768]⟩
abbrev S2x500000 : Shape := ⟨2, ![2, 500000]⟩
abbrev S50000x6 : Shape := ⟨2, ![50000, 6]⟩
abbrev S50000x11 : Shape := ⟨2, ![50000, 11]⟩
abbrev S768x32 : Shape := ⟨2, ![768, 32]⟩
abbrev S32 : Shape := ⟨1, ![32]⟩
abbrev S6x32 : Shape := ⟨2, ![6, 32]⟩
abbrev S11x32 : Shape := ⟨2, ![11, 32]⟩
abbrev S160x160 : Shape := ⟨2, ![160, 160]⟩
abbrev S160 : Shape := ⟨1, ![160]⟩
abbrev S160x2 : Shape := ⟨2, ![160, 2]⟩
abbrev S2 : Shape := ⟨1, ![2]⟩
abbrev S1x500000 : Shape := ⟨2, ![1, 500000]⟩
abbrev S500000 : Shape := ⟨1, ![500000]⟩
abbrev S50000x32 : Shape := ⟨2, ![50000, 32]⟩
abbrev S1x32 : Shape := ⟨2, ![1, 32]⟩
abbrev S_ : Shape := ⟨0, ![]⟩
abbrev S50000x160 : Shape := ⟨2, ![50000, 160]⟩
abbrev S1x160 : Shape := ⟨2, ![1, 160]⟩
abbrev S500000x1 : Shape := ⟨2, ![500000, 1]⟩
abbrev S500000x160 : Shape := ⟨2, ![500000, 160]⟩
abbrev S50000x1 : Shape := ⟨2, ![50000, 1]⟩
abbrev S50000x2 : Shape := ⟨2, ![50000, 2]⟩
abbrev S1x2 : Shape := ⟨2, ![1, 2]⟩

abbrev nBuf : Space → Nat
  | .hbm => 171
  | .vmem => 0
  | .smem => 0
  | _ => 0

abbrev hbmTy0_0 (i : Nat) : BufTy := match i % 128 with
  | 0 => ⟨S50000x768, .f32⟩
  | 1 => ⟨S2x500000, .i32⟩
  | 2 => ⟨S50000x6, .f32⟩
  | 3 => ⟨S50000x11, .f32⟩
  | 4 => ⟨S50000x768, .f32⟩
  | 5 => ⟨S50000x768, .f32⟩
  | 6 => ⟨S768x32, .f32⟩
  | 7 => ⟨S32, .f32⟩
  | 8 => ⟨S768x32, .f32⟩
  | 9 => ⟨S32, .f32⟩
  | 10 => ⟨S768x32, .f32⟩
  | 11 => ⟨S32, .f32⟩
  | 12 => ⟨S6x32, .f32⟩
  | 13 => ⟨S32, .f32⟩
  | 14 => ⟨S11x32, .f32⟩
  | 15 => ⟨S32, .f32⟩
  | 16 => ⟨S160x160, .f32⟩
  | 17 => ⟨S160, .f32⟩
  | 18 => ⟨S160x160, .f32⟩
  | 19 => ⟨S160, .f32⟩
  | 20 => ⟨S160x160, .f32⟩
  | 21 => ⟨S160x160, .f32⟩
  | 22 => ⟨S160, .f32⟩
  | 23 => ⟨S160x2, .f32⟩
  | 24 => ⟨S2, .f32⟩
  | 25 => ⟨S1x500000, .i32⟩
  | 26 => ⟨S500000, .i32⟩
  | 27 => ⟨S1x500000, .i32⟩
  | 28 => ⟨S500000, .i32⟩
  | 29 => ⟨S50000x32, .f32⟩
  | 30 => ⟨S1x32, .f32⟩
  | 31 => ⟨S50000x32, .f32⟩
  | 32 => ⟨S50000x32, .f32⟩
  | 33 => ⟨S_, .f32⟩
  | 34 => ⟨S50000x32, .f32⟩
  | 35 => ⟨S50000x32, .i1⟩
  | 36 => ⟨S_, .f32⟩
  | 37 => ⟨S50000x32, .f32⟩
  | 38 => ⟨S50000x32, .f32⟩
  | 39 => ⟨S50000x32, .f32⟩
  | 40 => ⟨S50000x32, .f32⟩
  | 41 => ⟨S1x32, .f32⟩
  | 42 => ⟨S50000x32, .f32⟩
  | 43 => ⟨S50000x32, .f32⟩
  | 44 => ⟨S_, .f32⟩
  | 45 => ⟨S50000x32, .f32⟩
  | 46 => ⟨S50000x32, .i1⟩
  | 47 => ⟨S_, .f32⟩
  | 48 => ⟨S50000x32, .f32⟩
  | 49 => ⟨S50000x32, .f32⟩
  | 50 => ⟨S50000x32, .f32⟩
  | 51 => ⟨S50000x32, .f32⟩
  | 52 => ⟨S1x32, .f32⟩
  | 53 => ⟨S50000x32, .f32⟩
  | 54 => ⟨S50000x32, .f32⟩
  | 55 => ⟨S_, .f32⟩
  | 56 => ⟨S50000x32, .f32⟩
  | 57 => ⟨S50000x32, .i1⟩
  | 58 => ⟨S_, .f32⟩
  | 59 => ⟨S50000x32, .f32⟩
  | 60 => ⟨S50000x32, .f32⟩
  | 61 => ⟨S50000x32, .f32⟩
  | 62 => ⟨S50000x32, .f32⟩
  | 63 => ⟨S1x32, .f32⟩
  | 64 => ⟨S50000x32, .f32⟩
  | 65 => ⟨S50000x32, .f32⟩
  | 66 => ⟨S_, .f32⟩
  | 67 => ⟨S50000x32, .f32⟩
  | 68 => ⟨S50000x32, .i1⟩
  | 69 => ⟨S_, .f32⟩
  | 70 => ⟨S50000x32, .f32⟩
  | 71 => ⟨S50000x32, .f32⟩
  | 72 => ⟨S50000x32, .f32⟩
  | 73 => ⟨S50000x32, .f32⟩
  | 74 => ⟨S1x32, .f32⟩
  | 75 => ⟨S50000x32, .f32⟩
  | 76 => ⟨S50000x32, .f32⟩
  | 77 => ⟨S_, .f32⟩
  | 78 => ⟨S50000x32, .f32⟩
  | 79 => ⟨S50000x32, .i1⟩
  | 80 => ⟨S_, .f32⟩
  | 81 => ⟨S50000x32, .f32⟩
  | 82 => ⟨S50000x32, .f32⟩
  | 83 => ⟨S50000x32, .f32⟩
  | 84 => ⟨S50000x160, .f32⟩
  | 85 => ⟨S50000x160, .f32⟩
  | 86 => ⟨S1x160, .f32⟩
  | 87 => ⟨S50000x160, .f32⟩
  | 88 => ⟨S50000x160, .f32⟩
  | 89 => ⟨S_, .f32⟩
  | 90 => ⟨S50000x160, .f32⟩
  | 91 => ⟨S50000x160, .i1⟩
  | 92 => ⟨S_, .f32⟩
  | 93 => ⟨S50000x160, .f32⟩
  | 94 => ⟨S50000x160, .f32⟩
  | 95 => ⟨S50000x160, .f32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000x160, .f32⟩
  | 105 => ⟨S_, .f32⟩
  | 106 => ⟨S50000x160, .f32⟩
  | 107 => ⟨S500000x1, .i32⟩
  | 108 => ⟨S50000x160, .f32⟩
  | 109 => ⟨S_, .f32⟩
  | 110 => ⟨S500000x1, .f32⟩
  | 111 => ⟨S_, .f32⟩
  | 112 => ⟨S50000x1, .f32⟩
  | 113 => ⟨S500000x1, .i32⟩
  | 114 => ⟨S50000x1, .f32⟩
  | 115 => ⟨S_, .f32⟩
  | 116 => ⟨S50000x1, .f32⟩
  | 117 => ⟨S50000x1, .f32⟩
  | 118 => ⟨S50000x160, .f32⟩
  | 119 => ⟨S50000x160, .f32⟩
  | 120 => ⟨S50000x160, .f32⟩
  | 121 => ⟨S1x160, .f32⟩
  | 122 => ⟨S50000x160, .f32⟩
  | 123 => ⟨S50000x160, .f32⟩
  | 124 => ⟨S50000x160, .f32⟩
  | 125 => ⟨S50000x160, .f32⟩
  | 126 => ⟨S_, .i32⟩
  | 127 => ⟨S500000, .i32⟩
  | _ => ⟨S50000x768, .f32⟩

abbrev hbmTy0_1 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x160, .f32⟩
  | 7 => ⟨S_, .f32⟩
  | 8 => ⟨S50000x160, .f32⟩
  | 9 => ⟨S500000x1, .i32⟩
  | 10 => ⟨S50000x160, .f32⟩
  | 11 => ⟨S_, .f32⟩
  | 12 => ⟨S500000x1, .f32⟩
  | 13 => ⟨S_, .f32⟩
  | 14 => ⟨S50000x1, .f32⟩
  | 15 => ⟨S500000x1, .i32⟩
  | 16 => ⟨S50000x1, .f32⟩
  | 17 => ⟨S_, .f32⟩
  | 18 => ⟨S50000x1, .f32⟩
  | 19 => ⟨S50000x1, .f32⟩
  | 20 => ⟨S50000x160, .f32⟩
  | 21 => ⟨S50000x160, .f32⟩
  | 22 => ⟨S50000x160, .f32⟩
  | 23 => ⟨S1x160, .f32⟩
  | 24 => ⟨S50000x160, .f32⟩
  | 25 => ⟨S50000x160, .f32⟩
  | 26 => ⟨S50000x160, .f32⟩
  | 27 => ⟨S50000x160, .f32⟩
  | 28 => ⟨S50000x160, .f32⟩
  | 29 => ⟨S1x160, .f32⟩
  | 30 => ⟨S50000x160, .f32⟩
  | 31 => ⟨S50000x160, .f32⟩
  | 32 => ⟨S_, .f32⟩
  | 33 => ⟨S50000x160, .f32⟩
  | 34 => ⟨S50000x160, .i1⟩
  | 35 => ⟨S_, .f32⟩
  | 36 => ⟨S50000x160, .f32⟩
  | 37 => ⟨S50000x160, .f32⟩
  | 38 => ⟨S50000x160, .f32⟩
  | 39 => ⟨S50000x2, .f32⟩
  | 40 => ⟨S1x2, .f32⟩
  | 41 => ⟨S50000x2, .f32⟩
  | 42 => ⟨S50000x2, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_1 : Ref sig .tc := ⟨.hbm, 44, rfl⟩
abbrev main_v17 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_3 : Ref sig .tc := ⟨.hbm, 55, rfl⟩
abbrev main_v26 : Ref sig .tc := ⟨.hbm, 56, rfl⟩
abbrev main_v27 : Ref sig .tc := ⟨.hbm, 57, rfl⟩
abbrev main_cst_4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_5 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_9 : Ref sig .tc := ⟨.hbm, 89, rfl⟩
abbrev main_v54 : Ref sig .tc := ⟨.hbm, 90, rfl⟩
abbrev main_v55 : Ref sig .tc := ⟨.hbm, 91, rfl⟩
abbrev main_cst_10 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c : Ref sig .tc := ⟨.hbm, 96, rfl⟩
abbrev main_v59 : Ref sig .tc := ⟨.hbm, 97, rfl⟩
abbrev main_v60 : Ref sig .tc := ⟨.hbm, 98, rfl⟩
abbrev main_c_11 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_12 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_13 : Ref sig .tc := ⟨.hbm, 109, rfl⟩
abbrev main_v69 : Ref sig .tc := ⟨.hbm, 110, rfl⟩
abbrev main_cst_14 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_15 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_16 : Ref sig .tc := ⟨.hbm, 126, rfl⟩
abbrev main_v83 : Ref sig .tc := ⟨.hbm, 127, rfl⟩
abbrev main_v84 : Ref sig .tc := ⟨.hbm, 128, rfl⟩
abbrev main_c_17 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_18 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_19 : Ref sig .tc := ⟨.hbm, 139, rfl⟩
abbrev main_v93 : Ref sig .tc := ⟨.hbm, 140, rfl⟩
abbrev main_cst_20 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_21 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_22 : Ref sig .tc := ⟨.hbm, 160, rfl⟩
abbrev main_v111 : Ref sig .tc := ⟨.hbm, 161, rfl⟩
abbrev main_v112 : Ref sig .tc := ⟨.hbm, 162, rfl⟩
abbrev main_cst_23 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  concatenates_S50000x32_S50000x32_S50000x32_S50000x32_S50000x32_S50000x160_d1 : Shape.Concatenates [S50000x32, S50000x32, S50000x32, S50000x32, S50000x32] S50000x160 1
  bcast_S160_S1x160_1 : S160.BroadcastsInDim S1x160 (![1] : Fin 1 → Fin S1x160.rank)
  bcast_S1x160_S50000x160_0_1 : S1x160.BroadcastsInDim S50000x160 (![0, 1] : Fin 2 → Fin S50000x160.rank)
  bcast_S_S50000x160 : S_.BroadcastsInDim S50000x160 (![] : Fin 0 → Fin S50000x160.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S50000x1 : S_.BroadcastsInDim S50000x1 (![] : Fin 0 → Fin S50000x1.rank)
  bcast_S50000x1_S50000x160_0_1 : S50000x1.BroadcastsInDim S50000x160 (![0, 1] : Fin 2 → Fin S50000x160.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x768_S768x32_S50000x32_1_0_0_1_n_n_wf : DotDims.WF S50000x768 S768x32 S50000x32 [1] [0] [0] [1] [] []
  dot_S50000x6_S6x32_S50000x32_1_0_0_1_n_n_wf : DotDims.WF S50000x6 S6x32 S50000x32 [1] [0] [0] [1] [] []
  dot_S50000x11_S11x32_S50000x32_1_0_0_1_n_n_wf : DotDims.WF S50000x11 S11x32 S50000x32 [1] [0] [0] [1] [] []
  dot_S50000x160_S160x160_S50000x160_1_0_0_1_n_n_wf : DotDims.WF S50000x160 S160x160 S50000x160 [1] [0] [0] [1] [] []
  gather_S50000x160_S500000x1_S500000x160_1_0_n_n_0_1_1160_wf : GatherDims.WF S50000x160 S500000x1 S500000x160 [1] [0] [] [0] [] 1 ![1, 160]
  scatter_S50000x160_S500000x1_S500000x160_1_0_0_1_wf : ScatterDims.WF S50000x160 S500000x1 S500000x160 [1] [0] [0] 1
  scatter_S50000x1_S500000x1_S500000x1_1_0_0_1_wf : ScatterDims.WF S50000x1 S500000x1 S500000x1 [1] [0] [0] 1
  dot_S50000x160_S160x2_S50000x2_1_0_0_1_n_n_wf : DotDims.WF S50000x160 S160x2 S50000x2 [1] [0] [0] [1] [] []

variable [Facts₀]

def dot_S50000x768_S768x32_S50000x32_1_0_0_1_n_n : DotDims S50000x768 S768x32 S50000x32 where
  lhsContracting := [1]
  rhsContracting := [0]
  lhsNonContracting := [0]
  rhsNonContracting := [1]
  lhsBatch := []
  rhsBatch := []
  wf := dot_S50000x768_S768x32_S50000x32_1_0_0_1_n_n_wf
def dot_S50000x6_S6x32_S50000x32_1_0_0_1_n_n : DotDims S50000x6 S6x32 S50000x32 where
  lhsContracting := [1]
  rhsContracting := [0]
  lhsNonContracting := [0]
  rhsNonContracting := [1]
  lhsBatch := []
  rhsBatch := []
  wf := dot_S50000x6_S6x32_S50000x32_1_0_0_1_n_n_wf
def dot_S50000x11_S11x32_S50000x32_1_0_0_1_n_n : DotDims S50000x11 S11x32 S50000x32 where
  lhsContracting := [1]
  rhsContracting := [0]
  lhsNonContracting := [0]
  rhsNonContracting := [1]
  lhsBatch := []
  rhsBatch := []
  wf := dot_S50000x11_S11x32_S50000x32_1_0_0_1_n_n_wf
def dot_S50000x160_S160x160_S50000x160_1_0_0_1_n_n : DotDims S50000x160 S160x160 S50000x160 where
  lhsContracting := [1]
  rhsContracting := [0]
  lhsNonContracting := [0]
  rhsNonContracting := [1]
  lhsBatch := []
  rhsBatch := []
  wf := dot_S50000x160_S160x160_S50000x160_1_0_0_1_n_n_wf
def gather_S50000x160_S500000x1_S500000x160_1_0_n_n_0_1_1160 : GatherDims S50000x160 S500000x1 S500000x160 where
  offsetDims := [1]
  collapsedSliceDims := [0]
  operandBatchingDims := []
  startIndicesBatchingDims := []
  startIndexMap := [0]
  indexVectorDim := 1
  sliceSizes := ![1, 160]
  wf := gather_S50000x160_S500000x1_S500000x160_1_0_n_n_0_1_1160_wf
def scatter_S50000x160_S500000x1_S500000x160_1_0_0_1 : ScatterDims S50000x160 S500000x1 S500000x160 where
  updateWindowDims := [1]
  insertedWindowDims := [0]
  scatterDimsToOperandDims := [0]
  indexVectorDim := 1
  wf := scatter_S50000x160_S500000x1_S500000x160_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def dot_S50000x160_S160x2_S50000x2_1_0_0_1_n_n : DotDims S50000x160 S160x2 S50000x2 where
  lhsContracting := [1]
  rhsContracting := [0]
  lhsNonContracting := [0]
  rhsNonContracting := [1]
  lhsBatch := []
  rhsBatch := []
  wf := dot_S50000x160_S160x2_S50000x2_1_0_0_1_n_n_wf

class Facts : Prop extends Facts₀ where

variable [Facts]
-- ==== Proof.KernelRun.lean ====
/-
  The idealized kernel program's run with its two results kept.
  The program is seven segments: three stretches of host operations and four pipelined regions. Every weakly fair
  execution from a memory with zero counters goes through them in order, and at the end every buffer that outlives
  the regions holds what the fold of the segments leaves in it: a host stretch leaves its operations' results, a
  region leaves each output array at the fold of its blocks' write-backs and everything else as it found it. Read
  at the two result buffers this is the value of the program; read at the arguments it is the frame.
-/
import proofs.«106324_j28432683499967_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at the
    contents the last boundary of the fold gives them, and the arguments end as launched. -/
theorem run : θ_run defs (onTc (τ := τ) (main (F := F))) ⟨m, fun _ => 0, ρ⟩ (fun r => ∀ c : Dev nD,
      r.2.mem ((c.tc : Thread nD τ).loc main_v37_0) = W7 m ρ c (Proc.devRef .tc main_v37_0)
      ∧ r.2.mem ((c.tc : Thread nD τ).loc main_v37_1) = W7 m ρ c (Proc.devRef .tc main_v37_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v37_0 (by decide)),
       h c _ (mem_uc main_v37_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c),
       (h c _ (mem_uc main_arg21 (by decide))).trans (W7_main_arg21 m ρ c),
       (h c _ (mem_uc main_arg22 (by decide))).trans (W7_main_arg22 m ρ c),
       (h c _ (mem_uc main_arg23 (by decide))).trans (W7_main_arg23 m ρ c),
       (h c _ (mem_uc main_arg24 (by decide))).trans (W7_main_arg24 m ρ c)⟩)

end Cert.KernelIdeal.RunValue

end
-- ==== Proof.Layers.lean ====
/-
  The dense layers of the network as whole-array functions on the extended reals, written with the
  operations of the host program: a matrix product is `Host.dotGeneral` (at `Ideal` the plain sum over the
  contracted axis), a bias is a row repeated down the rows, and the leaky rectifier keeps an entry where it is
  positive and multiplies it by the constant 0.01 (as a binary32 word) elsewhere.
  Every function here takes the arrays it reads as arguments, so a statement "this array is that layer of those
  arrays" can be chained from the inputs to the results.
-/
import proofs.«106324_j28432683499967_2_alg».proof.ReferenceIdeal
import proofs.«106324_j28432683499967_2_alg».proof.Proof.Gen.ReferenceIdeal
import Idealize.ShloMosaic.PureOps.Ideal

noncomputable section

namespace Cert.Proof.Layers

open Cert.ReferenceIdeal Cert.ReferenceIdeal.Gen Idealize.ShloMosaic Idealize.ShloMosaic.TcCoe Idealize.SL.Sem Idealize.ShloMosaic.StableHlo

variable {F : FTy → Type} [FloatOps F]

/-- A 50000 × 160 array of floats (one row per node, 160 features). -/
abbrev Feat (F : FTy → Type) : Type := (⟨S50000x160, .f32⟩ : BufTy).Contents (Elt F)
/-- A 160 × 160 weight matrix. -/
abbrev Mat (F : FTy → Type) : Type := (⟨S160x160, .f32⟩ : BufTy).Contents (Elt F)
/-- A bias of 160 entries. -/
abbrev Bias (F : FTy → Type) : Type := (⟨S160, .f32⟩ : BufTy).Contents (Elt F)

/-- `y` where `y > 0`, `0.01 · y` elsewhere, entry by entry. -/
def leaky (y : Feat F) : Feat F :=
  select (cmpf .ogt y (broadcastInDim S50000x160 ![] bcast_S_S50000x160 (constant S_ .f32 0x00000000#32))) y
    (mulf (broadcastInDim S50000x160 ![] bcast_S_S50000x160 (constant S_ .f32 0x3C23D70A#32)) y)

/-- The bias `b` as a 50000 × 160 array: entry `(r, j)` is `b j`. -/
def rowBias (b : Bias F) : Feat F :=
  broadcastInDim S50000x160 ![0, 1] bcast_S1x160_S50000x160_0_1 (broadcastInDim S1x160 ![1] bcast_S160_S1x160_1 b)

/-- `y · W`: entry `(r, j)` is the sum over `k` of `y (r, k) · W (k, j)`. -/
def matW (y : Feat F) (W : Mat F) : Feat F :=
  Host.dotGeneral dot_S50000x160_S160x160_S50000x160_1_0_0_1_n_n none y W

/-- The dense half of one graph-convolution layer: `(mean · W_l + b_l) + h · W_r`. -/
def sageLayer (mean h : Feat F) (Wl : Mat F) (bl : Bias F) (Wr : Mat F) : Feat F :=
  addf (addf (matW mean Wl) (rowBias bl)) (matW h Wr)

/-- The embedding of the output head: the leaky rectifier of `h · W_o1 + b_o1`. -/
def headEm (h : Feat F) (Wo1 : Mat F) (bo1 : Bias F) : Feat F :=
  leaky (addf (matW h Wo1) (rowBias bo1))

/-- The two logits of the output head: `em · W_o2 + b_o2`. -/
def headOut (em : Feat F) (Wo2 : (⟨S160x2, .f32⟩ : BufTy).Contents (Elt F)) (bo2 : (⟨S2, .f32⟩ : BufTy).Contents (Elt F)) :
    (⟨S50000x2, .f32⟩ : BufTy).Contents (Elt F) :=
  addf (Host.dotGeneral dot_S50000x160_S160x2_S50000x2_1_0_0_1_n_n none em Wo2)
    (broadcastInDim S50000x2 ![0, 1] bcast_S1x2_S50000x2_0_1 (broadcastInDim S1x2 ![1] bcast_S2_S1x2_1 bo2))

end Cert.Proof.Layers

end
-- ==== Proof.Aggregate.lean ====
/-
  The irregular part of the network, and the network as one function of its arguments.
  An edge list is a 2 × 500000 array of node numbers: row 0 the sources, row 1 the destinations. A layer's
  aggregation gathers the source rows of the feature array (a negative source number counts from the end),
  adds them up per destination node, and divides each node's sum by its in-degree, taken at least 1.
  Both programs compute this part with the same host operations, so it is kept as those operations throughout and
  never opened: the two sides meet by congruence.
-/
import proofs.«106324_j28432683499967_2_alg».proof.Proof.Layers

noncomputable section

namespace Cert.Proof.Layers

open Cert.ReferenceIdeal Cert.ReferenceIdeal.Gen Idealize.ShloMosaic Idealize.ShloMosaic.TcCoe Idealize.SL.Sem Idealize.ShloMosaic.StableHlo

variable {F : FTy → Type} [FloatOps F]

/-- The edge list. -/
abbrev Edges (F : FTy → Type) : Type := (⟨S2x500000, .i32⟩ : BufTy).Contents (Elt F)
/-- One node number per edge. -/
abbrev Nodes (F : FTy → Type) : Type := (⟨S500000, .i32⟩ : BufTy).Contents (Elt F)
/-- One number per node. -/
abbrev PerNode (F : FTy → Type) : Type := (⟨S50000x1, .f32⟩ : BufTy).Contents (Elt F)

/-- Row 0 of the edge list: each edge's source node. -/
def sources (e : Edges F) : Nodes F :=
  shapeCast _ (extractStridedSlice S1x500000 ![0, 0] e slices_S2x500000_S1x500000_0_0) shapeCasts_S1x500000_S500000

/-- Row 1 of the edge list: each edge's destination node. -/
def dests (e : Edges F) : Nodes F :=
  shapeCast _ (extractStridedSlice S1x500000 ![1, 0] e slices_S2x500000_S1x500000_1_0) shapeCasts_S1x500000_S500000

/-- A negative node number `s` read as `s + 50000`. -/
def wrapped (s : Nodes F) : Nodes F :=
  select (cmpi .slt s (broadcastInDim S500000 ![] bcast_S_S500000 (constantI S_ 32 0#32)))
    (addi s (broadcastInDim S500000 ![] bcast_S_S500000 (constantI S_ 32 50000#32))) s

/-- Each node's in-degree (the number of edges that end in it), or 1 if that is larger. -/
def degree (d : Nodes F) : PerNode F :=
  maximumf
    (Host.scatterAdd scatter_S50000x1_S500000x1_S500000x1_1_0_0_1
      (broadcastInDim S50000x1 ![] bcast_S_S50000x1 (constant S_ .f32 0x00000000#32))
      (broadcastInDim S500000x1 ![0] bcast_S500000_S500000x1_0 d)
      (broadcastInDim S500000x1 ![] bcast_S_S500000x1 (constant S_ .f32 0x3F800000#32)))
    (broadcastInDim S50000x1 ![] bcast_S_S50000x1 (constant S_ .f32 0x3F800000#32))

/-- The sum over each node's incoming edges of the source's feature row. -/
def edgeSum (h : Feat F) (s d : Nodes F) : Feat F :=
  Host.scatterAdd scatter_S50000x160_S500000x1_S500000x160_1_0_0_1
    (broadcastInDim S50000x160 ![] bcast_S_S50000x160 (constant S_ .f32 0x00000000#32))
    (broadcastInDim S500000x1 ![0] bcast_S500000_S500000x1_0 d)
    (Host.gather gather_S50000x160_S500000x1_S500000x160_1_0_n_n_0_1_1160 h
      (broadcastInDim S500000x1 ![0] bcast_S500000_S500000x1_0 (wrapped s)))

/-- The mean over each node's incoming edges: the sum divided by the degree. -/
def meanAgg (h : Feat F) (s d : Nodes F) (deg : PerNode F) : Feat F :=
  Host.divf (edgeSum h s d) (broadcastInDim S50000x160 ![0, 1] bcast_S50000x1_S50000x160_0_1 deg)

/-- One graph-convolution layer on the features `h`: the dense half applied to the aggregated means and to `h`. -/
def conv (h : Feat F) (e : Edges F) (Wl : Mat F) (bl : Bias F) (Wr : Mat F) : Feat F :=
  sageLayer (meanAgg h (sources e) (dests e) (degree (dests e))) h Wl bl Wr

end Cert.Proof.Layers

end
-- ==== Proof.KernelChain.lean ====
/-
  What the buffers hold at the boundaries between the segments of the idealized kernel program.
  Boundary 0 is the launch; a host stretch takes boundary 2k to 2k+1 and a region takes 2k+1 to 2k+2 (the last two
  regions are adjacent). A buffer that a segment does not write holds at the next boundary what it held before, so
  an argument holds its launch contents at every boundary, the two rows of the edge list (computed by the first
  stretch) and the degrees (computed by the second) are carried along, and each aggregation stretch leaves the mean
  aggregation of the feature array the previous region produced.
-/
import proofs.«106324_j28432683499967_2_alg».proof.Proof.Gen.KernelIdeal.Frame
import proofs.«106324_j28432683499967_2_alg».proof.Proof.Aggregate
import Idealize.ShloMosaic.Lib.StableHlo.Run

set_option maxRecDepth 16384

noncomputable section

namespace Cert.KernelIdeal.Chain

open Cert.KernelIdeal Cert.KernelIdeal.Gen Cert.Proof
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- A host stretch leaves a buffer none of its operations writes as it found it. -/
macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The arguments at the boundaries where a region reads them -/

theorem arg0_at1 : W1 m ρ c (Proc.devRef .tc main_arg0) = m ((c : Thread nD τ).loc main_arg0) :=
  ((by host_keeps hostOps0 : W1 m ρ c (Proc.devRef .tc main_arg0) = W0 m ρ c (Proc.devRef .tc main_arg0))).trans rfl

theorem arg2_at1 : W1 m ρ c (Proc.devRef .tc main_arg2) = m ((c : Thread nD τ).loc main_arg2) :=
  ((by host_keeps hostOps0 : W1 m ρ c (Proc.devRef .tc main_arg2) = W0 m ρ c (Proc.devRef .tc main_arg2))).trans rfl

theorem arg3_at1 : W1 m ρ c (Proc.devRef .tc main_arg3) = m ((c : Thread nD τ).loc main_arg3) :=
  ((by host_keeps hostOps0 : W1 m ρ c (Proc.devRef .tc main_arg3) = W0 m ρ c (Proc.devRef .tc main_arg3))).trans rfl

theorem arg4_at1 : W1 m ρ c (Proc.devRef .tc main_arg4) = m ((c : Thread nD τ).loc main_arg4) :=
  ((by host_keeps hostOps0 : W1 m ρ c (Proc.devRef .tc main_arg4) = W0 m ρ c (Proc.devRef .tc main_arg4))).trans rfl

theorem arg5_at1 : W1 m ρ c (Proc.devRef .tc main_arg5) = m ((c : Thread nD τ).loc main_arg5) :=
  ((by host_keeps hostOps0 : W1 m ρ c (Proc.devRef .tc main_arg5) = W0 m ρ c (Proc.devRef .tc main_arg5))).trans rfl

theorem arg6_at1 : W1 m ρ c (Proc.devRef .tc main_arg6) = m ((c : Thread nD τ).loc main_arg6) :=
  ((by host_keeps hostOps0 : W1 m ρ c (Proc.devRef .tc main_arg6) = W0 m ρ c (Proc.devRef .tc main_arg6))).trans rfl

theorem arg7_at1 : W1 m ρ c (Proc.devRef .tc main_arg7) = m ((c : Thread nD τ).loc main_arg7) :=
  ((by host_keeps hostOps0 : W1 m ρ c (Proc.devRef .tc main_arg7) = W0 m ρ c (Proc.devRef .tc main_arg7))).trans rfl

theorem arg8_at1 : W1 m ρ c (Proc.devRef .tc main_arg8) = m ((c : Thread nD τ).loc main_arg8) :=
  ((by host_keeps hostOps0 : W1 m ρ c (Proc.devRef .tc main_arg8) = W0 m ρ c (Proc.devRef .tc main_arg8))).trans rfl

theorem arg9_at1 : W1 m ρ c (Proc.devRef .tc main_arg9) = m ((c : Thread nD τ).loc main_arg9) :=
  ((by host_keeps hostOps0 : W1 m ρ c (Proc.devRef .tc main_arg9) = W0 m ρ c (Proc.devRef .tc main_arg9))).trans rfl

theorem arg10_at1 : W1 m ρ c (Proc.devRef .tc main_arg10) = m ((c : Thread nD τ).loc main_arg10) :=
  ((by host_keeps hostOps0 : W1 m ρ c (Proc.devRef .tc main_arg10) = W0 m ρ c (Proc.devRef .tc main_arg10))).trans rfl

theorem arg11_at1 : W1 m ρ c (Proc.devRef .tc main_arg11) = m ((c : Thread nD τ).loc main_arg11) :=
  ((by host_keeps hostOps0 : W1 m ρ c (Proc.devRef .tc main_arg11) = W0 m ρ c (Proc.devRef .tc main_arg11))).trans rfl

theorem arg12_at1 : W1 m ρ c (Proc.devRef .tc main_arg12) = m ((c : Thread nD τ).loc main_arg12) :=
  ((by host_keeps hostOps0 : W1 m ρ c (Proc.devRef .tc main_arg12) = W0 m ρ c (Proc.devRef .tc main_arg12))).trans rfl

theorem arg13_at1 : W1 m ρ c (Proc.devRef .tc main_arg13) = m ((c : Thread nD τ).loc main_arg13) :=
  ((by host_keeps hostOps0 : W1 m ρ c (Proc.devRef .tc main_arg13) = W0 m ρ c (Proc.devRef .tc main_arg13))).trans rfl

theorem arg14_at1 : W1 m ρ c (Proc.devRef .tc main_arg14) = m ((c : Thread nD τ).loc main_arg14) :=
  ((by host_keeps hostOps0 : W1 m ρ c (Proc.devRef .tc main_arg14) = W0 m ρ c (Proc.devRef .tc main_arg14))).trans rfl

theorem arg15_at1 : W1 m ρ c (Proc.devRef .tc main_arg15) = m ((c : Thread nD τ).loc main_arg15) :=
  ((by host_keeps hostOps0 : W1 m ρ c (Proc.devRef .tc main_arg15) = W0 m ρ c (Proc.devRef .tc main_arg15))).trans rfl

theorem arg16_at1 : W1 m ρ c (Proc.devRef .tc main_arg16) = m ((c : Thread nD τ).loc main_arg16) :=
  ((by host_keeps hostOps0 : W1 m ρ c (Proc.devRef .tc main_arg16) = W0 m ρ c (Proc.devRef .tc main_arg16))).trans rfl

theorem arg17_at1 : W1 m ρ c (Proc.devRef .tc main_arg17) = m ((c : Thread nD τ).loc main_arg17) :=
  ((by host_keeps hostOps0 : W1 m ρ c (Proc.devRef .tc main_arg17) = W0 m ρ c (Proc.devRef .tc main_arg17))).trans rfl

theorem arg18_at3 : W3 m ρ c (Proc.devRef .tc main_arg18) = m ((c : Thread nD τ).loc main_arg18) :=
  ((((by host_keeps hostOps1 : W3 m ρ c (Proc.devRef .tc main_arg18) = W2 m ρ c (Proc.devRef .tc main_arg18))).trans (W2_of_ne m ρ c main_arg18 (by decide) : W2 m ρ c (Proc.devRef .tc main_arg18) = W1 m ρ c (Proc.devRef .tc main_arg18))).trans (by host_keeps hostOps0 : W1 m ρ c (Proc.devRef .tc main_arg18) = W0 m ρ c (Proc.devRef .tc main_arg18))).trans rfl

theorem arg18_at5 : W5 m ρ c (Proc.devRef .tc main_arg18) = m ((c : Thread nD τ).loc main_arg18) :=
  ((((((by host_keeps hostOps2 : W5 m ρ c (Proc.devRef .tc main_arg18) = W4 m ρ c (Proc.devRef .tc main_arg18))).trans ((W4_arr m ρ c 2).trans (((dat1 (V3 m ρ) c).arrAt_in 2 rfl _).trans (A_eq1 (V3 m ρ) c 2)) : W4 m ρ c (Proc.devRef .tc main_arg18) = W3 m ρ c (Proc.devRef .tc main_arg18))).trans (by host_keeps hostOps1 : W3 m ρ c (Proc.devRef .tc main_arg18) = W2 m ρ c (Proc.devRef .tc main_arg18))).trans (W2_of_ne m ρ c main_arg18 (by decide) : W2 m ρ c (Proc.devRef .tc main_arg18) = W1 m ρ c (Proc.devRef .tc main_arg18))).trans (by host_keeps hostOps0 : W1 m ρ c (Proc.devRef .tc main_arg18) = W0 m ρ c (Proc.devRef .tc main_arg18))).trans rfl

theorem arg19_at3 : W3 m ρ c (Proc.devRef .tc main_arg19) = m ((c : Thread nD τ).loc main_arg19) :=
  ((((by host_keeps hostOps1 : W3 m ρ c (Proc.devRef .tc main_arg19) = W2 m ρ c (Proc.devRef .tc main_arg19))).trans (W2_of_ne m ρ c main_arg19 (by decide) : W2 m ρ c (Proc.devRef .tc main_arg19) = W1 m ρ c (Proc.devRef .tc main_arg19))).trans (by host_keeps hostOps0 : W1 m ρ c (Proc.devRef .tc main_arg19) = W0 m ρ c (Proc.devRef .tc main_arg19))).trans rfl

theorem arg19_at5 : W5 m ρ c (Proc.devRef .tc main_arg19) = m ((c : Thread nD τ).loc main_arg19) :=
  ((((((by host_keeps hostOps2 : W5 m ρ c (Proc.devRef .tc main_arg19) = W4 m ρ c (Proc.devRef .tc main_arg19))).trans ((W4_arr m ρ c 3).trans (((dat1 (V3 m ρ) c).arrAt_in 3 rfl _).trans (A_eq1 (V3 m ρ) c 3)) : W4 m ρ c (Proc.devRef .tc main_arg19) = W3 m ρ c (Proc.devRef .tc main_arg19))).trans (by host_keeps hostOps1 : W3 m ρ c (Proc.devRef .tc main_arg19) = W2 m ρ c (Proc.devRef .tc main_arg19))).trans (W2_of_ne m ρ c main_arg19 (by decide) : W2 m ρ c (Proc.devRef .tc main_arg19) = W1 m ρ c (Proc.devRef .tc main_arg19))).trans (by host_keeps hostOps0 : W1 m ρ c (Proc.devRef .tc main_arg19) = W0 m ρ c (Proc.devRef .tc main_arg19))).trans rfl

theorem arg20_at3 : W3 m ρ c (Proc.devRef .tc main_arg20) = m ((c : Thread nD τ).loc main_arg20) :=
  ((((by host_keeps hostOps1 : W3 m ρ c (Proc.devRef .tc main_arg20) = W2 m ρ c (Proc.devRef .tc main_arg20))).trans (W2_of_ne m ρ c main_arg20 (by decide) : W2 m ρ c (Proc.devRef .tc main_arg20) = W1 m ρ c (Proc.devRef .tc main_arg20))).trans (by host_keeps hostOps0 : W1 m ρ c (Proc.devRef .tc main_arg20) = W0 m ρ c (Proc.devRef .tc main_arg20))).trans rfl

theorem arg20_at5 : W5 m ρ c (Proc.devRef .tc main_arg20) = m ((c : Thread nD τ).loc main_arg20) :=
  ((((((by host_keeps hostOps2 : W5 m ρ c (Proc.devRef .tc main_arg20) = W4 m ρ c (Proc.devRef .tc main_arg20))).trans ((W4_arr m ρ c 4).trans (((dat1 (V3 m ρ) c).arrAt_in 4 rfl _).trans (A_eq1 (V3 m ρ) c 4)) : W4 m ρ c (Proc.devRef .tc main_arg20) = W3 m ρ c (Proc.devRef .tc main_arg20))).trans (by host_keeps hostOps1 : W3 m ρ c (Proc.devRef .tc main_arg20) = W2 m ρ c (Proc.devRef .tc main_arg20))).trans (W2_of_ne m ρ c main_arg20 (by decide) : W2 m ρ c (Proc.devRef .tc main_arg20) = W1 m ρ c (Proc.devRef .tc main_arg20))).trans (by host_keeps hostOps0 : W1 m ρ c (Proc.devRef .tc main_arg20) = W0 m ρ c (Proc.devRef .tc main_arg20))).trans rfl

theorem arg21_at6 : W6 m ρ c (Proc.devRef .tc main_arg21) = m ((c : Thread nD τ).loc main_arg21) :=
  (((((((W6_of_ne m ρ c main_arg21 (by decide) : W6 m ρ c (Proc.devRef .tc main_arg21) = W5 m ρ c (Proc.devRef .tc main_arg21))).trans (by host_keeps hostOps2 : W5 m ρ c (Proc.devRef .tc main_arg21) = W4 m ρ c (Proc.devRef .tc main_arg21))).trans (W4_of_ne m ρ c main_arg21 (by decide) : W4 m ρ c (Proc.devRef .tc main_arg21) = W3 m ρ c (Proc.devRef .tc main_arg21))).trans (by host_keeps hostOps1 : W3 m ρ c (Proc.devRef .tc main_arg21) = W2 m ρ c (Proc.devRef .tc main_arg21))).trans (W2_of_ne m ρ c main_arg21 (by decide) : W2 m ρ c (Proc.devRef .tc main_arg21) = W1 m ρ c (Proc.devRef .tc main_arg21))).trans (by host_keeps hostOps0 : W1 m ρ c (Proc.devRef .tc main_arg21) = W0 m ρ c (Proc.devRef .tc main_arg21))).trans rfl

theorem arg22_at6 : W6 m ρ c (Proc.devRef .tc main_arg22) = m ((c : Thread nD τ).loc main_arg22) :=
  (((((((W6_of_ne m ρ c main_arg22 (by decide) : W6 m ρ c (Proc.devRef .tc main_arg22) = W5 m ρ c (Proc.devRef .tc main_arg22))).trans (by host_keeps hostOps2 : W5 m ρ c (Proc.devRef .tc main_arg22) = W4 m ρ c (Proc.devRef .tc main_arg22))).trans (W4_of_ne m ρ c main_arg22 (by decide) : W4 m ρ c (Proc.devRef .tc main_arg22) = W3 m ρ c (Proc.devRef .tc main_arg22))).trans (by host_keeps hostOps1 : W3 m ρ c (Proc.devRef .tc main_arg22) = W2 m ρ c (Proc.devRef .tc main_arg22))).trans (W2_of_ne m ρ c main_arg22 (by decide) : W2 m ρ c (Proc.devRef .tc main_arg22) = W1 m ρ c (Proc.devRef .tc main_arg22))).trans (by host_keeps hostOps0 : W1 m ρ c (Proc.devRef .tc main_arg22) = W0 m ρ c (Proc.devRef .tc main_arg22))).trans rfl

theorem arg23_at6 : W6 m ρ c (Proc.devRef .tc main_arg23) = m ((c : Thread nD τ).loc main_arg23) :=
  (((((((W6_of_ne m ρ c main_arg23 (by decide) : W6 m ρ c (Proc.devRef .tc main_arg23) = W5 m ρ c (Proc.devRef .tc main_arg23))).trans (by host_keeps hostOps2 : W5 m ρ c (Proc.devRef .tc main_arg23) = W4 m ρ c (Proc.devRef .tc main_arg23))).trans (W4_of_ne m ρ c main_arg23 (by decide) : W4 m ρ c (Proc.devRef .tc main_arg23) = W3 m ρ c (Proc.devRef .tc main_arg23))).trans (by host_keeps hostOps1 : W3 m ρ c (Proc.devRef .tc main_arg23) = W2 m ρ c (Proc.devRef .tc main_arg23))).trans (W2_of_ne m ρ c main_arg23 (by decide) : W2 m ρ c (Proc.devRef .tc main_arg23) = W1 m ρ c (Proc.devRef .tc main_arg23))).trans (by host_keeps hostOps0 : W1 m ρ c (Proc.devRef .tc main_arg23) = W0 m ρ c (Proc.devRef .tc main_arg23))).trans rfl

theorem arg24_at6 : W6 m ρ c (Proc.devRef .tc main_arg24) = m ((c : Thread nD τ).loc main_arg24) :=
  (((((((W6_of_ne m ρ c main_arg24 (by decide) : W6 m ρ c (Proc.devRef .tc main_arg24) = W5 m ρ c (Proc.devRef .tc main_arg24))).trans (by host_keeps hostOps2 : W5 m ρ c (Proc.devRef .tc main_arg24) = W4 m ρ c (Proc.devRef .tc main_arg24))).trans (W4_of_ne m ρ c main_arg24 (by decide) : W4 m ρ c (Proc.devRef .tc main_arg24) = W3 m ρ c (Proc.devRef .tc main_arg24))).trans (by host_keeps hostOps1 : W3 m ρ c (Proc.devRef .tc main_arg24) = W2 m ρ c (Proc.devRef .tc main_arg24))).trans (W2_of_ne m ρ c main_arg24 (by decide) : W2 m ρ c (Proc.devRef .tc main_arg24) = W1 m ρ c (Proc.devRef .tc main_arg24))).trans (by host_keeps hostOps0 : W1 m ρ c (Proc.devRef .tc main_arg24) = W0 m ρ c (Proc.devRef .tc main_arg24))).trans rfl

/-! ## The edge rows, the degrees, and the aggregations -/

/-- After the first stretch, the source row of the edge list. -/
theorem src_at1 : W1 m ρ c (Proc.devRef .tc main_v1) = Layers.sources (m ((c : Thread nD τ).loc main_arg1)) := by
  show StableHlo.after hostOps0 (W0 m ρ c) (Proc.devRef .tc main_v1) = _
  after_results; rfl
/-- After the first stretch, the destination row of the edge list. -/
theorem dst_at1 : W1 m ρ c (Proc.devRef .tc main_v3) = Layers.dests (m ((c : Thread nD τ).loc main_arg1)) := by
  show StableHlo.after hostOps0 (W0 m ρ c) (Proc.devRef .tc main_v3) = _
  after_results; rfl

theorem src_keep2 : W2 m ρ c (Proc.devRef .tc main_v1) = W1 m ρ c (Proc.devRef .tc main_v1) :=
  (W2_of_ne m ρ c main_v1 (by decide) : W2 m ρ c (Proc.devRef .tc main_v1) = W1 m ρ c (Proc.devRef .tc main_v1))

theorem dst_keep2 : W2 m ρ c (Proc.devRef .tc main_v3) = W1 m ρ c (Proc.devRef .tc main_v3) :=
  (W2_of_ne m ρ c main_v3 (by decide) : W2 m ρ c (Proc.devRef .tc main_v3) = W1 m ρ c (Proc.devRef .tc main_v3))

theorem src_keep4 : W4 m ρ c (Proc.devRef .tc main_v1) = W2 m ρ c (Proc.devRef .tc main_v1) :=
  ((W4_of_ne m ρ c main_v1 (by decide) : W4 m ρ c (Proc.devRef .tc main_v1) = W3 m ρ c (Proc.devRef .tc main_v1))).trans (by host_keeps hostOps1 : W3 m ρ c (Proc.devRef .tc main_v1) = W2 m ρ c (Proc.devRef .tc main_v1))

theorem dst_keep4 : W4 m ρ c (Proc.devRef .tc main_v3) = W2 m ρ c (Proc.devRef .tc main_v3) :=
  ((W4_of_ne m ρ c main_v3 (by decide) : W4 m ρ c (Proc.devRef .tc main_v3) = W3 m ρ c (Proc.devRef .tc main_v3))).trans (by host_keeps hostOps1 : W3 m ρ c (Proc.devRef .tc main_v3) = W2 m ρ c (Proc.devRef .tc main_v3))

/-- The second stretch leaves the degrees of the destination row it finds. -/
theorem deg_at3 : W3 m ρ c (Proc.devRef .tc main_v10) = Layers.degree (W2 m ρ c (Proc.devRef .tc main_v3)) := by
  show StableHlo.after hostOps1 (W2 m ρ c) (Proc.devRef .tc main_v10) = _
  after_results; rfl
set_option maxHeartbeats 1600000 in
/-- The second stretch leaves the mean aggregation of the first region's output over the edge rows it finds. -/
theorem mean_at3 : W3 m ρ c (Proc.devRef .tc main_v22)
    = Layers.meanAgg (W2 m ρ c (Proc.devRef .tc main_v4)) (W2 m ρ c (Proc.devRef .tc main_v1)) (W2 m ρ c (Proc.devRef .tc main_v3)) (Layers.degree (W2 m ρ c (Proc.devRef .tc main_v3))) := by
  show StableHlo.after hostOps1 (W2 m ρ c) (Proc.devRef .tc main_v22) = _
  after_results_simp; rfl

theorem feat0_keep3 : W3 m ρ c (Proc.devRef .tc main_v4) = W2 m ρ c (Proc.devRef .tc main_v4) :=
  (by host_keeps hostOps1 : W3 m ρ c (Proc.devRef .tc main_v4) = W2 m ρ c (Proc.devRef .tc main_v4))

theorem deg_keep4 : W4 m ρ c (Proc.devRef .tc main_v10) = W3 m ρ c (Proc.devRef .tc main_v10) :=
  (W4_of_ne m ρ c main_v10 (by decide) : W4 m ρ c (Proc.devRef .tc main_v10) = W3 m ρ c (Proc.devRef .tc main_v10))

set_option maxHeartbeats 1600000 in
/-- The third stretch leaves the mean aggregation of the second region's output, with the degrees it finds. -/
theorem mean_at5 : W5 m ρ c (Proc.devRef .tc main_v35)
    = Layers.meanAgg (W4 m ρ c (Proc.devRef .tc main_v23)) (W4 m ρ c (Proc.devRef .tc main_v1)) (W4 m ρ c (Proc.devRef .tc main_v3)) (W4 m ρ c (Proc.devRef .tc main_v10)) := by
  show StableHlo.after hostOps2 (W4 m ρ c) (Proc.devRef .tc main_v35) = _
  after_results_simp; rfl

theorem feat1_keep5 : W5 m ρ c (Proc.devRef .tc main_v23) = W4 m ρ c (Proc.devRef .tc main_v23) :=
  (by host_keeps hostOps2 : W5 m ρ c (Proc.devRef .tc main_v23) = W4 m ρ c (Proc.devRef .tc main_v23))

end Cert.KernelIdeal.Chain

end
-- ==== Proof.Network.lean ====
/-
  The network as one function of its twenty-five argument arrays, and the host program's results as that function.
  Features: five linear projections with bias and leaky rectifier, joined along the feature axis and passed through
  one more such layer (the host program's own stage for it); then the graph convolution twice with the same weights;
  then the output head, whose embedding is the second result and whose two logits are the first.
-/
import proofs.«106324_j28432683499967_2_alg».proof.Proof.Aggregate
import proofs.«106324_j28432683499967_2_alg».proof.Proof.Gen.ReferenceIdeal.Run
import proofs.«106324_j28432683499967_2_alg».proof.Proof.Gen.ReferenceIdeal.Read

set_option maxRecDepth 16384

noncomputable section

namespace Cert.Proof.Layers

open Cert.ReferenceIdeal Idealize.ShloMosaic Idealize.ShloMosaic.TcCoe Idealize.SL.Sem Idealize.ShloMosaic.StableHlo

variable {F : FTy → Type} [FloatOps F]

/-- The node features after the fan-in layers: the host program's stage for them. -/
abbrev fanin (a0 : (⟨S50000x768, .f32⟩ : BufTy).Contents (Elt F)) (a2 : (⟨S50000x6, .f32⟩ : BufTy).Contents (Elt F)) (a3 : (⟨S50000x11, .f32⟩ : BufTy).Contents (Elt F)) (a4 : (⟨S50000x768, .f32⟩ : BufTy).Contents (Elt F)) (a5 : (⟨S50000x768, .f32⟩ : BufTy).Contents (Elt F)) (a6 : (⟨S768x32, .f32⟩ : BufTy).Contents (Elt F)) (a7 : (⟨S32, .f32⟩ : BufTy).Contents (Elt F)) (a8 : (⟨S768x32, .f32⟩ : BufTy).Contents (Elt F)) (a9 : (⟨S32, .f32⟩ : BufTy).Contents (Elt F)) (a10 : (⟨S768x32, .f32⟩ : BufTy).Contents (Elt F)) (a11 : (⟨S32, .f32⟩ : BufTy).Contents (Elt F)) (a12 : (⟨S6x32, .f32⟩ : BufTy).Contents (Elt F)) (a13 : (⟨S32, .f32⟩ : BufTy).Contents (Elt F)) (a14 : (⟨S11x32, .f32⟩ : BufTy).Contents (Elt F)) (a15 : (⟨S32, .f32⟩ : BufTy).Contents (Elt F)) (a16 : (⟨S160x160, .f32⟩ : BufTy).Contents (Elt F)) (a17 : (⟨S160, .f32⟩ : BufTy).Contents (Elt F)) : Feat F :=
  Cert.ReferenceIdeal.Read.val_main_v58 (F := F) a0 a2 a3 a4 a5 a6 a7 a8 a9 a10 a11 a12 a13 a14 a15 a16 a17

/-- The embedding: fan-in, two graph convolutions with shared weights, the head's rectified layer. -/
def embedding (a0 : (⟨S50000x768, .f32⟩ : BufTy).Contents (Elt F)) (a1 : (⟨S2x500000, .i32⟩ : BufTy).Contents (Elt F)) (a2 : (⟨S50000x6, .f32⟩ : BufTy).Contents (Elt F)) (a3 : (⟨S50000x11, .f32⟩ : BufTy).Contents (Elt F)) (a4 : (⟨S50000x768, .f32⟩ : BufTy).Contents (Elt F)) (a5 : (⟨S50000x768, .f32⟩ : BufTy).Contents (Elt F)) (a6 : (⟨S768x32, .f32⟩ : BufTy).Contents (Elt F)) (a7 : (⟨S32, .f32⟩ : BufTy).Contents (Elt F)) (a8 : (⟨S768x32, .f32⟩ : BufTy).Contents (Elt F)) (a9 : (⟨S32, .f32⟩ : BufTy).Contents (Elt F)) (a10 : (⟨S768x32, .f32⟩ : BufTy).Contents (Elt F)) (a11 : (⟨S32, .f32⟩ : BufTy).Contents (Elt F)) (a12 : (⟨S6x32, .f32⟩ : BufTy).Contents (Elt F)) (a13 : (⟨S32, .f32⟩ : BufTy).Contents (Elt F)) (a14 : (⟨S11x32, .f32⟩ : BufTy).Contents (Elt F)) (a15 : (⟨S32, .f32⟩ : BufTy).Contents (Elt F)) (a16 : (⟨S160x160, .f32⟩ : BufTy).Contents (Elt F)) (a17 : (⟨S160, .f32⟩ : BufTy).Contents (Elt F)) (a18 : (⟨S160x160, .f32⟩ : BufTy).Contents (Elt F)) (a19 : (⟨S160, .f32⟩ : BufTy).Contents (Elt F)) (a20 : (⟨S160x160, .f32⟩ : BufTy).Contents (Elt F)) (a21 : (⟨S160x160, .f32⟩ : BufTy).Contents (Elt F)) (a22 : (⟨S160, .f32⟩ : BufTy).Contents (Elt F)) : Feat F :=
  headEm (conv (conv (fanin a0 a2 a3 a4 a5 a6 a7 a8 a9 a10 a11 a12 a13 a14 a15 a16 a17) a1 a18 a19 a20) a1 a18 a19 a20) a21 a22

/-- The logits: the embedding times `W_o2` plus `b_o2`. -/
def logits (a0 : (⟨S50000x768, .f32⟩ : BufTy).Contents (Elt F)) (a1 : (⟨S2x500000, .i32⟩ : BufTy).Contents (Elt F)) (a2 : (⟨S50000x6, .f32⟩ : BufTy).Contents (Elt F)) (a3 : (⟨S50000x11, .f32⟩ : BufTy).Contents (Elt F)) (a4 : (⟨S50000x768, .f32⟩ : BufTy).Contents (Elt F)) (a5 : (⟨S50000x768, .f32⟩ : BufTy).Contents (Elt F)) (a6 : (⟨S768x32, .f32⟩ : BufTy).Contents (Elt F)) (a7 : (⟨S32, .f32⟩ : BufTy).Contents (Elt F)) (a8 : (⟨S768x32, .f32⟩ : BufTy).Contents (Elt F)) (a9 : (⟨S32, .f32⟩ : BufTy).Contents (Elt F)) (a10 : (⟨S768x32, .f32⟩ : BufTy).Contents (Elt F)) (a11 : (⟨S32, .f32⟩ : BufTy).Contents (Elt F)) (a12 : (⟨S6x32, .f32⟩ : BufTy).Contents (Elt F)) (a13 : (⟨S32, .f32⟩ : BufTy).Contents (Elt F)) (a14 : (⟨S11x32, .f32⟩ : BufTy).Contents (Elt F)) (a15 : (⟨S32, .f32⟩ : BufTy).Contents (Elt F)) (a16 : (⟨S160x160, .f32⟩ : BufTy).Contents (Elt F)) (a17 : (⟨S160, .f32⟩ : BufTy).Contents (Elt F)) (a18 : (⟨S160x160, .f32⟩ : BufTy).Contents (Elt F)) (a19 : (⟨S160, .f32⟩ : BufTy).Contents (Elt F)) (a20 : (⟨S160x160, .f32⟩ : BufTy).Contents (Elt F)) (a21 : (⟨S160x160, .f32⟩ : BufTy).Contents (Elt F)) (a22 : (⟨S160, .f32⟩ : BufTy).Contents (Elt F)) (a23 : (⟨S160x2, .f32⟩ : BufTy).Contents (Elt F)) (a24 : (⟨S2, .f32⟩ : BufTy).Contents (Elt F)) : (⟨S50000x2, .f32⟩ : BufTy).Contents (Elt F) :=
  headOut (embedding a0 a1 a2 a3 a4 a5 a6 a7 a8 a9 a10 a11 a12 a13 a14 a15 a16 a17 a18 a19 a20 a21 a22) a23 a24

/-- The embedding depends only on its arguments: equal arguments, equal embeddings. -/
theorem embedding_congr {a0 b0 : (⟨S50000x768, .f32⟩ : BufTy).Contents (Elt F)} {a1 b1 : (⟨S2x500000, .i32⟩ : BufTy).Contents (Elt F)} {a2 b2 : (⟨S50000x6, .f32⟩ : BufTy).Contents (Elt F)} {a3 b3 : (⟨S50000x11, .f32⟩ : BufTy).Contents (Elt F)} {a4 b4 : (⟨S50000x768, .f32⟩ : BufTy).Contents (Elt F)} {a5 b5 : (⟨S50000x768, .f32⟩ : BufTy).Contents (Elt F)} {a6 b6 : (⟨S768x32, .f32⟩ : BufTy).Contents (Elt F)} {a7 b7 : (⟨S32, .f32⟩ : BufTy).Contents (Elt F)} {a8 b8 : (⟨S768x32, .f32⟩ : BufTy).Contents (Elt F)} {a9 b9 : (⟨S32, .f32⟩ : BufTy).Contents (Elt F)} {a10 b10 : (⟨S768x32, .f32⟩ : BufTy).Contents (Elt F)} {a11 b11 : (⟨S32, .f32⟩ : BufTy).Contents (Elt F)} {a12 b12 : (⟨S6x32, .f32⟩ : BufTy).Contents (Elt F)} {a13 b13 : (⟨S32, .f32⟩ : BufTy).Contents (Elt F)} {a14 b14 : (⟨S11x32, .f32⟩ : BufTy).Contents (Elt F)} {a15 b15 : (⟨S32, .f32⟩ : BufTy).Contents (Elt F)} {a16 b16 : (⟨S160x160, .f32⟩ : BufTy).Contents (Elt F)} {a17 b17 : (⟨S160, .f32⟩ : BufTy).Contents (Elt F)} {a18 b18 : (⟨S160x160, .f32⟩ : BufTy).Contents (Elt F)} {a19 b19 : (⟨S160, .f32⟩ : BufTy).Contents (Elt F)} {a20 b20 : (⟨S160x160, .f32⟩ : BufTy).Contents (Elt F)} {a21 b21 : (⟨S160x160, .f32⟩ : BufTy).Contents (Elt F)} {a22 b22 : (⟨S160, .f32⟩ : BufTy).Contents (Elt F)}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) :
    embedding a0 a1 a2 a3 a4 a5 a6 a7 a8 a9 a10 a11 a12 a13 a14 a15 a16 a17 a18 a19 a20 a21 a22 = embedding b0 b1 b2 b3 b4 b5 b6 b7 b8 b9 b10 b11 b12 b13 b14 b15 b16 b17 b18 b19 b20 b21 b22 := by
  subst h0 h1 h2 h3 h4 h5 h6 h7 h8 h9 h10 h11 h12 h13 h14 h15 h16 h17 h18 h19 h20 h21 h22; rfl

/-- Equal arguments, equal logits. -/
theorem logits_congr {a0 b0 : (⟨S50000x768, .f32⟩ : BufTy).Contents (Elt F)} {a1 b1 : (⟨S2x500000, .i32⟩ : BufTy).Contents (Elt F)} {a2 b2 : (⟨S50000x6, .f32⟩ : BufTy).Contents (Elt F)} {a3 b3 : (⟨S50000x11, .f32⟩ : BufTy).Contents (Elt F)} {a4 b4 : (⟨S50000x768, .f32⟩ : BufTy).Contents (Elt F)} {a5 b5 : (⟨S50000x768, .f32⟩ : BufTy).Contents (Elt F)} {a6 b6 : (⟨S768x32, .f32⟩ : BufTy).Contents (Elt F)} {a7 b7 : (⟨S32, .f32⟩ : BufTy).Contents (Elt F)} {a8 b8 : (⟨S768x32, .f32⟩ : BufTy).Contents (Elt F)} {a9 b9 : (⟨S32, .f32⟩ : BufTy).Contents (Elt F)} {a10 b10 : (⟨S768x32, .f32⟩ : BufTy).Contents (Elt F)} {a11 b11 : (⟨S32, .f32⟩ : BufTy).Contents (Elt F)} {a12 b12 : (⟨S6x32, .f32⟩ : BufTy).Contents (Elt F)} {a13 b13 : (⟨S32, .f32⟩ : BufTy).Contents (Elt F)} {a14 b14 : (⟨S11x32, .f32⟩ : BufTy).Contents (Elt F)} {a15 b15 : (⟨S32, .f32⟩ : BufTy).Contents (Elt F)} {a16 b16 : (⟨S160x160, .f32⟩ : BufTy).Contents (Elt F)} {a17 b17 : (⟨S160, .f32⟩ : BufTy).Contents (Elt F)} {a18 b18 : (⟨S160x160, .f32⟩ : BufTy).Contents (Elt F)} {a19 b19 : (⟨S160, .f32⟩ : BufTy).Contents (Elt F)} {a20 b20 : (⟨S160x160, .f32⟩ : BufTy).Contents (Elt F)} {a21 b21 : (⟨S160x160, .f32⟩ : BufTy).Contents (Elt F)} {a22 b22 : (⟨S160, .f32⟩ : BufTy).Contents (Elt F)} {a23 b23 : (⟨S160x2, .f32⟩ : BufTy).Contents (Elt F)} {a24 b24 : (⟨S2, .f32⟩ : BufTy).Contents (Elt F)}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h24 : a24 = b24) :
    logits a0 a1 a2 a3 a4 a5 a6 a7 a8 a9 a10 a11 a12 a13 a14 a15 a16 a17 a18 a19 a20 a21 a22 a23 a24 = logits b0 b1 b2 b3 b4 b5 b6 b7 b8 b9 b10 b11 b12 b13 b14 b15 b16 b17 b18 b19 b20 b21 b22 b23 b24 := by
  subst h0 h1 h2 h3 h4 h5 h6 h7 h8 h9 h10 h11 h12 h13 h14 h15 h16 h17 h18 h19 h20 h21 h22 h23 h24; rfl

end Cert.Proof.Layers

namespace Cert.ReferenceIdeal.RefValue

open Cert.ReferenceIdeal Cert.ReferenceIdeal.Gen Cert.Proof Idealize.ShloMosaic Idealize.ShloMosaic.TcCoe Idealize.SL.Sem Idealize.ShloMosaic.StableHlo

variable {F : FTy → Type} [FloatOps F]

/-- The host program's second result is the embedding of its arguments: the same operations in the same order. -/
theorem embedding_eq (m : (ℓ : Loc nD τ sig) → Buf (Elt F) ℓ) (c : Dev nD) :
    Cert.ReferenceIdeal.Value.res_main_v115 m c = Layers.embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := rfl

/-- The host program's first result is the logits of its arguments. -/
theorem logits_eq (m : (ℓ : Loc nD τ sig) → Buf (Elt F) ℓ) (c : Dev nD) :
    Cert.ReferenceIdeal.Value.res_main_v119 m c = Layers.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := rfl

end Cert.ReferenceIdeal.RefValue

end
-- ==== Proof.FaninSpec.lean ====
/-
  The fan-in stage as one function of its arrays, entry by entry, on the extended reals.

  Five projections `leaky (X · W + b)` of a row's inputs to 32 features each are laid side by side, in the order
  [numeric properties, categories, description, tweets, text], into a row of 160 features; that row is multiplied by
  the 160 × 160 input matrix, the input bias is added and the leaky rectifier applied once more. The number of rows
  is a parameter: the same function describes the whole 50000-row stage and one 1000-row block of it, and a block's
  entry depends only on that row of the inputs (`faninAt_congr`).

  Also here: a concatenation of five 32-column pieces read at an entry (`concat5_apply`).
-/
import Idealize.ShloMosaic.Lib.Pipeline.Value
import Idealize.ShloMosaic.Lib.ValueIdx
import Idealize.ShloMosaic.PureOps.Ideal.Laws

noncomputable section

namespace Cert.KernelIdeal.FaninValue

open Idealize.ShloMosaic Idealize.ShloMosaic.ValueIdx

/-- The leaky rectifier on one extended real: `y` where `y > 0`, the constant `0.01` (as a binary32 word) times `y`
    elsewhere. -/
def lk (y : Ideal .f32) : Ideal .f32 :=
  Scalar.select (FloatOps.cmpf .ogt y (FloatOps.ofBits .f32 0x00000000#32)) y
    (FloatOps.mulf (FloatOps.ofBits .f32 0x3C23D70A#32) y)

/-- Five rows of 32 entries laid end to end: entry `k` of the 160 is entry `k mod 32` of row `k / 32`. -/
def cat5 {α : Type} (a0 a1 a2 a3 a4 : Fin 32 → α) (k : Fin 160) : α :=
  if h0 : k.val < 32 then a0 ⟨k.val, h0⟩
  else if h1 : k.val < 64 then a1 ⟨k.val - 32, by omega⟩
  else if h2 : k.val < 96 then a2 ⟨k.val - 64, by omega⟩
  else if h3 : k.val < 128 then a3 ⟨k.val - 96, by omega⟩
  else a4 ⟨k.val - 128, by omega⟩

/-- Two such rows agree at an entry when the five pieces agree entry by entry. -/
theorem cat5_congr {α : Type} {a0 a1 a2 a3 a4 b0 b1 b2 b3 b4 : Fin 32 → α} (k : Fin 160) (h0 : ∀ c, a0 c = b0 c) (h1 : ∀ c, a1 c = b1 c)
    (h2 : ∀ c, a2 c = b2 c) (h3 : ∀ c, a3 c = b3 c) (h4 : ∀ c, a4 c = b4 c) : cat5 a0 a1 a2 a3 a4 k = cat5 b0 b1 b2 b3 b4 k := by
  rw [funext h0, funext h1, funext h2, funext h3, funext h4]

/-- A concatenation of five [M, 32] pieces along the columns, read at entry `(p, k)`: the piece whose span of columns
    holds `k`, at row `p`. -/
theorem concat5_apply {α : Type} {M : Nat} (y0 y1 y2 y3 y4 : (⟨2, ![M, 32]⟩ : Shape).Idx → α)
    (h : Shape.Concatenates [⟨2, ![M, 32]⟩, ⟨2, ![M, 32]⟩, ⟨2, ![M, 32]⟩, ⟨2, ![M, 32]⟩, ⟨2, ![M, 32]⟩] ⟨2, ![M, 160]⟩ 1)
    (p : Fin M) (k : Fin 160) :
    concatenate ⟨2, ![M, 160]⟩ 1 [⟨⟨2, ![M, 32]⟩, y0⟩, ⟨⟨2, ![M, 32]⟩, y1⟩, ⟨⟨2, ![M, 32]⟩, y2⟩, ⟨⟨2, ![M, 32]⟩, y3⟩, ⟨⟨2, ![M, 32]⟩, y4⟩] h (ix2 p k)
      = cat5 (fun c => y0 (ix2 p c)) (fun c => y1 (ix2 p c)) (fun c => y2 (ix2 p c)) (fun c => y3 (ix2 p c))
          (fun c => y4 (ix2 p c)) k := by
  have hoff : ∀ (c : Fin 32) (b : Fin (⟨2, ![M, 32]⟩ : Shape).rank), b.cast (rfl : (⟨2, ![M, 32]⟩ : Shape).rank = (⟨2, ![M, 160]⟩ : Shape).rank) ≠ (1 : Fin 2) →
      ((ix2 p c : (⟨2, ![M, 32]⟩ : Shape).Idx) b).val = ((ix2 p k : (⟨2, ![M, 160]⟩ : Shape).Idx) (b.cast rfl)).val := by
    intro c b hb
    match b with
    | ⟨0, _⟩ => rfl
    | ⟨1, _⟩ => exact absurd rfl hb
  unfold cat5
  split_ifs with h0 h1 h2 h3
  · exact concatenate_apply_piece (t := ⟨2, ![M, 160]⟩) 1 [⟨⟨2, ![M, 32]⟩, y0⟩, ⟨⟨2, ![M, 32]⟩, y1⟩, ⟨⟨2, ![M, 32]⟩, y2⟩, ⟨⟨2, ![M, 32]⟩, y3⟩, ⟨⟨2, ![M, 32]⟩, y4⟩] h (ix2 p k) 0 (by show (0 : Nat) < 5; omega) ⟨2, ![M, 32]⟩ y0 rfl rfl 0 rfl (ix2 p ⟨k.val, by omega⟩) (hoff _)
      (by show 0 + (k.val) = k.val; omega)
  · exact concatenate_apply_piece (t := ⟨2, ![M, 160]⟩) 1 [⟨⟨2, ![M, 32]⟩, y0⟩, ⟨⟨2, ![M, 32]⟩, y1⟩, ⟨⟨2, ![M, 32]⟩, y2⟩, ⟨⟨2, ![M, 32]⟩, y3⟩, ⟨⟨2, ![M, 32]⟩, y4⟩] h (ix2 p k) 1 (by show (1 : Nat) < 5; omega) ⟨2, ![M, 32]⟩ y1 rfl rfl 32 rfl (ix2 p ⟨k.val - 32, by omega⟩) (hoff _)
      (by show 32 + (k.val - 32) = k.val; omega)
  · exact concatenate_apply_piece (t := ⟨2, ![M, 160]⟩) 1 [⟨⟨2, ![M, 32]⟩, y0⟩, ⟨⟨2, ![M, 32]⟩, y1⟩, ⟨⟨2, ![M, 32]⟩, y2⟩, ⟨⟨2, ![M, 32]⟩, y3⟩, ⟨⟨2, ![M, 32]⟩, y4⟩] h (ix2 p k) 2 (by show (2 : Nat) < 5; omega) ⟨2, ![M, 32]⟩ y2 rfl rfl 64 rfl (ix2 p ⟨k.val - 64, by omega⟩) (hoff _)
      (by show 64 + (k.val - 64) = k.val; omega)
  · exact concatenate_apply_piece (t := ⟨2, ![M, 160]⟩) 1 [⟨⟨2, ![M, 32]⟩, y0⟩, ⟨⟨2, ![M, 32]⟩, y1⟩, ⟨⟨2, ![M, 32]⟩, y2⟩, ⟨⟨2, ![M, 32]⟩, y3⟩, ⟨⟨2, ![M, 32]⟩, y4⟩] h (ix2 p k) 3 (by show (3 : Nat) < 5; omega) ⟨2, ![M, 32]⟩ y3 rfl rfl 96 rfl (ix2 p ⟨k.val - 96, by omega⟩) (hoff _)
      (by show 96 + (k.val - 96) = k.val; omega)
  · exact concatenate_apply_piece (t := ⟨2, ![M, 160]⟩) 1 [⟨⟨2, ![M, 32]⟩, y0⟩, ⟨⟨2, ![M, 32]⟩, y1⟩, ⟨⟨2, ![M, 32]⟩, y2⟩, ⟨⟨2, ![M, 32]⟩, y3⟩, ⟨⟨2, ![M, 32]⟩, y4⟩] h (ix2 p k) 4 (by show (4 : Nat) < 5; omega) ⟨2, ![M, 32]⟩ y4 rfl rfl 128 rfl (ix2 p ⟨k.val - 128, by omega⟩) (hoff _)
      (by show 128 + (k.val - 128) = k.val; omega)

/-- One projection at row `r`, feature `c`: the leaky rectifier of row `r` of `X` times column `c` of `W`, plus `b c`. -/
def proj {M K : Nat} (X : (⟨2, ![M, K]⟩ : Shape).Idx → Ideal .f32) (W : (⟨2, ![K, 32]⟩ : Shape).Idx → Ideal .f32)
    (b : (⟨1, ![32]⟩ : Shape).Idx → Ideal .f32) (r : Fin M) (c : Fin 32) : Ideal .f32 :=
  lk ((∑ k : Fin K, X (ix2 r k) * W (ix2 k c)) + b (ix1 c))

/-- The fan-in stage at row `r`, feature `q`. The arrays are named by the argument of the program they are: `X0` text,
    `X2` numeric properties, `X3` categories, `X4` description, `X5` tweets; `W6 b7` … `W14 b15` the five projections'
    weights and biases in the order description, tweets, text, properties, categories; `W16 b17` the input layer. -/
def faninAt {M : Nat} (X0 : (⟨2, ![M, 768]⟩ : Shape).Idx → Ideal .f32) (X2 : (⟨2, ![M, 6]⟩ : Shape).Idx → Ideal .f32)
    (X3 : (⟨2, ![M, 11]⟩ : Shape).Idx → Ideal .f32) (X4 X5 : (⟨2, ![M, 768]⟩ : Shape).Idx → Ideal .f32)
    (W6 : (⟨2, ![768, 32]⟩ : Shape).Idx → Ideal .f32) (b7 : (⟨1, ![32]⟩ : Shape).Idx → Ideal .f32)
    (W8 : (⟨2, ![768, 32]⟩ : Shape).Idx → Ideal .f32) (b9 : (⟨1, ![32]⟩ : Shape).Idx → Ideal .f32)
    (W10 : (⟨2, ![768, 32]⟩ : Shape).Idx → Ideal .f32) (b11 : (⟨1, ![32]⟩ : Shape).Idx → Ideal .f32)
    (W12 : (⟨2, ![6, 32]⟩ : Shape).Idx → Ideal .f32) (b13 : (⟨1, ![32]⟩ : Shape).Idx → Ideal .f32)
    (W14 : (⟨2, ![11, 32]⟩ : Shape).Idx → Ideal .f32) (b15 : (⟨1, ![32]⟩ : Shape).Idx → Ideal .f32)
    (W16 : (⟨2, ![160, 160]⟩ : Shape).Idx → Ideal .f32) (b17 : (⟨1, ![160]⟩ : Shape).Idx → Ideal .f32)
    (r : Fin M) (q : Fin 160) : Ideal .f32 :=
  lk ((∑ k : Fin 160, cat5 (proj X2 W12 b13 r) (proj X3 W14 b15 r) (proj X4 W6 b7 r) (proj X5 W8 b9 r) (proj X0 W10 b11 r) k
        * W16 (ix2 k q)) + b17 (ix1 q))

/-- A projection's entry depends only on that row of its input. -/
theorem proj_congr {M M' K : Nat} (X : (⟨2, ![M, K]⟩ : Shape).Idx → Ideal .f32) (X' : (⟨2, ![M', K]⟩ : Shape).Idx → Ideal .f32)
    (W : (⟨2, ![K, 32]⟩ : Shape).Idx → Ideal .f32) (b : (⟨1, ![32]⟩ : Shape).Idx → Ideal .f32) (r : Fin M) (r' : Fin M')
    (hX : ∀ k : Fin K, X (ix2 r k) = X' (ix2 r' k)) : proj X W b r = proj X' W b r' := by
  funext c
  unfold proj
  rw [Finset.sum_congr rfl fun k _ => by rw [hX k]]

/-- The stage's entry at row `r` depends only on row `r` of the five inputs: a block of rows gives the rows of the whole. -/
theorem faninAt_congr {M M' : Nat}
    (X0 : (⟨2, ![M, 768]⟩ : Shape).Idx → Ideal .f32) (X2 : (⟨2, ![M, 6]⟩ : Shape).Idx → Ideal .f32)
    (X3 : (⟨2, ![M, 11]⟩ : Shape).Idx → Ideal .f32) (X4 X5 : (⟨2, ![M, 768]⟩ : Shape).Idx → Ideal .f32)
    (X0' : (⟨2, ![M', 768]⟩ : Shape).Idx → Ideal .f32) (X2' : (⟨2, ![M', 6]⟩ : Shape).Idx → Ideal .f32)
    (X3' : (⟨2, ![M', 11]⟩ : Shape).Idx → Ideal .f32) (X4' X5' : (⟨2, ![M', 768]⟩ : Shape).Idx → Ideal .f32)
    (W6 : (⟨2, ![768, 32]⟩ : Shape).Idx → Ideal .f32) (b7 : (⟨1, ![32]⟩ : Shape).Idx → Ideal .f32)
    (W8 : (⟨2, ![768, 32]⟩ : Shape).Idx → Ideal .f32) (b9 : (⟨1, ![32]⟩ : Shape).Idx → Ideal .f32)
    (W10 : (⟨2, ![768, 32]⟩ : Shape).Idx → Ideal .f32) (b11 : (⟨1, ![32]⟩ : Shape).Idx → Ideal .f32)
    (W12 : (⟨2, ![6, 32]⟩ : Shape).Idx → Ideal .f32) (b13 : (⟨1, ![32]⟩ : Shape).Idx → Ideal .f32)
    (W14 : (⟨2, ![11, 32]⟩ : Shape).Idx → Ideal .f32) (b15 : (⟨1, ![32]⟩ : Shape).Idx → Ideal .f32)
    (W16 : (⟨2, ![160, 160]⟩ : Shape).Idx → Ideal .f32) (b17 : (⟨1, ![160]⟩ : Shape).Idx → Ideal .f32)
    (r : Fin M) (r' : Fin M') (q : Fin 160)
    (h0 : ∀ k, X0 (ix2 r k) = X0' (ix2 r' k)) (h2 : ∀ k, X2 (ix2 r k) = X2' (ix2 r' k))
    (h3 : ∀ k, X3 (ix2 r k) = X3' (ix2 r' k)) (h4 : ∀ k, X4 (ix2 r k) = X4' (ix2 r' k))
    (h5 : ∀ k, X5 (ix2 r k) = X5' (ix2 r' k)) :
    faninAt X0 X2 X3 X4 X5 W6 b7 W8 b9 W10 b11 W12 b13 W14 b15 W16 b17 r q
      = faninAt X0' X2' X3' X4' X5' W6 b7 W8 b9 W10 b11 W12 b13 W14 b15 W16 b17 r' q := by
  unfold faninAt
  rw [proj_congr X0 X0' W10 b11 r r' h0, proj_congr X2 X2' W12 b13 r r' h2, proj_congr X3 X3' W14 b15 r r' h3,
    proj_congr X4 X4' W6 b7 r r' h4, proj_congr X5 X5' W8 b9 r r' h5]

end Cert.KernelIdeal.FaninValue

end
-- ==== Proof.FaninPayload.lean ====
/-
  The fan-in kernel's arithmetic on one block of 1000 rows, read at an entry.

  At the ideal values a change of float format is the identity and a `tpu.matmul` into the zero accumulator is the sum
  over the contracted axis, so each value the body stores is, at entry `(p, q)`, a sum over `k` of products of its
  operands' entries: the three 768-wide projections, the two narrow ones with the five branches laid side by side and
  the product with the input matrix, and the input bias with the last rectifier. Composed, the block the body stores
  is the fan-in stage of the blocks it loaded (`body_apply`).
-/
import proofs.«106324_j28432683499967_2_alg».proof.Proof.Gen.KernelIdeal.Skeleton
import proofs.«106324_j28432683499967_2_alg».proof.Proof.FaninSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.FaninValue

open Cert.KernelIdeal Cert.KernelIdeal.Gen Idealize.ShloMosaic Idealize.ShloMosaic.ValueIdx

/-! ## The four matrix products -/

theorem mm768_l0 (i : S1000x32.Idx) (c : dot_S1000x768_S768x32_S1000x32_1_0_0_1_n_n.contr.Idx) : (dot_S1000x768_S768x32_S1000x32_1_0_0_1_n_n.lhsIdx i c 0).val = (i 0).val := by
  unfold DotDims.lhsIdx
  rw [dif_neg (show ¬(0 : Fin S1000x768.rank) ∈ dot_S1000x768_S768x32_S1000x32_1_0_0_1_n_n.lhsBatch by decide), dif_pos (show (0 : Fin S1000x768.rank) ∈ dot_S1000x768_S768x32_S1000x32_1_0_0_1_n_n.lhsNonContracting by decide)]
  rfl
theorem mm768_r1 (i : S1000x32.Idx) (c : dot_S1000x768_S768x32_S1000x32_1_0_0_1_n_n.contr.Idx) : (dot_S1000x768_S768x32_S1000x32_1_0_0_1_n_n.rhsIdx i c 1).val = (i 1).val := by
  unfold DotDims.rhsIdx
  rw [dif_neg (show ¬(1 : Fin S768x32.rank) ∈ dot_S1000x768_S768x32_S1000x32_1_0_0_1_n_n.rhsBatch by decide), dif_pos (show (1 : Fin S768x32.rank) ∈ dot_S1000x768_S768x32_S1000x32_1_0_0_1_n_n.rhsNonContracting by decide)]
  rfl
/-- A `tpu.matmul` of a [1000,768] block with a [768,32] matrix into the zero accumulator, read at an entry: the sum over the
    contracted axis. -/
theorem mm768 {φ₁ φ₂ : FTy} (a : FVec Ideal S1000x768 φ₁) (b : FVec Ideal S768x32 φ₂) (p : Fin 1000) (q : Fin 32) :
    matmul dot_S1000x768_S768x32_S1000x32_1_0_0_1_n_n none a b (constant S1000x32 .f32 0x00000000#32) (ix2 p q)
      = ∑ k : Fin 768, a (ix2 p k) * b (ix2 k q) := by
  unfold matmul
  rw [Ideal.matmul_constant_zero_apply, ← Equiv.sum_comp (contrEquiv1 dot_S1000x768_S768x32_S1000x32_1_0_0_1_n_n 768 rfl rfl).symm]
  refine Finset.sum_congr rfl fun k _ => ?_
  have hk := contrEquiv1_symm_val dot_S1000x768_S768x32_S1000x32_1_0_0_1_n_n 768 rfl rfl k
  have el : dot_S1000x768_S768x32_S1000x32_1_0_0_1_n_n.lhsIdx (ix2 p q) ((contrEquiv1 dot_S1000x768_S768x32_S1000x32_1_0_0_1_n_n 768 rfl rfl).symm k) = ix2 p k := funext fun a => Fin.ext (by
    match a with
    | ⟨0, _⟩ => exact mm768_l0 _ _
    | ⟨1, _⟩ => exact (dot_S1000x768_S768x32_S1000x32_1_0_0_1_n_n.lhsIdx_val_of_single rfl _ _).trans hk)
  have er : dot_S1000x768_S768x32_S1000x32_1_0_0_1_n_n.rhsIdx (ix2 p q) ((contrEquiv1 dot_S1000x768_S768x32_S1000x32_1_0_0_1_n_n 768 rfl rfl).symm k) = ix2 k q := funext fun a => Fin.ext (by
    match a with
    | ⟨0, _⟩ => exact (dot_S1000x768_S768x32_S1000x32_1_0_0_1_n_n.rhsIdx_val_of_single rfl _ _).trans hk
    | ⟨1, _⟩ => exact mm768_r1 _ _)
  rw [el, er]

theorem mm6_l0 (i : S1000x32.Idx) (c : dot_S1000x6_S6x32_S1000x32_1_0_0_1_n_n.contr.Idx) : (dot_S1000x6_S6x32_S1000x32_1_0_0_1_n_n.lhsIdx i c 0).val = (i 0).val := by
  unfold DotDims.lhsIdx
  rw [dif_neg (show ¬(0 : Fin S1000x6.rank) ∈ dot_S1000x6_S6x32_S1000x32_1_0_0_1_n_n.lhsBatch by decide), dif_pos (show (0 : Fin S1000x6.rank) ∈ dot_S1000x6_S6x32_S1000x32_1_0_0_1_n_n.lhsNonContracting by decide)]
  rfl
theorem mm6_r1 (i : S1000x32.Idx) (c : dot_S1000x6_S6x32_S1000x32_1_0_0_1_n_n.contr.Idx) : (dot_S1000x6_S6x32_S1000x32_1_0_0_1_n_n.rhsIdx i c 1).val = (i 1).val := by
  unfold DotDims.rhsIdx
  rw [dif_neg (show ¬(1 : Fin S6x32.rank) ∈ dot_S1000x6_S6x32_S1000x32_1_0_0_1_n_n.rhsBatch by decide), dif_pos (show (1 : Fin S6x32.rank) ∈ dot_S1000x6_S6x32_S1000x32_1_0_0_1_n_n.rhsNonContracting by decide)]
  rfl
/-- A `tpu.matmul` of a [1000,6] block with a [6,32] matrix into the zero accumulator, read at an entry: the sum over the
    contracted axis. -/
theorem mm6 {φ₁ φ₂ : FTy} (a : FVec Ideal S1000x6 φ₁) (b : FVec Ideal S6x32 φ₂) (p : Fin 1000) (q : Fin 32) :
    matmul dot_S1000x6_S6x32_S1000x32_1_0_0_1_n_n none a b (constant S1000x32 .f32 0x00000000#32) (ix2 p q)
      = ∑ k : Fin 6, a (ix2 p k) * b (ix2 k q) := by
  unfold matmul
  rw [Ideal.matmul_constant_zero_apply, ← Equiv.sum_comp (contrEquiv1 dot_S1000x6_S6x32_S1000x32_1_0_0_1_n_n 6 rfl rfl).symm]
  refine Finset.sum_congr rfl fun k _ => ?_
  have hk := contrEquiv1_symm_val dot_S1000x6_S6x32_S1000x32_1_0_0_1_n_n 6 rfl rfl k
  have el : dot_S1000x6_S6x32_S1000x32_1_0_0_1_n_n.lhsIdx (ix2 p q) ((contrEquiv1 dot_S1000x6_S6x32_S1000x32_1_0_0_1_n_n 6 rfl rfl).symm k) = ix2 p k := funext fun a => Fin.ext (by
    match a with
    | ⟨0, _⟩ => exact mm6_l0 _ _
    | ⟨1, _⟩ => exact (dot_S1000x6_S6x32_S1000x32_1_0_0_1_n_n.lhsIdx_val_of_single rfl _ _).trans hk)
  have er : dot_S1000x6_S6x32_S1000x32_1_0_0_1_n_n.rhsIdx (ix2 p q) ((contrEquiv1 dot_S1000x6_S6x32_S1000x32_1_0_0_1_n_n 6 rfl rfl).symm k) = ix2 k q := funext fun a => Fin.ext (by
    match a with
    | ⟨0, _⟩ => exact (dot_S1000x6_S6x32_S1000x32_1_0_0_1_n_n.rhsIdx_val_of_single rfl _ _).trans hk
    | ⟨1, _⟩ => exact mm6_r1 _ _)
  rw [el, er]

theorem mm11_l0 (i : S1000x32.Idx) (c : dot_S1000x11_S11x32_S1000x32_1_0_0_1_n_n.contr.Idx) : (dot_S1000x11_S11x32_S1000x32_1_0_0_1_n_n.lhsIdx i c 0).val = (i 0).val := by
  unfold DotDims.lhsIdx
  rw [dif_neg (show ¬(0 : Fin S1000x11.rank) ∈ dot_S1000x11_S11x32_S1000x32_1_0_0_1_n_n.lhsBatch by decide), dif_pos (show (0 : Fin S1000x11.rank) ∈ dot_S1000x11_S11x32_S1000x32_1_0_0_1_n_n.lhsNonContracting by decide)]
  rfl
theorem mm11_r1 (i : S1000x32.Idx) (c : dot_S1000x11_S11x32_S1000x32_1_0_0_1_n_n.contr.Idx) : (dot_S1000x11_S11x32_S1000x32_1_0_0_1_n_n.rhsIdx i c 1).val = (i 1).val := by
  unfold DotDims.rhsIdx
  rw [dif_neg (show ¬(1 : Fin S11x32.rank) ∈ dot_S1000x11_S11x32_S1000x32_1_0_0_1_n_n.rhsBatch by decide), dif_pos (show (1 : Fin S11x32.rank) ∈ dot_S1000x11_S11x32_S1000x32_1_0_0_1_n_n.rhsNonContracting by decide)]
  rfl
/-- A `tpu.matmul` of a [1000,11] block with a [11,32] matrix into the zero accumulator, read at an entry: the sum over the
    contracted axis. -/
theorem mm11 {φ₁ φ₂ : FTy} (a : FVec Ideal S1000x11 φ₁) (b : FVec Ideal S11x32 φ₂) (p : Fin 1000) (q : Fin 32) :
    matmul dot_S1000x11_S11x32_S1000x32_1_0_0_1_n_n none a b (constant S1000x32 .f32 0x00000000#32) (ix2 p q)
      = ∑ k : Fin 11, a (ix2 p k) * b (ix2 k q) := by
  unfold matmul
  rw [Ideal.matmul_constant_zero_apply, ← Equiv.sum_comp (contrEquiv1 dot_S1000x11_S11x32_S1000x32_1_0_0_1_n_n 11 rfl rfl).symm]
  refine Finset.sum_congr rfl fun k _ => ?_
  have hk := contrEquiv1_symm_val dot_S1000x11_S11x32_S1000x32_1_0_0_1_n_n 11 rfl rfl k
  have el : dot_S1000x11_S11x32_S1000x32_1_0_0_1_n_n.lhsIdx (ix2 p q) ((contrEquiv1 dot_S1000x11_S11x32_S1000x32_1_0_0_1_n_n 11 rfl rfl).symm k) = ix2 p k := funext fun a => Fin.ext (by
    match a with
    | ⟨0, _⟩ => exact mm11_l0 _ _
    | ⟨1, _⟩ => exact (dot_S1000x11_S11x32_S1000x32_1_0_0_1_n_n.lhsIdx_val_of_single rfl _ _).trans hk)
  have er : dot_S1000x11_S11x32_S1000x32_1_0_0_1_n_n.rhsIdx (ix2 p q) ((contrEquiv1 dot_S1000x11_S11x32_S1000x32_1_0_0_1_n_n 11 rfl rfl).symm k) = ix2 k q := funext fun a => Fin.ext (by
    match a with
    | ⟨0, _⟩ => exact (dot_S1000x11_S11x32_S1000x32_1_0_0_1_n_n.rhsIdx_val_of_single rfl _ _).trans hk
    | ⟨1, _⟩ => exact mm11_r1 _ _)
  rw [el, er]

theorem mm160_l0 (i : S1000x160.Idx) (c : dot_S1000x160_S160x160_S1000x160_1_0_0_1_n_n.contr.Idx) : (dot_S1000x160_S160x160_S1000x160_1_0_0_1_n_n.lhsIdx i c 0).val = (i 0).val := by
  unfold DotDims.lhsIdx
  rw [dif_neg (show ¬(0 : Fin S1000x160.rank) ∈ dot_S1000x160_S160x160_S1000x160_1_0_0_1_n_n.lhsBatch by decide), dif_pos (show (0 : Fin S1000x160.rank) ∈ dot_S1000x160_S160x160_S1000x160_1_0_0_1_n_n.lhsNonContracting by decide)]
  rfl
theorem mm160_r1 (i : S1000x160.Idx) (c : dot_S1000x160_S160x160_S1000x160_1_0_0_1_n_n.contr.Idx) : (dot_S1000x160_S160x160_S1000x160_1_0_0_1_n_n.rhsIdx i c 1).val = (i 1).val := by
  unfold DotDims.rhsIdx
  rw [dif_neg (show ¬(1 : Fin S160x160.rank) ∈ dot_S1000x160_S160x160_S1000x160_1_0_0_1_n_n.rhsBatch by decide), dif_pos (show (1 : Fin S160x160.rank) ∈ dot_S1000x160_S160x160_S1000x160_1_0_0_1_n_n.rhsNonContracting by decide)]
  rfl
/-- A `tpu.matmul` of a [1000,160] block with a [160,160] matrix into the zero accumulator, read at an entry: the sum over the
    contracted axis. -/
theorem mm160 {φ₁ φ₂ : FTy} (a : FVec Ideal S1000x160 φ₁) (b : FVec Ideal S160x160 φ₂) (p : Fin 1000) (q : Fin 160) :
    matmul dot_S1000x160_S160x160_S1000x160_1_0_0_1_n_n none a b (constant S1000x160 .f32 0x00000000#32) (ix2 p q)
      = ∑ k : Fin 160, a (ix2 p k) * b (ix2 k q) := by
  unfold matmul
  rw [Ideal.matmul_constant_zero_apply, ← Equiv.sum_comp (contrEquiv1 dot_S1000x160_S160x160_S1000x160_1_0_0_1_n_n 160 rfl rfl).symm]
  refine Finset.sum_congr rfl fun k _ => ?_
  have hk := contrEquiv1_symm_val dot_S1000x160_S160x160_S1000x160_1_0_0_1_n_n 160 rfl rfl k
  have el : dot_S1000x160_S160x160_S1000x160_1_0_0_1_n_n.lhsIdx (ix2 p q) ((contrEquiv1 dot_S1000x160_S160x160_S1000x160_1_0_0_1_n_n 160 rfl rfl).symm k) = ix2 p k := funext fun a => Fin.ext (by
    match a with
    | ⟨0, _⟩ => exact mm160_l0 _ _
    | ⟨1, _⟩ => exact (dot_S1000x160_S160x160_S1000x160_1_0_0_1_n_n.lhsIdx_val_of_single rfl _ _).trans hk)
  have er : dot_S1000x160_S160x160_S1000x160_1_0_0_1_n_n.rhsIdx (ix2 p q) ((contrEquiv1 dot_S1000x160_S160x160_S1000x160_1_0_0_1_n_n 160 rfl rfl).symm k) = ix2 k q := funext fun a => Fin.ext (by
    match a with
    | ⟨0, _⟩ => exact (dot_S1000x160_S160x160_S1000x160_1_0_0_1_n_n.rhsIdx_val_of_single rfl _ _).trans hk
    | ⟨1, _⟩ => exact mm160_r1 _ _)
  rw [el, er]

/-! ## A bias laid along every row -/

/-- A bias of 32 entries as a row repeated down a block's rows, read at an entry. -/
theorem biasRow32 (b : Vec Ideal S32 .f32) (p : Fin 1000) (q : Fin 32) :
    broadcastTo S1000x32 (shapeCast S1x32 b shapeCasts_S32_S1x32) broadcasts_S1x32_S1000x32 (ix2 p q) = b (ix1 q) := by
  rw [broadcastTo_1b_ab_apply, shapeCast_a_1a_apply]

/-- The same for the input layer's 160 entries. -/
theorem biasRow160 (b : Vec Ideal S160 .f32) (p : Fin 1000) (q : Fin 160) :
    broadcastTo S1000x160 (shapeCast S1x160 b shapeCasts_S160_S1x160) broadcasts_S1x160_S1000x160 (ix2 p q) = b (ix1 q) := by
  rw [broadcastTo_1b_ab_apply, shapeCast_a_1a_apply]

/-! ## The stored values at an entry -/

/-- The description branch: a projection of the block's rows. -/
theorem pay2_apply (v0 : Vec Ideal S1000x768 .f32) (v2 : Vec Ideal S768x32 .f32) (v5 : Vec Ideal S32 .f32) (p : Fin 1000) (q : Fin 32) :
    k0_pay2 (F := Ideal) v0 v2 v5 (ix2 p q) = proj v0 v2 v5 p q := by
  unfold k0_pay2
  show lk (matmul dot_S1000x768_S768x32_S1000x32_1_0_0_1_n_n none (truncf .bf16 v0 bitsLt_bf16_f32) (truncf .bf16 v2 bitsLt_bf16_f32) (constant S1000x32 .f32 0x00000000#32) (ix2 p q)
    + broadcastTo S1000x32 (shapeCast S1x32 v5 shapeCasts_S32_S1x32) broadcasts_S1x32_S1000x32 (ix2 p q)) = _
  rw [mm768, biasRow32]
  rfl

/-- The tweets branch: the same projection. -/
theorem pay3_apply (v0 : Vec Ideal S1000x768 .f32) (v2 : Vec Ideal S768x32 .f32) (v5 : Vec Ideal S32 .f32) (p : Fin 1000) (q : Fin 32) :
    k0_pay3 (F := Ideal) v0 v2 v5 (ix2 p q) = proj v0 v2 v5 p q := by
  unfold k0_pay3
  show lk (matmul dot_S1000x768_S768x32_S1000x32_1_0_0_1_n_n none (truncf .bf16 v0 bitsLt_bf16_f32) (truncf .bf16 v2 bitsLt_bf16_f32) (constant S1000x32 .f32 0x00000000#32) (ix2 p q)
    + broadcastTo S1000x32 (shapeCast S1x32 v5 shapeCasts_S32_S1x32) broadcasts_S1x32_S1000x32 (ix2 p q)) = _
  rw [mm768, biasRow32]
  rfl

/-- The text branch is stored before its rectifier, which the next stored value applies. -/
theorem pay4_apply (v0 : Vec Ideal S1000x768 .f32) (v2 : Vec Ideal S768x32 .f32) (v5 : Vec Ideal S32 .f32) (p : Fin 1000) (q : Fin 32) :
    lk (k0_pay4 (F := Ideal) v0 v2 v5 (ix2 p q)) = proj v0 v2 v5 p q := by
  unfold k0_pay4
  show lk (matmul dot_S1000x768_S768x32_S1000x32_1_0_0_1_n_n none (truncf .bf16 v0 bitsLt_bf16_f32) (truncf .bf16 v2 bitsLt_bf16_f32) (constant S1000x32 .f32 0x00000000#32) (ix2 p q)
    + broadcastTo S1000x32 (shapeCast S1x32 v5 shapeCasts_S32_S1x32) broadcasts_S1x32_S1000x32 (ix2 p q)) = _
  rw [mm768, biasRow32]
  rfl

/-- The two narrow branches, the five branches side by side, and the product with the input matrix. -/
theorem pay5_apply (v13 v27 v36 : FVec Ideal S1000x32 .f32) (v42 : Vec Ideal S1000x6 .f32) (v44 : Vec Ideal S6x32 .f32) (v47 : Vec Ideal S32 .f32)
    (v56 : Vec Ideal S1000x11 .f32) (v58 : Vec Ideal S11x32 .f32) (v61 : Vec Ideal S32 .f32) (v72 : Vec Ideal S160x160 .f32) (p : Fin 1000) (q : Fin 160) :
    k0_pay5 (F := Ideal) v13 v27 v36 v42 v44 v47 v56 v58 v61 v72 (ix2 p q)
      = ∑ k : Fin 160, cat5 (proj v42 v44 v47 p) (proj v56 v58 v61 p) (fun c => v13 (ix2 p c)) (fun c => v27 (ix2 p c))
          (fun c => lk (v36 (ix2 p c))) k * v72 (ix2 k q) := by
  unfold k0_pay5
  show matmul (F := Ideal) dot_S1000x160_S160x160_S1000x160_1_0_0_1_n_n none _ (truncf (F := Ideal) .bf16 (v72 : FVec Ideal S160x160 .f32) bitsLt_bf16_f32) (constant S1000x160 .f32 0x00000000#32) (ix2 p q) = _
  rw [mm160]
  refine Finset.sum_congr rfl fun k _ => ?_
  refine congrArg (· * v72 (ix2 k q)) ?_
  refine (concat5_apply _ _ _ _ _ concatenates_S1000x32_S1000x32_S1000x32_S1000x32_S1000x32_S1000x160_d1 p k).trans ?_
  refine cat5_congr k (fun c => ?_) (fun c => ?_) (fun _ => rfl) (fun _ => rfl) (fun _ => rfl)
  · show lk (matmul dot_S1000x6_S6x32_S1000x32_1_0_0_1_n_n none (truncf .bf16 v42 bitsLt_bf16_f32) (truncf .bf16 v44 bitsLt_bf16_f32) (constant S1000x32 .f32 0x00000000#32) (ix2 p c)
      + broadcastTo S1000x32 (shapeCast S1x32 v47 shapeCasts_S32_S1x32) broadcasts_S1x32_S1000x32 (ix2 p c)) = _
    rw [mm6, biasRow32]
    rfl
  · show lk (matmul dot_S1000x11_S11x32_S1000x32_1_0_0_1_n_n none (truncf .bf16 v56 bitsLt_bf16_f32) (truncf .bf16 v58 bitsLt_bf16_f32) (constant S1000x32 .f32 0x00000000#32) (ix2 p c)
      + broadcastTo S1000x32 (shapeCast S1x32 v61 shapeCasts_S32_S1x32) broadcasts_S1x32_S1000x32 (ix2 p c)) = _
    rw [mm11, biasRow32]
    rfl

/-- The input bias and the last rectifier. -/
theorem pay1_apply (v74 : FVec Ideal S1000x160 .f32) (v75 : Vec Ideal S160 .f32) (p : Fin 1000) (q : Fin 160) :
    k0_pay1 (F := Ideal) v74 v75 (ix2 p q) = lk (v74 (ix2 p q) + v75 (ix1 q)) := by
  unfold k0_pay1
  show lk (v74 (ix2 p q) + broadcastTo S1000x160 (shapeCast S1x160 v75 shapeCasts_S160_S1x160) broadcasts_S1x160_S1000x160 (ix2 p q)) = _
  rw [biasRow160]

/-- The block the body stores, at entry `(p, q)` is the fan-in stage of the blocks it loaded (`b0` … `b16`: the windows'
    blocks in operand order). -/
theorem body_apply (b0 b1 b2 : Vec Ideal S1000x768 .f32) (b3 : Vec Ideal S1000x6 .f32) (b4 : Vec Ideal S1000x11 .f32)
    (b5 : Vec Ideal S768x32 .f32) (b6 : Vec Ideal S32 .f32) (b7 : Vec Ideal S768x32 .f32) (b8 : Vec Ideal S32 .f32)
    (b9 : Vec Ideal S768x32 .f32) (b10 : Vec Ideal S32 .f32) (b11 : Vec Ideal S6x32 .f32) (b12 : Vec Ideal S32 .f32)
    (b13 : Vec Ideal S11x32 .f32) (b14 : Vec Ideal S32 .f32) (b15 : Vec Ideal S160x160 .f32) (b16 : Vec Ideal S160 .f32)
    (p : Fin 1000) (q : Fin 160) :
    k0_pay1 (F := Ideal) (k0_pay5 (k0_pay2 b1 b5 b6) (k0_pay3 b2 b7 b8) (k0_pay4 b0 b9 b10) b3 b11 b12 b4 b13 b14 b15) b16 (ix2 p q)
      = faninAt b0 b3 b4 b1 b2 b5 b6 b7 b8 b9 b10 b11 b12 b13 b14 b15 b16 p q := by
  rw [pay1_apply, pay5_apply]
  unfold faninAt
  exact congrArg lk (congrArg (· + b16 (ix1 q)) (Finset.sum_congr rfl fun k _ => congrArg (· * b15 (ix2 k q))
    (cat5_congr k (fun _ => rfl) (fun _ => rfl) (fun c => pay2_apply b1 b5 b6 p c) (fun c => pay3_apply b2 b7 b8 p c)
      (fun c => pay4_apply b0 b9 b10 p c))))

end Cert.KernelIdeal.FaninValue

end
-- ==== Proof.FaninRef.lean ====
/-
  The reference's fan-in stage, read at an entry.

  The host program computes the stage with whole-array operations: five `dot_general`s with a broadcast bias and a
  select on "greater than zero", one concatenation along the columns, one more `dot_general` with bias and select. At
  the ideal values a `dot_general` at an entry is the sum over the contracted axis, a broadcast reads its operand at
  the column, and the concatenation reads the piece whose span of columns holds the column; so entry `(r, q)` of the
  stage is the function `faninAt` of row `r` of the five inputs.
-/
import proofs.«106324_j28432683499967_2_alg».proof.Proof.Gen.ReferenceIdeal.Read
import proofs.«106324_j28432683499967_2_alg».proof.Proof.FaninSpec
import Idealize.ShloMosaic.Lib.Pipeline.Value
import Idealize.ShloMosaic.Lib.ValueIdx
import Idealize.ShloMosaic.PureOps.Ideal.Laws

noncomputable section

namespace Cert.KernelIdeal.FaninValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## The five projections -/

/-- The description branch at an entry. -/
theorem ref_des (x4 : (⟨S50000x768, .f32⟩ : BufTy).Contents (Elt Ideal)) (x6 : (⟨S768x32, .f32⟩ : BufTy).Contents (Elt Ideal))
    (x7 : (⟨S32, .f32⟩ : BufTy).Contents (Elt Ideal)) (r : Fin 50000) (c : Fin 32) :
    val_main_v12 (F := Ideal) x4 x6 x7 (ix2 r c) = proj x4 x6 x7 r c := by
  rw [val_main_v12_apply, val_main_v9_apply, val_main_v11_apply, val_main_v7_apply, val_main_v8_apply, val_main_cst_apply, val_main_v10_apply,
    val_main_cst_0_apply, val_main_v6_apply, val_main_v5_apply, val_main_v4_apply]
  have el : ∀ k : Fin 768, lidx_main_v4 (ix2 r c) k = ix2 r k := fun k => funext fun a => by
    match a with
    | ⟨0, _⟩ => rfl
    | ⟨1, _⟩ => rfl
  have er : ∀ k : Fin 768, ridx_main_v4 (ix2 r c) k = ix2 k c := fun k => funext fun a => by
    match a with
    | ⟨0, _⟩ => rfl
    | ⟨1, _⟩ => rfl
  have eb : idx_main_v5 (idx_main_v6 (ix2 r c)) = ix1 c := funext fun a => by
    match a with
    | ⟨0, _⟩ => rfl
  rw [eb, Finset.sum_congr rfl fun k _ => by rw [el k, er k]]
  rfl

/-- The tweets branch at an entry. -/
theorem ref_tweet (x5 : (⟨S50000x768, .f32⟩ : BufTy).Contents (Elt Ideal)) (x8 : (⟨S768x32, .f32⟩ : BufTy).Contents (Elt Ideal))
    (x9 : (⟨S32, .f32⟩ : BufTy).Contents (Elt Ideal)) (r : Fin 50000) (c : Fin 32) :
    val_main_v21 (F := Ideal) x5 x8 x9 (ix2 r c) = proj x5 x8 x9 r c := by
  rw [val_main_v21_apply, val_main_v18_apply, val_main_v20_apply, val_main_v16_apply, val_main_v17_apply, val_main_cst_1_apply, val_main_v19_apply,
    val_main_cst_2_apply, val_main_v15_apply, val_main_v14_apply, val_main_v13_apply]
  have el : ∀ k : Fin 768, lidx_main_v13 (ix2 r c) k = ix2 r k := fun k => funext fun a => by
    match a with
    | ⟨0, _⟩ => rfl
    | ⟨1, _⟩ => rfl
  have er : ∀ k : Fin 768, ridx_main_v13 (ix2 r c) k = ix2 k c := fun k => funext fun a => by
    match a with
    | ⟨0, _⟩ => rfl
    | ⟨1, _⟩ => rfl
  have eb : idx_main_v14 (idx_main_v15 (ix2 r c)) = ix1 c := funext fun a => by
    match a with
    | ⟨0, _⟩ => rfl
  rw [eb, Finset.sum_congr rfl fun k _ => by rw [el k, er k]]
  rfl

/-- The text branch at an entry. -/
theorem ref_text (x0 : (⟨S50000x768, .f32⟩ : BufTy).Contents (Elt Ideal)) (x10 : (⟨S768x32, .f32⟩ : BufTy).Contents (Elt Ideal))
    (x11 : (⟨S32, .f32⟩ : BufTy).Contents (Elt Ideal)) (r : Fin 50000) (c : Fin 32) :
    val_main_v30 (F := Ideal) x0 x10 x11 (ix2 r c) = proj x0 x10 x11 r c := by
  rw [val_main_v30_apply, val_main_v27_apply, val_main_v29_apply, val_main_v25_apply, val_main_v26_apply, val_main_cst_3_apply, val_main_v28_apply,
    val_main_cst_4_apply, val_main_v24_apply, val_main_v23_apply, val_main_v22_apply]
  have el : ∀ k : Fin 768, lidx_main_v22 (ix2 r c) k = ix2 r k := fun k => funext fun a => by
    match a with
    | ⟨0, _⟩ => rfl
    | ⟨1, _⟩ => rfl
  have er : ∀ k : Fin 768, ridx_main_v22 (ix2 r c) k = ix2 k c := fun k => funext fun a => by
    match a with
    | ⟨0, _⟩ => rfl
    | ⟨1, _⟩ => rfl
  have eb : idx_main_v23 (idx_main_v24 (ix2 r c)) = ix1 c := funext fun a => by
    match a with
    | ⟨0, _⟩ => rfl
  rw [eb, Finset.sum_congr rfl fun k _ => by rw [el k, er k]]
  rfl

/-- The numeric-properties branch at an entry. -/
theorem ref_prop (x2 : (⟨S50000x6, .f32⟩ : BufTy).Contents (Elt Ideal)) (x12 : (⟨S6x32, .f32⟩ : BufTy).Contents (Elt Ideal))
    (x13 : (⟨S32, .f32⟩ : BufTy).Contents (Elt Ideal)) (r : Fin 50000) (c : Fin 32) :
    val_main_v39 (F := Ideal) x2 x12 x13 (ix2 r c) = proj x2 x12 x13 r c := by
  rw [val_main_v39_apply, val_main_v36_apply, val_main_v38_apply, val_main_v34_apply, val_main_v35_apply, val_main_cst_5_apply, val_main_v37_apply,
    val_main_cst_6_apply, val_main_v33_apply, val_main_v32_apply, val_main_v31_apply]
  have el : ∀ k : Fin 6, lidx_main_v31 (ix2 r c) k = ix2 r k := fun k => funext fun a => by
    match a with
    | ⟨0, _⟩ => rfl
    | ⟨1, _⟩ => rfl
  have er : ∀ k : Fin 6, ridx_main_v31 (ix2 r c) k = ix2 k c := fun k => funext fun a => by
    match a with
    | ⟨0, _⟩ => rfl
    | ⟨1, _⟩ => rfl
  have eb : idx_main_v32 (idx_main_v33 (ix2 r c)) = ix1 c := funext fun a => by
    match a with
    | ⟨0, _⟩ => rfl
  rw [eb, Finset.sum_congr rfl fun k _ => by rw [el k, er k]]
  rfl

/-- The categories branch at an entry. -/
theorem ref_cat (x3 : (⟨S50000x11, .f32⟩ : BufTy).Contents (Elt Ideal)) (x14 : (⟨S11x32, .f32⟩ : BufTy).Contents (Elt Ideal))
    (x15 : (⟨S32, .f32⟩ : BufTy).Contents (Elt Ideal)) (r : Fin 50000) (c : Fin 32) :
    val_main_v48 (F := Ideal) x3 x14 x15 (ix2 r c) = proj x3 x14 x15 r c := by
  rw [val_main_v48_apply, val_main_v45_apply, val_main_v47_apply, val_main_v43_apply, val_main_v44_apply, val_main_cst_7_apply, val_main_v46_apply,
    val_main_cst_8_apply, val_main_v42_apply, val_main_v41_apply, val_main_v40_apply]
  have el : ∀ k : Fin 11, lidx_main_v40 (ix2 r c) k = ix2 r k := fun k => funext fun a => by
    match a with
    | ⟨0, _⟩ => rfl
    | ⟨1, _⟩ => rfl
  have er : ∀ k : Fin 11, ridx_main_v40 (ix2 r c) k = ix2 k c := fun k => funext fun a => by
    match a with
    | ⟨0, _⟩ => rfl
    | ⟨1, _⟩ => rfl
  have eb : idx_main_v41 (idx_main_v42 (ix2 r c)) = ix1 c := funext fun a => by
    match a with
    | ⟨0, _⟩ => rfl
  rw [eb, Finset.sum_congr rfl fun k _ => by rw [el k, er k]]
  rfl

/-! ## The stage -/

/-- The reference's stage at entry `(r, q)` is `faninAt` of its arguments. -/
theorem ref_apply (x0 : (⟨S50000x768, .f32⟩ : BufTy).Contents (Elt Ideal)) (x2 : (⟨S50000x6, .f32⟩ : BufTy).Contents (Elt Ideal))
    (x3 : (⟨S50000x11, .f32⟩ : BufTy).Contents (Elt Ideal)) (x4 x5 : (⟨S50000x768, .f32⟩ : BufTy).Contents (Elt Ideal))
    (x6 : (⟨S768x32, .f32⟩ : BufTy).Contents (Elt Ideal)) (x7 : (⟨S32, .f32⟩ : BufTy).Contents (Elt Ideal))
    (x8 : (⟨S768x32, .f32⟩ : BufTy).Contents (Elt Ideal)) (x9 : (⟨S32, .f32⟩ : BufTy).Contents (Elt Ideal))
    (x10 : (⟨S768x32, .f32⟩ : BufTy).Contents (Elt Ideal)) (x11 : (⟨S32, .f32⟩ : BufTy).Contents (Elt Ideal))
    (x12 : (⟨S6x32, .f32⟩ : BufTy).Contents (Elt Ideal)) (x13 : (⟨S32, .f32⟩ : BufTy).Contents (Elt Ideal))
    (x14 : (⟨S11x32, .f32⟩ : BufTy).Contents (Elt Ideal)) (x15 : (⟨S32, .f32⟩ : BufTy).Contents (Elt Ideal))
    (x16 : (⟨S160x160, .f32⟩ : BufTy).Contents (Elt Ideal)) (x17 : (⟨S160, .f32⟩ : BufTy).Contents (Elt Ideal))
    (r : Fin 50000) (q : Fin 160) :
    val_main_v58 (F := Ideal) x0 x2 x3 x4 x5 x6 x7 x8 x9 x10 x11 x12 x13 x14 x15 x16 x17 (ix2 r q)
      = faninAt x0 x2 x3 x4 x5 x6 x7 x8 x9 x10 x11 x12 x13 x14 x15 x16 x17 r q := by
  rw [val_main_v58_apply, val_main_v55_apply, val_main_v57_apply, val_main_v53_apply, val_main_v54_apply, val_main_cst_9_apply,
    val_main_v56_apply, val_main_cst_10_apply, val_main_v52_apply, val_main_v51_apply, val_main_v50_apply]
  have el : ∀ k : Fin 160, lidx_main_v50 (ix2 r q) k = ix2 r k := fun k => funext fun a => by
    match a with
    | ⟨0, _⟩ => rfl
    | ⟨1, _⟩ => rfl
  have er : ∀ k : Fin 160, ridx_main_v50 (ix2 r q) k = ix2 k q := fun k => funext fun a => by
    match a with
    | ⟨0, _⟩ => rfl
    | ⟨1, _⟩ => rfl
  have eb : idx_main_v51 (idx_main_v52 (ix2 r q)) = ix1 q := funext fun a => by
    match a with
    | ⟨0, _⟩ => rfl
  have ecat : ∀ k : Fin 160, val_main_v49 (F := Ideal) x0 x2 x3 x4 x5 x6 x7 x8 x9 x10 x11 x12 x13 x14 x15 (ix2 r k)
      = cat5 (proj x2 x12 x13 r) (proj x3 x14 x15 r) (proj x4 x6 x7 r) (proj x5 x8 x9 r) (proj x0 x10 x11 r) k := fun k => by
    unfold val_main_v49
    refine (concat5_apply _ _ _ _ _ concatenates_S50000x32_S50000x32_S50000x32_S50000x32_S50000x32_S50000x160_d1 r k).trans ?_
    exact cat5_congr k (fun c => ref_prop x2 x12 x13 r c) (fun c => ref_cat x3 x14 x15 r c) (fun c => ref_des x4 x6 x7 r c)
      (fun c => ref_tweet x5 x8 x9 r c) (fun c => ref_text x0 x10 x11 r c)
  rw [eb, Finset.sum_congr rfl fun k _ => by rw [el k, er k, ecat k]]
  rfl

end Cert.KernelIdeal.FaninValue

end
-- ==== Proof.FaninRegion.lean ====
/-
  Region 0 (the fan-in kernel) as a whole-array statement.

  The region runs its body at 50 grid points. At point `t` the five row windows hold rows `1000 t … 1000 t + 999` of
  their arrays, the twelve weight and bias windows hold their whole arrays, and the body stores into the output window
  a block whose entry `(p, q)` is the fan-in stage's entry at row `1000 t + p` (the body's arithmetic at an entry, and
  the fact that a row of the stage depends only on that row of the inputs). The 50 blocks written back cover the
  output array, row `r` by point `r / 1000`; so after the region the output array is the stage of the arrays the
  region found — which is the reference program's own stage of the same arrays (`final0`).
-/
import proofs.«106324_j28432683499967_2_alg».proof.Proof.Gen.KernelIdeal.Frame
import proofs.«106324_j28432683499967_2_alg».proof.Proof.Gen.ReferenceIdeal.Read
import proofs.«106324_j28432683499967_2_alg».proof.Proof.FaninSpec
import proofs.«106324_j28432683499967_2_alg».proof.Proof.FaninPayload
import proofs.«106324_j28432683499967_2_alg».proof.Proof.FaninRef
import Idealize.ShloMosaic.Lib.Pipeline.Value
import Idealize.ShloMosaic.Lib.ValueIdx

noncomputable section

namespace Cert.KernelIdeal.FaninValue

open Cert.KernelIdeal Cert.KernelIdeal.Gen Idealize.ShloMosaic Idealize.ShloMosaic.ValueIdx

open Idealize.ShloMosaic.TcCoe Idealize.SL.Sem
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl
theorem zeroOffsets1 : (![0] : Fin 1 → Nat) = fun _ => 0 := funext fun a => by fin_cases a <;> rfl

/-- The printed index maps of the five row windows and of the output window, decided over the 50 grid points: block
    `t` of the rows, block 0 of the columns. -/
theorem rowWindows_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_17.index t (0 : Fin 2) = t.val ∧ win0_17.index t (1 : Fin 2) = 0) :=
  (by decide +kernel : ∀ t : Fin grid0.N, _)

/-- The twelve weight and bias windows stay at block 0 at every point. -/
theorem weightWindows_index : ∀ t : Fin cfg0.N,
    (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = 0 ∧ win0_11.index t (1 : Fin 2) = 0)
    ∧ win0_12.index t (0 : Fin 1) = 0
    ∧ (win0_13.index t (0 : Fin 2) = 0 ∧ win0_13.index t (1 : Fin 2) = 0)
    ∧ win0_14.index t (0 : Fin 1) = 0
    ∧ (win0_15.index t (0 : Fin 2) = 0 ∧ win0_15.index t (1 : Fin 2) = 0)
    ∧ win0_16.index t (0 : Fin 1) = 0 :=
  (by decide +kernel : ∀ t : Fin grid0.N, _)

/-! ## The windows' blocks as entries of their arrays -/

theorem iblk_row0 (c : Dev nD) (t : Fin cfg0.N) (p : Fin 1000) (k : Fin 768) (r : Fin 50000) (hr : r.val = t.val * 1000 + p.val) :
    (iblk0 V c 0 t : Vec Ideal S1000x768 .f32) (ix2 p k) = (V c (Pipeline.arrRef spec0 0) : Vec Ideal S50000x768 .f32) (ix2 r k) := by
  have e := (rowWindows_index t).1
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 1000 + 1 * p.val = r.val; rw [e.1, hr]; omega
  | ⟨1, _⟩ => show win0_0.index t (1 : Fin 2) * 768 + 1 * k.val = k.val; rw [e.2]; omega

theorem iblk_row1 (c : Dev nD) (t : Fin cfg0.N) (p : Fin 1000) (k : Fin 768) (r : Fin 50000) (hr : r.val = t.val * 1000 + p.val) :
    (iblk0 V c 1 t : Vec Ideal S1000x768 .f32) (ix2 p k) = (V c (Pipeline.arrRef spec0 1) : Vec Ideal S50000x768 .f32) (ix2 r k) := by
  have e := (rowWindows_index t).2.1
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 1000 + 1 * p.val = r.val; rw [e.1, hr]; omega
  | ⟨1, _⟩ => show win0_1.index t (1 : Fin 2) * 768 + 1 * k.val = k.val; rw [e.2]; omega

theorem iblk_row2 (c : Dev nD) (t : Fin cfg0.N) (p : Fin 1000) (k : Fin 768) (r : Fin 50000) (hr : r.val = t.val * 1000 + p.val) :
    (iblk0 V c 2 t : Vec Ideal S1000x768 .f32) (ix2 p k) = (V c (Pipeline.arrRef spec0 2) : Vec Ideal S50000x768 .f32) (ix2 r k) := by
  have e := (rowWindows_index t).2.2.1
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 1000 + 1 * p.val = r.val; rw [e.1, hr]; omega
  | ⟨1, _⟩ => show win0_2.index t (1 : Fin 2) * 768 + 1 * k.val = k.val; rw [e.2]; omega

theorem iblk_row3 (c : Dev nD) (t : Fin cfg0.N) (p : Fin 1000) (k : Fin 6) (r : Fin 50000) (hr : r.val = t.val * 1000 + p.val) :
    (iblk0 V c 3 t : Vec Ideal S1000x6 .f32) (ix2 p k) = (V c (Pipeline.arrRef spec0 3) : Vec Ideal S50000x6 .f32) (ix2 r k) := by
  have e := (rowWindows_index t).2.2.2.1
  unfold iblk0
  rw [View.read_apply]
  show V c (Pipeline.arrRef spec0 3) _ = V c (Pipeline.arrRef spec0 3) _
  refine congrArg _ (funext fun a => Fin.ext ?_)
  match a with
  | ⟨0, _⟩ => show win0_3.index t (0 : Fin 2) * 1000 + 1 * p.val = r.val; rw [e.1, hr]; omega
  | ⟨1, _⟩ => show win0_3.index t (1 : Fin 2) * 6 + 1 * k.val = k.val; rw [e.2]; omega

theorem iblk_row4 (c : Dev nD) (t : Fin cfg0.N) (p : Fin 1000) (k : Fin 11) (r : Fin 50000) (hr : r.val = t.val * 1000 + p.val) :
    (iblk0 V c 4 t : Vec Ideal S1000x11 .f32) (ix2 p k) = (V c (Pipeline.arrRef spec0 4) : Vec Ideal S50000x11 .f32) (ix2 r k) := by
  have e := (rowWindows_index t).2.2.2.2.1
  unfold iblk0
  rw [View.read_apply]
  show V c (Pipeline.arrRef spec0 4) _ = V c (Pipeline.arrRef spec0 4) _
  refine congrArg _ (funext fun a => Fin.ext ?_)
  match a with
  | ⟨0, _⟩ => show win0_4.index t (0 : Fin 2) * 1000 + 1 * p.val = r.val; rw [e.1, hr]; omega
  | ⟨1, _⟩ => show win0_4.index t (1 : Fin 2) * 11 + 1 * k.val = k.val; rw [e.2]; omega

theorem iblk_w5 (c : Dev nD) (t : Fin cfg0.N) : (iblk0 V c 5 t : Vec Ideal S768x32 .f32) = V c (Pipeline.arrRef spec0 5) := by
  have e := (weightWindows_index t).1
  funext y
  unfold iblk0
  rw [View.read_apply]
  show V c (Pipeline.arrRef spec0 5) _ = V c (Pipeline.arrRef spec0 5) y
  refine congrArg _ (funext fun a => Fin.ext ?_)
  match a with
  | ⟨0, _⟩ => show win0_5.index t (0 : Fin 2) * 768 + 1 * (y 0).val = (y 0).val; rw [e.1]; omega
  | ⟨1, _⟩ => show win0_5.index t (1 : Fin 2) * 32 + 1 * (y 1).val = (y 1).val; rw [e.2]; omega

theorem iblk_w6 (c : Dev nD) (t : Fin cfg0.N) : (iblk0 V c 6 t : Vec Ideal S32 .f32) = V c (Pipeline.arrRef spec0 6) := by
  have e := (weightWindows_index t).2.1
  funext y
  unfold iblk0
  rw [View.read_apply]
  show V c (Pipeline.arrRef spec0 6) _ = V c (Pipeline.arrRef spec0 6) y
  refine congrArg _ (funext fun a => Fin.ext ?_)
  match a with
  | ⟨0, _⟩ => show win0_6.index t (0 : Fin 1) * 32 + 1 * (y 0).val = (y 0).val; rw [e]; omega

theorem iblk_w7 (c : Dev nD) (t : Fin cfg0.N) : (iblk0 V c 7 t : Vec Ideal S768x32 .f32) = V c (Pipeline.arrRef spec0 7) := by
  have e := (weightWindows_index t).2.2.1
  funext y
  unfold iblk0
  rw [View.read_apply]
  show V c (Pipeline.arrRef spec0 7) _ = V c (Pipeline.arrRef spec0 7) y
  refine congrArg _ (funext fun a => Fin.ext ?_)
  match a with
  | ⟨0, _⟩ => show win0_7.index t (0 : Fin 2) * 768 + 1 * (y 0).val = (y 0).val; rw [e.1]; omega
  | ⟨1, _⟩ => show win0_7.index t (1 : Fin 2) * 32 + 1 * (y 1).val = (y 1).val; rw [e.2]; omega

theorem iblk_w8 (c : Dev nD) (t : Fin cfg0.N) : (iblk0 V c 8 t : Vec Ideal S32 .f32) = V c (Pipeline.arrRef spec0 8) := by
  have e := (weightWindows_index t).2.2.2.1
  funext y
  unfold iblk0
  rw [View.read_apply]
  show V c (Pipeline.arrRef spec0 8) _ = V c (Pipeline.arrRef spec0 8) y
  refine congrArg _ (funext fun a => Fin.ext ?_)
  match a with
  | ⟨0, _⟩ => show win0_8.index t (0 : Fin 1) * 32 + 1 * (y 0).val = (y 0).val; rw [e]; omega

theorem iblk_w9 (c : Dev nD) (t : Fin cfg0.N) : (iblk0 V c 9 t : Vec Ideal S768x32 .f32) = V c (Pipeline.arrRef spec0 9) := by
  have e := (weightWindows_index t).2.2.2.2.1
  funext y
  unfold iblk0
  rw [View.read_apply]
  show V c (Pipeline.arrRef spec0 9) _ = V c (Pipeline.arrRef spec0 9) y
  refine congrArg _ (funext fun a => Fin.ext ?_)
  match a with
  | ⟨0, _⟩ => show win0_9.index t (0 : Fin 2) * 768 + 1 * (y 0).val = (y 0).val; rw [e.1]; omega
  | ⟨1, _⟩ => show win0_9.index t (1 : Fin 2) * 32 + 1 * (y 1).val = (y 1).val; rw [e.2]; omega

theorem iblk_w10 (c : Dev nD) (t : Fin cfg0.N) : (iblk0 V c 10 t : Vec Ideal S32 .f32) = V c (Pipeline.arrRef spec0 10) := by
  have e := (weightWindows_index t).2.2.2.2.2.1
  funext y
  unfold iblk0
  rw [View.read_apply]
  show V c (Pipeline.arrRef spec0 10) _ = V c (Pipeline.arrRef spec0 10) y
  refine congrArg _ (funext fun a => Fin.ext ?_)
  match a with
  | ⟨0, _⟩ => show win0_10.index t (0 : Fin 1) * 32 + 1 * (y 0).val = (y 0).val; rw [e]; omega

theorem iblk_w11 (c : Dev nD) (t : Fin cfg0.N) : (iblk0 V c 11 t : Vec Ideal S6x32 .f32) = V c (Pipeline.arrRef spec0 11) := by
  have e := (weightWindows_index t).2.2.2.2.2.2.1
  funext y
  unfold iblk0
  rw [View.read_apply]
  show V c (Pipeline.arrRef spec0 11) _ = V c (Pipeline.arrRef spec0 11) y
  refine congrArg _ (funext fun a => Fin.ext ?_)
  match a with
  | ⟨0, _⟩ => show win0_11.index t (0 : Fin 2) * 6 + 1 * (y 0).val = (y 0).val; rw [e.1]; omega
  | ⟨1, _⟩ => show win0_11.index t (1 : Fin 2) * 32 + 1 * (y 1).val = (y 1).val; rw [e.2]; omega

theorem iblk_w12 (c : Dev nD) (t : Fin cfg0.N) : (iblk0 V c 12 t : Vec Ideal S32 .f32) = V c (Pipeline.arrRef spec0 12) := by
  have e := (weightWindows_index t).2.2.2.2.2.2.2.1
  funext y
  unfold iblk0
  rw [View.read_apply]
  show V c (Pipeline.arrRef spec0 12) _ = V c (Pipeline.arrRef spec0 12) y
  refine congrArg _ (funext fun a => Fin.ext ?_)
  match a with
  | ⟨0, _⟩ => show win0_12.index t (0 : Fin 1) * 32 + 1 * (y 0).val = (y 0).val; rw [e]; omega

theorem iblk_w13 (c : Dev nD) (t : Fin cfg0.N) : (iblk0 V c 13 t : Vec Ideal S11x32 .f32) = V c (Pipeline.arrRef spec0 13) := by
  have e := (weightWindows_index t).2.2.2.2.2.2.2.2.1
  funext y
  unfold iblk0
  rw [View.read_apply]
  show V c (Pipeline.arrRef spec0 13) _ = V c (Pipeline.arrRef spec0 13) y
  refine congrArg _ (funext fun a => Fin.ext ?_)
  match a with
  | ⟨0, _⟩ => show win0_13.index t (0 : Fin 2) * 11 + 1 * (y 0).val = (y 0).val; rw [e.1]; omega
  | ⟨1, _⟩ => show win0_13.index t (1 : Fin 2) * 32 + 1 * (y 1).val = (y 1).val; rw [e.2]; omega

theorem iblk_w14 (c : Dev nD) (t : Fin cfg0.N) : (iblk0 V c 14 t : Vec Ideal S32 .f32) = V c (Pipeline.arrRef spec0 14) := by
  have e := (weightWindows_index t).2.2.2.2.2.2.2.2.2.1
  funext y
  unfold iblk0
  rw [View.read_apply]
  show V c (Pipeline.arrRef spec0 14) _ = V c (Pipeline.arrRef spec0 14) y
  refine congrArg _ (funext fun a => Fin.ext ?_)
  match a with
  | ⟨0, _⟩ => show win0_14.index t (0 : Fin 1) * 32 + 1 * (y 0).val = (y 0).val; rw [e]; omega

theorem iblk_w15 (c : Dev nD) (t : Fin cfg0.N) : (iblk0 V c 15 t : Vec Ideal S160x160 .f32) = V c (Pipeline.arrRef spec0 15) := by
  have e := (weightWindows_index t).2.2.2.2.2.2.2.2.2.2.1
  funext y
  unfold iblk0
  rw [View.read_apply]
  show V c (Pipeline.arrRef spec0 15) _ = V c (Pipeline.arrRef spec0 15) y
  refine congrArg _ (funext fun a => Fin.ext ?_)
  match a with
  | ⟨0, _⟩ => show win0_15.index t (0 : Fin 2) * 160 + 1 * (y 0).val = (y 0).val; rw [e.1]; omega
  | ⟨1, _⟩ => show win0_15.index t (1 : Fin 2) * 160 + 1 * (y 1).val = (y 1).val; rw [e.2]; omega

theorem iblk_w16 (c : Dev nD) (t : Fin cfg0.N) : (iblk0 V c 16 t : Vec Ideal S160 .f32) = V c (Pipeline.arrRef spec0 16) := by
  have e := (weightWindows_index t).2.2.2.2.2.2.2.2.2.2.2
  funext y
  unfold iblk0
  rw [View.read_apply]
  show V c (Pipeline.arrRef spec0 16) _ = V c (Pipeline.arrRef spec0 16) y
  refine congrArg _ (funext fun a => Fin.ext ?_)
  match a with
  | ⟨0, _⟩ => show win0_16.index t (0 : Fin 1) * 160 + 1 * (y 0).val = (y 0).val; rw [e]; omega

/-! ## From blocks to the array -/

/-- The fan-in stage of whole arrays, as an array. -/
def faninArr (X0 : Vec Ideal S50000x768 .f32) (X2 : Vec Ideal S50000x6 .f32) (X3 : Vec Ideal S50000x11 .f32) (X4 X5 : Vec Ideal S50000x768 .f32)
    (W6 : Vec Ideal S768x32 .f32) (b7 : Vec Ideal S32 .f32) (W8 : Vec Ideal S768x32 .f32) (b9 : Vec Ideal S32 .f32)
    (W10 : Vec Ideal S768x32 .f32) (b11 : Vec Ideal S32 .f32) (W12 : Vec Ideal S6x32 .f32) (b13 : Vec Ideal S32 .f32)
    (W14 : Vec Ideal S11x32 .f32) (b15 : Vec Ideal S32 .f32) (W16 : Vec Ideal S160x160 .f32) (b17 : Vec Ideal S160 .f32) :
    Vec Ideal S50000x160 .f32 :=
  fun i => faninAt X0 X2 X3 X4 X5 W6 b7 W8 b9 W10 b11 W12 b13 W14 b15 W16 b17 (i 0) (i 1)

/-- The stored block's entry `(p, q)` is the stage's entry `(r, q)` whenever row `p` of each row block is row `r` of
    its array and each weight block is its array (the blocks `b0` … `b16` and the arrays `A0` … `A16` in operand order). -/
theorem block_entry (b0 : Vec Ideal S1000x768 .f32) (b1 : Vec Ideal S1000x768 .f32) (b2 : Vec Ideal S1000x768 .f32) (b3 : Vec Ideal S1000x6 .f32) (b4 : Vec Ideal S1000x11 .f32) (b5 : Vec Ideal S768x32 .f32) (b6 : Vec Ideal S32 .f32) (b7 : Vec Ideal S768x32 .f32) (b8 : Vec Ideal S32 .f32) (b9 : Vec Ideal S768x32 .f32) (b10 : Vec Ideal S32 .f32) (b11 : Vec Ideal S6x32 .f32) (b12 : Vec Ideal S32 .f32) (b13 : Vec Ideal S11x32 .f32) (b14 : Vec Ideal S32 .f32) (b15 : Vec Ideal S160x160 .f32) (b16 : Vec Ideal S160 .f32)
    (A0 : Vec Ideal S50000x768 .f32) (A1 : Vec Ideal S50000x768 .f32) (A2 : Vec Ideal S50000x768 .f32) (A3 : Vec Ideal S50000x6 .f32) (A4 : Vec Ideal S50000x11 .f32) (A5 : Vec Ideal S768x32 .f32) (A6 : Vec Ideal S32 .f32) (A7 : Vec Ideal S768x32 .f32) (A8 : Vec Ideal S32 .f32) (A9 : Vec Ideal S768x32 .f32) (A10 : Vec Ideal S32 .f32) (A11 : Vec Ideal S6x32 .f32) (A12 : Vec Ideal S32 .f32) (A13 : Vec Ideal S11x32 .f32) (A14 : Vec Ideal S32 .f32) (A15 : Vec Ideal S160x160 .f32) (A16 : Vec Ideal S160 .f32)
    (p : Fin 1000) (r : Fin 50000) (q : Fin 160) (h0 : ∀ k : Fin 768, b0 (ix2 p k) = A0 (ix2 r k)) (h1 : ∀ k : Fin 768, b1 (ix2 p k) = A1 (ix2 r k)) (h2 : ∀ k : Fin 768, b2 (ix2 p k) = A2 (ix2 r k)) (h3 : ∀ k : Fin 6, b3 (ix2 p k) = A3 (ix2 r k)) (h4 : ∀ k : Fin 11, b4 (ix2 p k) = A4 (ix2 r k))
    (h5 : b5 = A5) (h6 : b6 = A6) (h7 : b7 = A7) (h8 : b8 = A8) (h9 : b9 = A9) (h10 : b10 = A10) (h11 : b11 = A11) (h12 : b12 = A12) (h13 : b13 = A13) (h14 : b14 = A14) (h15 : b15 = A15) (h16 : b16 = A16) :
    k0_pay1 (F := Ideal) (k0_pay5 (k0_pay2 b1 b5 b6) (k0_pay3 b2 b7 b8) (k0_pay4 b0 b9 b10) b3 b11 b12 b4 b13 b14 b15) b16 (ix2 p q)
      = faninArr A0 A3 A4 A1 A2 A5 A6 A7 A8 A9 A10 A11 A12 A13 A14 A15 A16 (ix2 r q) := by
  subst h5 h6 h7 h8 h9 h10 h11 h12 h13 h14 h15 h16
  refine (body_apply b0 b1 b2 b3 b4 b5 b6 b7 b8 b9 b10 b11 b12 b13 b14 b15 b16 p q).trans ?_
  exact faninAt_congr b0 b3 b4 b1 b2 A0 A3 A4 A1 A2 b5 b6 b7 b8 b9 b10 b11 b12 b13 b14 b15 b16 p r q h0 h3 h4 h1 h2

/-- Entry `(p, q)` of the output window's block at point `t` is entry `(1000 t + p, q)` of the output array. -/
theorem emb_out (t : Fin cfg0.N) (p : Fin 1000) (q : Fin 160) (r : Fin 50000) (hr : r.val = t.val * 1000 + p.val) :
    ((cfg0.win 17).blk t).view.emb (ix2 p q) = (ix2 r q : S50000x160.Idx) := by
  have e := (rowWindows_index t).2.2.2.2.2
  refine funext fun a => Fin.ext ?_
  match a with
  | ⟨0, _⟩ => show win0_17.index t (0 : Fin 2) * 1000 + 1 * p.val = r.val; rw [e.1, hr]; omega
  | ⟨1, _⟩ => show win0_17.index t (1 : Fin 2) * 160 + 1 * q.val = q.val; rw [e.2]; omega

/-- So block `t` of an array `G` of the output's shape, at `(p, q)`, is `G (1000 t + p, q)`. -/
theorem read_out (G : Vec Ideal S50000x160 .f32) (t : Fin cfg0.N) (p : Fin 1000) (q : Fin 160) (r : Fin 50000)
    (hr : r.val = t.val * 1000 + p.val) : ((cfg0.win 17).blk t).view.read (Elt Ideal) G (ix2 p q) = G (ix2 r q) := by
  rw [View.read_apply, emb_out t p q r hr]
  rfl

/-- What a write-back takes of the output's staging buffer at entry `(p, q)`: the buffer's entry (the block is whole). -/
theorem cut_out (t : Fin cfg0.N) (X : Vec Ideal S1000x160 .f32) (p : Fin 1000) (q : Fin 160) :
    (cfg0.win 17).cut (grid0.coords t) X (ix2 p q) = X (ix2 p q) := rfl

set_option maxHeartbeats 1000000 in
/-- The block point `t` writes back is rows `1000 t … 1000 t + 999` of the fan-in stage of the arrays the region found. -/
theorem writeBack_eq (c : Dev nD) (t : Fin cfg0.N) :
    (dat0 V c).flushed 17 t = ((cfg0.win 17).blk t).view.read (Elt Ideal) (faninArr (V c (Pipeline.arrRef spec0 0)) (V c (Pipeline.arrRef spec0 3)) (V c (Pipeline.arrRef spec0 4)) (V c (Pipeline.arrRef spec0 1)) (V c (Pipeline.arrRef spec0 2)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16))) := by
  show (cfg0.win 17).cut (grid0.coords t) ((dat0 V c).after 17 t) = _
  rw [after0_17]
  unfold out0_17
  rw [View.canon_unit_zero zeroOffsets2]
  simp only [View.ld_unit_zero (S := S1000x768) zeroOffsets2, View.ld_unit_zero (S := S768x32) zeroOffsets2, View.ld_unit_zero (S := S32) zeroOffsets1,
    View.ld_unit_zero (S := S1000x6) zeroOffsets2, View.ld_unit_zero (S := S6x32) zeroOffsets2, View.ld_unit_zero (S := S1000x11) zeroOffsets2,
    View.ld_unit_zero (S := S11x32) zeroOffsets2, View.ld_unit_zero (S := S160x160) zeroOffsets2, View.ld_unit_zero (S := S160) zeroOffsets1]
  funext j
  obtain ⟨p, q, rfl⟩ : ∃ (p : Fin 1000) (q : Fin 160), j = ix2 p q := ⟨j 0, j 1, eq_ix2 (n0 := 1000) (n1 := 160) j⟩
  have hN : cfg0.N = 50 := N_0
  have ht : t.val < 50 := hN ▸ t.isLt
  obtain ⟨r, hr⟩ : ∃ r : Fin 50000, r.val = t.val * 1000 + p.val := ⟨⟨t.val * 1000 + p.val, by have := p.isLt; omega⟩, rfl⟩
  refine (cut_out t (k0_pay1 (F := Ideal) (k0_pay5 (k0_pay2 (iblk0 V c 1 t) (iblk0 V c 5 t) (iblk0 V c 6 t)) (k0_pay3 (iblk0 V c 2 t) (iblk0 V c 7 t) (iblk0 V c 8 t)) (k0_pay4 (iblk0 V c 0 t) (iblk0 V c 9 t) (iblk0 V c 10 t)) (iblk0 V c 3 t) (iblk0 V c 11 t) (iblk0 V c 12 t) (iblk0 V c 4 t) (iblk0 V c 13 t) (iblk0 V c 14 t) (iblk0 V c 15 t)) (iblk0 V c 16 t)) p q).trans ?_
  refine Eq.trans ?_ (read_out (faninArr (V c (Pipeline.arrRef spec0 0)) (V c (Pipeline.arrRef spec0 3)) (V c (Pipeline.arrRef spec0 4)) (V c (Pipeline.arrRef spec0 1)) (V c (Pipeline.arrRef spec0 2)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16))) t p q r hr).symm
  exact block_entry (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16)) p r q
    (fun k => iblk_row0 V c t p k r hr) (fun k => iblk_row1 V c t p k r hr) (fun k => iblk_row2 V c t p k r hr)
    (fun k => iblk_row3 V c t p k r hr) (fun k => iblk_row4 V c t p k r hr)
    (iblk_w5 V c t) (iblk_w6 V c t) (iblk_w7 V c t) (iblk_w8 V c t) (iblk_w9 V c t) (iblk_w10 V c t) (iblk_w11 V c t) (iblk_w12 V c t) (iblk_w13 V c t) (iblk_w14 V c t) (iblk_w15 V c t) (iblk_w16 V c t)

/-- Membership in the rows point `t` writes, coordinate by coordinate. -/
theorem mem_outBlock (t : Fin cfg0.N) (i : S50000x160.Idx) :
    i ∈ ((cfg0.win 17).blk t).view.set ↔ ∀ a : Fin 2, win0_17.index t a * S1000x160.size a ≤ (i a).val ∧ (i a).val < win0_17.index t a * S1000x160.size a + S1000x160.size a := by
  show i ∈ ((View.whole main_v4).slice (win0_17.rect t)).set ↔ _
  rw [View.set_slice_whole, Rect.mem_set_unit]
  exact Iff.rfl

/-- Every row of the output array is in some point's block: row `r` in that of point `r / 1000`. -/
theorem rows_covered (i : S50000x160.Idx) : ∃ t : Fin cfg0.N, (cfg0.win 17).flush t = true ∧ i ∈ ((cfg0.win 17).blk t).view.set := by
  have hi0 : (i 0).val < 50000 := (i 0).isLt
  have hi1 : (i 1).val < 160 := (i 1).isLt
  have hN : cfg0.N = 50 := N_0
  obtain ⟨t, ht⟩ : ∃ t : Fin cfg0.N, t.val = (i 0).val / 1000 := ⟨⟨(i 0).val / 1000, by omega⟩, rfl⟩
  have e := (rowWindows_index t).2.2.2.2.2
  refine ⟨t, flush0_17 t, ?_⟩
  rw [mem_outBlock]
  intro a
  match a with
  | ⟨0, _⟩ => show win0_17.index t (0 : Fin 2) * 1000 ≤ (i 0).val ∧ (i 0).val < win0_17.index t (0 : Fin 2) * 1000 + 1000; rw [e.1]; omega
  | ⟨1, _⟩ => show win0_17.index t (1 : Fin 2) * 160 ≤ (i 1).val ∧ (i 1).val < win0_17.index t (1 : Fin 2) * 160 + 160; rw [e.2]; omega

/-- After the region the output array is the fan-in stage of the arrays the region found. -/
theorem final_spec (c : Dev nD) : (dat0 V c).arrAt 17 cfg0.N = faninArr (V c (Pipeline.arrRef spec0 0)) (V c (Pipeline.arrRef spec0 3)) (V c (Pipeline.arrRef spec0 4)) (V c (Pipeline.arrRef spec0 1)) (V c (Pipeline.arrRef spec0 2)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16)) :=
  (dat0 V c).arrAt_eq_of_cover 17 (faninArr (V c (Pipeline.arrRef spec0 0)) (V c (Pipeline.arrRef spec0 3)) (V c (Pipeline.arrRef spec0 4)) (V c (Pipeline.arrRef spec0 1)) (V c (Pipeline.arrRef spec0 2)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16))) (fun t _ => writeBack_eq V c t) rows_covered

/-- The stage as an array is the reference's stage of the same arrays. -/
theorem faninArr_eq_ref (X0 : Vec Ideal S50000x768 .f32) (X2 : Vec Ideal S50000x6 .f32) (X3 : Vec Ideal S50000x11 .f32) (X4 X5 : Vec Ideal S50000x768 .f32)
    (W6 : Vec Ideal S768x32 .f32) (b7 : Vec Ideal S32 .f32) (W8 : Vec Ideal S768x32 .f32) (b9 : Vec Ideal S32 .f32)
    (W10 : Vec Ideal S768x32 .f32) (b11 : Vec Ideal S32 .f32) (W12 : Vec Ideal S6x32 .f32) (b13 : Vec Ideal S32 .f32)
    (W14 : Vec Ideal S11x32 .f32) (b15 : Vec Ideal S32 .f32) (W16 : Vec Ideal S160x160 .f32) (b17 : Vec Ideal S160 .f32) :
    faninArr X0 X2 X3 X4 X5 W6 b7 W8 b9 W10 b11 W12 b13 W14 b15 W16 b17
      = Cert.ReferenceIdeal.Read.val_main_v58 (F := Ideal) X0 X2 X3 X4 X5 W6 b7 W8 b9 W10 b11 W12 b13 W14 b15 W16 b17 := by
  funext i
  obtain ⟨r, q, rfl⟩ : ∃ (r : Fin 50000) (q : Fin 160), i = ix2 r q := ⟨i 0, i 1, eq_ix2 (n0 := 50000) (n1 := 160) i⟩
  exact (ref_apply X0 X2 X3 X4 X5 W6 b7 W8 b9 W10 b11 W12 b13 W14 b15 W16 b17 r q).symm

/-- After region 0 the output array is the reference's fan-in stage of the arrays the region found: the windows that
    stage the program's arguments 0, 2, 3, 4, 5, 6, …, 17 are windows 0, 3, 4, 1, 2, 5, …, 16. -/
theorem final0 (c : Dev nD) :
    (dat0 (F := Ideal) V c).arrAt 17 cfg0.N
      = Cert.ReferenceIdeal.Read.val_main_v58 (F := Ideal) (V c (Pipeline.arrRef spec0 0)) (V c (Pipeline.arrRef spec0 3)) (V c (Pipeline.arrRef spec0 4)) (V c (Pipeline.arrRef spec0 1)) (V c (Pipeline.arrRef spec0 2)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16)) :=
  (final_spec V c).trans (faninArr_eq_ref (V c (Pipeline.arrRef spec0 0)) (V c (Pipeline.arrRef spec0 3)) (V c (Pipeline.arrRef spec0 4)) (V c (Pipeline.arrRef spec0 1)) (V c (Pipeline.arrRef spec0 2)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16)))

end Cert.KernelIdeal.FaninValue

end
-- ==== Proof.SageRegion.lean ====
/-
  The two graph-convolution dense layers, read off the pipeline's proof data.

  Each of the two regions runs the same body on blocks of 2000 rows: with `mean` and `h` the two feature arrays,
  `W_l`, `W_r` the weights and `b_l` the bias, the body stores, at row `p` and column `q` of the block,
  `(Σ_k mean (p, k) · W_l (k, q) + b_l q) + Σ_k h (p, k) · W_r (k, q)` — on the extended reals a change of float
  format is the identity and a matrix product into a zero accumulator is the plain sum over the contracted axis. The
  block at grid point `t` is rows `2000 t … 2000 t + 1999` of the arrays, the weights and the bias are fetched whole,
  and the 25 blocks tile the 50000 rows, so the output array ends holding the layer `Layers.sageLayer` of the arrays
  the region finds, whatever those are.
-/
import proofs.«106324_j28432683499967_2_alg».proof.Proof.Gen.KernelIdeal.Frame
import proofs.«106324_j28432683499967_2_alg».proof.Proof.Layers
import Idealize.ShloMosaic.Lib.Pipeline.Value
import Idealize.ShloMosaic.Lib.ValueIdx
import Idealize.ShloMosaic.PureOps.Ideal.Laws

noncomputable section

namespace Cert.KernelIdeal.SageValue

open Idealize.ShloMosaic Idealize.ShloMosaic.TcCoe Idealize.SL.Sem Idealize.ShloMosaic.StableHlo
open Idealize.ShloMosaic.ValueIdx
open Cert.KernelIdeal Cert.KernelIdeal.Gen
open Cert.Proof

/-! ## The contraction indices of the two matrix products

Both products contract axis 1 of the left operand with axis 0 of the right one, so at the output index `(p, q)` and
the contraction coordinate `k` the left operand is read at `(p, k)` and the right one at `(k, q)`. -/

theorem refDot_lhs0 (i : S50000x160.Idx) (c : Cert.ReferenceIdeal.dot_S50000x160_S160x160_S50000x160_1_0_0_1_n_n.contr.Idx) : (Cert.ReferenceIdeal.dot_S50000x160_S160x160_S50000x160_1_0_0_1_n_n.lhsIdx i c 0).val = (i 0).val := by
  unfold DotDims.lhsIdx
  rw [dif_neg (show ¬(0 : Fin S50000x160.rank) ∈ Cert.ReferenceIdeal.dot_S50000x160_S160x160_S50000x160_1_0_0_1_n_n.lhsBatch by decide),
    dif_pos (show (0 : Fin S50000x160.rank) ∈ Cert.ReferenceIdeal.dot_S50000x160_S160x160_S50000x160_1_0_0_1_n_n.lhsNonContracting by decide)]
  rfl
theorem refDot_lhs1 (i : S50000x160.Idx) (c : Cert.ReferenceIdeal.dot_S50000x160_S160x160_S50000x160_1_0_0_1_n_n.contr.Idx) : (Cert.ReferenceIdeal.dot_S50000x160_S160x160_S50000x160_1_0_0_1_n_n.lhsIdx i c 1).val = (c ⟨0, by decide⟩).val :=
  Cert.ReferenceIdeal.dot_S50000x160_S160x160_S50000x160_1_0_0_1_n_n.lhsIdx_val_of_single rfl i c
theorem refDot_rhs0 (i : S50000x160.Idx) (c : Cert.ReferenceIdeal.dot_S50000x160_S160x160_S50000x160_1_0_0_1_n_n.contr.Idx) : (Cert.ReferenceIdeal.dot_S50000x160_S160x160_S50000x160_1_0_0_1_n_n.rhsIdx i c 0).val = (c ⟨0, by decide⟩).val :=
  Cert.ReferenceIdeal.dot_S50000x160_S160x160_S50000x160_1_0_0_1_n_n.rhsIdx_val_of_single rfl i c
theorem refDot_rhs1 (i : S50000x160.Idx) (c : Cert.ReferenceIdeal.dot_S50000x160_S160x160_S50000x160_1_0_0_1_n_n.contr.Idx) : (Cert.ReferenceIdeal.dot_S50000x160_S160x160_S50000x160_1_0_0_1_n_n.rhsIdx i c 1).val = (i 1).val := by
  unfold DotDims.rhsIdx
  rw [dif_neg (show ¬(1 : Fin S160x160.rank) ∈ Cert.ReferenceIdeal.dot_S50000x160_S160x160_S50000x160_1_0_0_1_n_n.rhsBatch by decide),
    dif_pos (show (1 : Fin S160x160.rank) ∈ Cert.ReferenceIdeal.dot_S50000x160_S160x160_S50000x160_1_0_0_1_n_n.rhsNonContracting by decide)]
  rfl

/-- At output entry `(p, q)` and contraction coordinate `k` the left operand is read at `(p, k)` … -/
theorem refDot_lhs (p : Fin 50000) (q : Fin 160) (k : Fin 160) :
    Cert.ReferenceIdeal.dot_S50000x160_S160x160_S50000x160_1_0_0_1_n_n.lhsIdx (ix2 p q) ((contrEquiv1 Cert.ReferenceIdeal.dot_S50000x160_S160x160_S50000x160_1_0_0_1_n_n 160 rfl rfl).symm k) = ix2 p k :=
  funext fun a => Fin.ext (by
    have hk := contrEquiv1_symm_val Cert.ReferenceIdeal.dot_S50000x160_S160x160_S50000x160_1_0_0_1_n_n 160 rfl rfl k
    match a with
    | ⟨0, _⟩ => exact refDot_lhs0 _ _
    | ⟨1, _⟩ => exact (refDot_lhs1 _ _).trans hk)
/-- … and the right operand at `(k, q)`. -/
theorem refDot_rhs (p : Fin 50000) (q : Fin 160) (k : Fin 160) :
    Cert.ReferenceIdeal.dot_S50000x160_S160x160_S50000x160_1_0_0_1_n_n.rhsIdx (ix2 p q) ((contrEquiv1 Cert.ReferenceIdeal.dot_S50000x160_S160x160_S50000x160_1_0_0_1_n_n 160 rfl rfl).symm k) = ix2 k q :=
  funext fun a => Fin.ext (by
    have hk := contrEquiv1_symm_val Cert.ReferenceIdeal.dot_S50000x160_S160x160_S50000x160_1_0_0_1_n_n 160 rfl rfl k
    match a with
    | ⟨0, _⟩ => exact (refDot_rhs0 _ _).trans hk
    | ⟨1, _⟩ => exact refDot_rhs1 _ _)

theorem blkDot_lhs0 (i : S2000x160.Idx) (c : dot_S2000x160_S160x160_S2000x160_1_0_0_1_n_n.contr.Idx) : (dot_S2000x160_S160x160_S2000x160_1_0_0_1_n_n.lhsIdx i c 0).val = (i 0).val := by
  unfold DotDims.lhsIdx
  rw [dif_neg (show ¬(0 : Fin S2000x160.rank) ∈ dot_S2000x160_S160x160_S2000x160_1_0_0_1_n_n.lhsBatch by decide),
    dif_pos (show (0 : Fin S2000x160.rank) ∈ dot_S2000x160_S160x160_S2000x160_1_0_0_1_n_n.lhsNonContracting by decide)]
  rfl
theorem blkDot_lhs1 (i : S2000x160.Idx) (c : dot_S2000x160_S160x160_S2000x160_1_0_0_1_n_n.contr.Idx) : (dot_S2000x160_S160x160_S2000x160_1_0_0_1_n_n.lhsIdx i c 1).val = (c ⟨0, by decide⟩).val :=
  dot_S2000x160_S160x160_S2000x160_1_0_0_1_n_n.lhsIdx_val_of_single rfl i c
theorem blkDot_rhs0 (i : S2000x160.Idx) (c : dot_S2000x160_S160x160_S2000x160_1_0_0_1_n_n.contr.Idx) : (dot_S2000x160_S160x160_S2000x160_1_0_0_1_n_n.rhsIdx i c 0).val = (c ⟨0, by decide⟩).val :=
  dot_S2000x160_S160x160_S2000x160_1_0_0_1_n_n.rhsIdx_val_of_single rfl i c
theorem blkDot_rhs1 (i : S2000x160.Idx) (c : dot_S2000x160_S160x160_S2000x160_1_0_0_1_n_n.contr.Idx) : (dot_S2000x160_S160x160_S2000x160_1_0_0_1_n_n.rhsIdx i c 1).val = (i 1).val := by
  unfold DotDims.rhsIdx
  rw [dif_neg (show ¬(1 : Fin S160x160.rank) ∈ dot_S2000x160_S160x160_S2000x160_1_0_0_1_n_n.rhsBatch by decide),
    dif_pos (show (1 : Fin S160x160.rank) ∈ dot_S2000x160_S160x160_S2000x160_1_0_0_1_n_n.rhsNonContracting by decide)]
  rfl

/-- At output entry `(p, q)` and contraction coordinate `k` the left operand is read at `(p, k)` … -/
theorem blkDot_lhs (p : Fin 2000) (q : Fin 160) (k : Fin 160) :
    dot_S2000x160_S160x160_S2000x160_1_0_0_1_n_n.lhsIdx (ix2 p q) ((contrEquiv1 dot_S2000x160_S160x160_S2000x160_1_0_0_1_n_n 160 rfl rfl).symm k) = ix2 p k :=
  funext fun a => Fin.ext (by
    have hk := contrEquiv1_symm_val dot_S2000x160_S160x160_S2000x160_1_0_0_1_n_n 160 rfl rfl k
    match a with
    | ⟨0, _⟩ => exact blkDot_lhs0 _ _
    | ⟨1, _⟩ => exact (blkDot_lhs1 _ _).trans hk)
/-- … and the right operand at `(k, q)`. -/
theorem blkDot_rhs (p : Fin 2000) (q : Fin 160) (k : Fin 160) :
    dot_S2000x160_S160x160_S2000x160_1_0_0_1_n_n.rhsIdx (ix2 p q) ((contrEquiv1 dot_S2000x160_S160x160_S2000x160_1_0_0_1_n_n 160 rfl rfl).symm k) = ix2 k q :=
  funext fun a => Fin.ext (by
    have hk := contrEquiv1_symm_val dot_S2000x160_S160x160_S2000x160_1_0_0_1_n_n 160 rfl rfl k
    match a with
    | ⟨0, _⟩ => exact (blkDot_rhs0 _ _).trans hk
    | ⟨1, _⟩ => exact blkDot_rhs1 _ _)

/-! ## The layer functions read at an index -/

/-- Entry `(p, q)` of `y · W` is the sum over `k` of `y (p, k) · W (k, q)`. -/
theorem matW_apply (y : Layers.Feat Ideal) (W : Layers.Mat Ideal) (p : Fin 50000) (q : Fin 160) :
    Layers.matW (F := Ideal) y W (ix2 p q) = ∑ k : Fin 160, y (ix2 p k) * W (ix2 k q) := by
  unfold Layers.matW
  simp only [Host.dotGeneral]
  rw [Ideal.dotGeneral_apply,
    ← Equiv.sum_comp (contrEquiv1 Cert.ReferenceIdeal.dot_S50000x160_S160x160_S50000x160_1_0_0_1_n_n 160 rfl rfl).symm]
  refine Finset.sum_congr rfl fun k _ => ?_
  rw [refDot_lhs, refDot_rhs]

/-- Entry `(p, q)` of the bias laid along the rows is `b q`. -/
theorem rowBias_apply (b : Layers.Bias Ideal) (p : Fin 50000) (q : Fin 160) :
    Layers.rowBias (F := Ideal) b (ix2 p q) = b (ix1 q) := by
  unfold Layers.rowBias
  refine (broadcastInDim_apply _ _ _ (ix2 p q) (ix2 (0 : Fin 1) q) ?_).trans ?_
  · intro a
    match a with
    | ⟨0, _⟩ => show 0 = if (1 : Nat) = 1 then 0 else p.val; rw [if_pos rfl]
    | ⟨1, _⟩ => show q.val = if (160 : Nat) = 1 then 0 else q.val; rw [if_neg (by decide)]
  · refine broadcastInDim_apply _ _ b (ix2 (0 : Fin 1) q) (ix1 q) ?_
    intro a
    match a with
    | ⟨0, _⟩ => show q.val = if (160 : Nat) = 1 then 0 else q.val; rw [if_neg (by decide)]

/-- One graph-convolution layer at entry `(p, q)`. -/
theorem sageLayer_apply (mean h : Layers.Feat Ideal) (Wl : Layers.Mat Ideal) (bl : Layers.Bias Ideal) (Wr : Layers.Mat Ideal)
    (p : Fin 50000) (q : Fin 160) :
    Layers.sageLayer (F := Ideal) mean h Wl bl Wr (ix2 p q)
      = (∑ k : Fin 160, mean (ix2 p k) * Wl (ix2 k q)) + bl (ix1 q) + ∑ k : Fin 160, h (ix2 p k) * Wr (ix2 k q) := by
  unfold Layers.sageLayer
  show (Layers.matW (F := Ideal) mean Wl (ix2 p q) + Layers.rowBias (F := Ideal) bl (ix2 p q)) + Layers.matW (F := Ideal) h Wr (ix2 p q) = _
  rw [matW_apply, matW_apply, rowBias_apply]

/-! ## The block body read at an index -/

/-- The block product into a zero accumulator at `(p, q)`: the sum over `k`. -/
theorem blkMatmul_apply (a : FVec Ideal S2000x160 .bf16) (b : FVec Ideal S160x160 .bf16) (p : Fin 2000) (q : Fin 160) :
    matmul dot_S2000x160_S160x160_S2000x160_1_0_0_1_n_n none a b (constant (F := Ideal) S2000x160 .f32 0x00000000#32) (ix2 p q)
      = ∑ k : Fin 160, a (ix2 p k) * b (ix2 k q) := by
  show FloatOps.matmul dot_S2000x160_S160x160_S2000x160_1_0_0_1_n_n none a b (constant (F := Ideal) S2000x160 .f32 0x00000000#32) (ix2 p q) = _
  rw [Ideal.matmul_constant_zero_apply,
    ← Equiv.sum_comp (contrEquiv1 dot_S2000x160_S160x160_S2000x160_1_0_0_1_n_n 160 rfl rfl).symm]
  refine Finset.sum_congr rfl fun k _ => ?_
  rw [blkDot_lhs, blkDot_rhs]

/-- The bias cast to one row and repeated down the block's rows, at `(p, q)`: `v q`. -/
theorem blkBias_apply (v : Vec Ideal S160 .f32) (p : Fin 2000) (q : Fin 160) :
    broadcastTo S2000x160 (shapeCast S1x160 v shapeCasts_S160_S1x160) broadcasts_S1x160_S2000x160 (ix2 p q) = v (ix1 q) := by
  refine (broadcastTo_apply _ broadcasts_S1x160_S2000x160 (ix2 p q) (ix2 (0 : Fin 1) q) ?_).trans ?_
  · intro a
    match a with
    | ⟨0, _⟩ => show 0 = if (1 : Nat) = 1 then 0 else p.val; rw [if_pos rfl]
    | ⟨1, _⟩ => show q.val = if (160 : Nat) = 1 then 0 else q.val; rw [if_neg (by decide)]
  · exact (shapeCast_addUnit_apply ![160] v shapeCasts_S160_S1x160 (ix2 (0 : Fin 1) q)).trans
      (congrArg v (funext fun a => by match a with | ⟨0, _⟩ => rfl))

/-- What the layer's body stores, at `(p, q)` of the block, from the blocks and arrays it loads. -/
theorem sagePay1_apply (v0 v3 : Vec Ideal S2000x160 .f32) (v6 v8 : Vec Ideal S160x160 .f32) (v11 : Vec Ideal S160 .f32)
    (p : Fin 2000) (q : Fin 160) :
    k1_pay1 v0 v3 v6 v8 v11 (ix2 p q)
      = (∑ k : Fin 160, v0 (ix2 p k) * v6 (ix2 k q)) + v11 (ix1 q) + ∑ k : Fin 160, v3 (ix2 p k) * v8 (ix2 k q) := by
  unfold k1_pay1
  simp only [shapeCast_self]
  show (matmul dot_S2000x160_S160x160_S2000x160_1_0_0_1_n_n none (truncf .bf16 v0 bitsLt_bf16_f32) (truncf .bf16 v6 bitsLt_bf16_f32) (constant (F := Ideal) S2000x160 .f32 0x00000000#32) (ix2 p q)
      + broadcastTo S2000x160 (shapeCast S1x160 v11 shapeCasts_S160_S1x160) broadcasts_S1x160_S2000x160 (ix2 p q))
      + matmul dot_S2000x160_S160x160_S2000x160_1_0_0_1_n_n none (truncf .bf16 v3 bitsLt_bf16_f32) (truncf .bf16 v8 bitsLt_bf16_f32) (constant (F := Ideal) S2000x160 .f32 0x00000000#32) (ix2 p q) = _
  rw [blkMatmul_apply, blkMatmul_apply, blkBias_apply]
  rfl

/-- The second layer's body computes the same function. -/
theorem sagePay2_apply (v0 v3 : Vec Ideal S2000x160 .f32) (v6 v8 : Vec Ideal S160x160 .f32) (v11 : Vec Ideal S160 .f32)
    (p : Fin 2000) (q : Fin 160) :
    k2_pay1 v0 v3 v6 v8 v11 (ix2 p q)
      = (∑ k : Fin 160, v0 (ix2 p k) * v6 (ix2 k q)) + v11 (ix1 q) + ∑ k : Fin 160, v3 (ix2 p k) * v8 (ix2 k q) :=
  sagePay1_apply v0 v3 v6 v8 v11 p q

/-! ## Blocks of 2000 rows -/

theorem hz2 : (![0, 0] : Fin 2 → Nat) = fun _ => 0 := funext fun a => by fin_cases a <;> rfl
theorem hz1 : (![0] : Fin 1 → Nat) = fun _ => 0 := funext fun a => by fin_cases a <;> rfl

/-- A 2000 × 160 block `P` is rows `2000 T …` of a 50000 × 160 array `G` once it is so at coordinates. -/
theorem sage_block (P : S2000x160.Idx → EReal) (G : S50000x160.Idx → EReal) (T : Nat)
    (hP : ∀ (p : Fin 2000) (q : Fin 160) (r : Fin 50000), r.val = T * 2000 + p.val → P (ix2 p q) = G (ix2 r q))
    (y : S2000x160.Idx) (i : S50000x160.Idx) (h0 : (i 0).val = T * 2000 + (y 0).val) (h1 : (i 1).val = (y 1).val) :
    P y = G i := by
  have hi : i = ix2 (i 0) (y 1) := by
    funext a
    match a with
    | ⟨0, _⟩ => rfl
    | ⟨1, _⟩ => exact Fin.ext h1
  rw [eq_ix2 y, hi]
  exact hP (y 0) (y 1) (i 0) h0

/-! ## Region 1: from the blocks to the array -/

section Region1
variable (V : (c : Dev nD) → (b : Ref sig .tc) → Buf (Elt Ideal) ((c : Thread nD τ).loc b))

/-- The index maps over the grid: the two feature windows and the output window sit at row block `t`, the
    weights and the bias are whole arrays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregated-features block at point `t` is row `2000 t + p` of the array. -/
theorem rows1_0 (c : Dev nD) (t : Fin cfg1.N) (p : Fin 2000) (k : Fin 160) (r : Fin 50000) (hr : r.val = t.val * 2000 + p.val) :
    (iblk1 V c 0 t : Vec Ideal S2000x160 .f32) (ix2 p k) = (V c (Pipeline.arrRef spec1 0) : Layers.Feat Ideal) (ix2 r k) := by
  obtain ⟨e0, e1, -⟩ := idx_facts1 t
  unfold iblk1
  rw [View.read_apply]
  refine congrArg (V c (Pipeline.arrRef spec1 0) : Layers.Feat Ideal) (funext fun a => Fin.ext ?_)
  match a with
  | ⟨0, _⟩ => show win1_0.index t (0 : Fin 2) * 2000 + 1 * p.val = r.val; omega
  | ⟨1, _⟩ => show win1_0.index t (1 : Fin 2) * 160 + 1 * k.val = k.val; omega

/-- Row `p` of the features block at point `t` is row `2000 t + p` of the array. -/
theorem rows1_1 (c : Dev nD) (t : Fin cfg1.N) (p : Fin 2000) (k : Fin 160) (r : Fin 50000) (hr : r.val = t.val * 2000 + p.val) :
    (iblk1 V c 1 t : Vec Ideal S2000x160 .f32) (ix2 p k) = (V c (Pipeline.arrRef spec1 1) : Layers.Feat Ideal) (ix2 r k) := by
  obtain ⟨-, -, e0, e1, -⟩ := idx_facts1 t
  unfold iblk1
  rw [View.read_apply]
  refine congrArg (V c (Pipeline.arrRef spec1 1) : Layers.Feat Ideal) (funext fun a => Fin.ext ?_)
  match a with
  | ⟨0, _⟩ => show win1_1.index t (0 : Fin 2) * 2000 + 1 * p.val = r.val; omega
  | ⟨1, _⟩ => show win1_1.index t (1 : Fin 2) * 160 + 1 * k.val = k.val; omega

/-- The left weight's one block is the whole matrix. -/
theorem whole1_2 (c : Dev nD) (t : Fin cfg1.N) (a b : Fin 160) :
    (iblk1 V c 2 t : Vec Ideal S160x160 .f32) (ix2 a b) = (V c (Pipeline.arrRef spec1 2) : Layers.Mat Ideal) (ix2 a b) := by
  obtain ⟨-, -, -, -, e0, e1, -⟩ := idx_facts1 t
  unfold iblk1
  rw [View.read_apply]
  refine congrArg (V c (Pipeline.arrRef spec1 2) : Layers.Mat Ideal) (funext fun d => Fin.ext ?_)
  match d with
  | ⟨0, _⟩ => show win1_2.index t (0 : Fin 2) * 160 + 1 * a.val = a.val; omega
  | ⟨1, _⟩ => show win1_2.index t (1 : Fin 2) * 160 + 1 * b.val = b.val; omega

/-- The bias's one block is the whole vector. -/
theorem whole1_3 (c : Dev nD) (t : Fin cfg1.N) (a : Fin 160) :
    (iblk1 V c 3 t : Vec Ideal S160 .f32) (ix1 a) = (V c (Pipeline.arrRef spec1 3) : Layers.Bias Ideal) (ix1 a) := by
  obtain ⟨-, -, -, -, -, -, e0, -⟩ := idx_facts1 t
  unfold iblk1
  rw [View.read_apply]
  refine congrArg (V c (Pipeline.arrRef spec1 3) : Layers.Bias Ideal) (funext fun d => Fin.ext ?_)
  match d with
  | ⟨0, _⟩ => show win1_3.index t (0 : Fin 1) * 160 + 1 * a.val = a.val; omega

/-- The right weight's one block is the whole matrix. -/
theorem whole1_4 (c : Dev nD) (t : Fin cfg1.N) (a b : Fin 160) :
    (iblk1 V c 4 t : Vec Ideal S160x160 .f32) (ix2 a b) = (V c (Pipeline.arrRef spec1 4) : Layers.Mat Ideal) (ix2 a b) := by
  obtain ⟨-, -, -, -, -, -, -, e0, e1, -⟩ := idx_facts1 t
  unfold iblk1
  rw [View.read_apply]
  refine congrArg (V c (Pipeline.arrRef spec1 4) : Layers.Mat Ideal) (funext fun d => Fin.ext ?_)
  match d with
  | ⟨0, _⟩ => show win1_4.index t (0 : Fin 2) * 160 + 1 * a.val = a.val; omega
  | ⟨1, _⟩ => show win1_4.index t (1 : Fin 2) * 160 + 1 * b.val = b.val; omega

/-- What point `t` writes back is block `t` of the layer of the arrays the region finds. -/
theorem flushed1_eq (c : Dev nD) (t : Fin cfg1.N) :
    (dat1 (F := Ideal) V c).flushed 5 t = ((cfg1.win 5).blk t).view.read (Elt Ideal)
      (Layers.sageLayer (F := Ideal) (V c (Pipeline.arrRef spec1 0)) (V c (Pipeline.arrRef spec1 1))
        (V c (Pipeline.arrRef spec1 2)) (V c (Pipeline.arrRef spec1 3)) (V c (Pipeline.arrRef spec1 4))) := by
  show (cfg1.win 5).cut (grid1.coords t) ((dat1 (F := Ideal) V c).after 5 t) = _
  rw [after1_5]
  unfold out1_5
  rw [View.canon_unit_zero hz2]
  simp only [View.ld_unit_zero (S := S2000x160) hz2, View.ld_unit_zero (S := S160x160) hz2, View.ld_unit_zero (S := S160) hz1]
  obtain ⟨-, -, -, -, -, -, -, -, -, e0, e1⟩ := idx_facts1 t
  funext j
  show k1_pay1 (iblk1 V c 0 t) (iblk1 V c 1 t) (iblk1 V c 2 t) (iblk1 V c 4 t) (iblk1 V c 3 t) ((cfg1.win 5).xinj (grid1.coords t) j)
    = Layers.sageLayer (F := Ideal) (V c (Pipeline.arrRef spec1 0)) (V c (Pipeline.arrRef spec1 1))
        (V c (Pipeline.arrRef spec1 2)) (V c (Pipeline.arrRef spec1 3)) (V c (Pipeline.arrRef spec1 4)) (((cfg1.win 5).blk t).view.emb j)
  refine sage_block _ _ t.val (fun p q r hr => ?_) _ _ ?_ ?_
  · rw [sagePay1_apply, sageLayer_apply]
    simp only [rows1_0 V c t p _ r hr, rows1_1 V c t p _ r hr, whole1_2 V c t, whole1_3 V c t, whole1_4 V c t]
  · show win1_5.index t (0 : Fin 2) * 2000 + 1 * (j 0).val = t.val * 2000 + (j 0).val; omega
  · show win1_5.index t (1 : Fin 2) * 160 + 1 * (j 1).val = (j 1).val; omega

/-- An index of the output array is in point `t`'s block iff each coordinate is in the block's range on its axis. -/
theorem mem_blk1 (t : Fin cfg1.N) (i : S50000x160.Idx) :
    i ∈ ((cfg1.win 5).blk t).view.set ↔ ∀ a : Fin 2, win1_5.index t a * S2000x160.size a ≤ (i a).val ∧ (i a).val < win1_5.index t a * S2000x160.size a + S2000x160.size a := by
  show i ∈ ((View.whole main_v23).slice (win1_5.rect t)).set ↔ _
  rw [View.set_slice_whole, Rect.mem_set_unit]
  exact Iff.rfl

/-- Row `r` of the output array is written by point `r / 2000`. -/
theorem cover1 (i : S50000x160.Idx) : ∃ t : Fin cfg1.N, (cfg1.win 5).flush t = true ∧ i ∈ ((cfg1.win 5).blk t).view.set := by
  have hi0 : (i 0).val < 50000 := (i 0).isLt
  have hi1 : (i 1).val < 160 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, e0, e1⟩ := idx_facts1 t
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 160 ≤ (i 1).val ∧ (i 1).val < win1_5.index t (1 : Fin 2) * 160 + 160; omega

/-- The output array after region 1: one graph-convolution layer of the arrays the region finds. -/
theorem final1 (c : Dev nD) :
    (dat1 (F := Ideal) V c).arrAt 5 cfg1.N
      = Layers.sageLayer (F := Ideal) (V c (Pipeline.arrRef spec1 0)) (V c (Pipeline.arrRef spec1 1))
          (V c (Pipeline.arrRef spec1 2)) (V c (Pipeline.arrRef spec1 3)) (V c (Pipeline.arrRef spec1 4)) :=
  (dat1 (F := Ideal) V c).arrAt_eq_of_cover 5 _ (fun t _ => flushed1_eq V c t) cover1

end Region1

/-! ## Region 2: from the blocks to the array -/

section Region2
variable (V : (c : Dev nD) → (b : Ref sig .tc) → Buf (Elt Ideal) ((c : Thread nD τ).loc b))

/-- The index maps over the grid: the two feature windows and the output window sit at row block `t`, the
    weights and the bias are whole arrays. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the aggregated-features block at point `t` is row `2000 t + p` of the array. -/
theorem rows2_0 (c : Dev nD) (t : Fin cfg2.N) (p : Fin 2000) (k : Fin 160) (r : Fin 50000) (hr : r.val = t.val * 2000 + p.val) :
    (iblk2 V c 0 t : Vec Ideal S2000x160 .f32) (ix2 p k) = (V c (Pipeline.arrRef spec2 0) : Layers.Feat Ideal) (ix2 r k) := by
  obtain ⟨e0, e1, -⟩ := idx_facts2 t
  unfold iblk2
  rw [View.read_apply]
  refine congrArg (V c (Pipeline.arrRef spec2 0) : Layers.Feat Ideal) (funext fun a => Fin.ext ?_)
  match a with
  | ⟨0, _⟩ => show win2_0.index t (0 : Fin 2) * 2000 + 1 * p.val = r.val; omega
  | ⟨1, _⟩ => show win2_0.index t (1 : Fin 2) * 160 + 1 * k.val = k.val; omega

/-- Row `p` of the features block at point `t` is row `2000 t + p` of the array. -/
theorem rows2_1 (c : Dev nD) (t : Fin cfg2.N) (p : Fin 2000) (k : Fin 160) (r : Fin 50000) (hr : r.val = t.val * 2000 + p.val) :
    (iblk2 V c 1 t : Vec Ideal S2000x160 .f32) (ix2 p k) = (V c (Pipeline.arrRef spec2 1) : Layers.Feat Ideal) (ix2 r k) := by
  obtain ⟨-, -, e0, e1, -⟩ := idx_facts2 t
  unfold iblk2
  rw [View.read_apply]
  refine congrArg (V c (Pipeline.arrRef spec2 1) : Layers.Feat Ideal) (funext fun a => Fin.ext ?_)
  match a with
  | ⟨0, _⟩ => show win2_1.index t (0 : Fin 2) * 2000 + 1 * p.val = r.val; omega
  | ⟨1, _⟩ => show win2_1.index t (1 : Fin 2) * 160 + 1 * k.val = k.val; omega

/-- The left weight's one block is the whole matrix. -/
theorem whole2_2 (c : Dev nD) (t : Fin cfg2.N) (a b : Fin 160) :
    (iblk2 V c 2 t : Vec Ideal S160x160 .f32) (ix2 a b) = (V c (Pipeline.arrRef spec2 2) : Layers.Mat Ideal) (ix2 a b) := by
  obtain ⟨-, -, -, -, e0, e1, -⟩ := idx_facts2 t
  unfold iblk2
  rw [View.read_apply]
  refine congrArg (V c (Pipeline.arrRef spec2 2) : Layers.Mat Ideal) (funext fun d => Fin.ext ?_)
  match d with
  | ⟨0, _⟩ => show win2_2.index t (0 : Fin 2) * 160 + 1 * a.val = a.val; omega
  | ⟨1, _⟩ => show win2_2.index t (1 : Fin 2) * 160 + 1 * b.val = b.val; omega

/-- The bias's one block is the whole vector. -/
theorem whole2_3 (c : Dev nD) (t : Fin cfg2.N) (a : Fin 160) :
    (iblk2 V c 3 t : Vec Ideal S160 .f32) (ix1 a) = (V c (Pipeline.arrRef spec2 3) : Layers.Bias Ideal) (ix1 a) := by
  obtain ⟨-, -, -, -, -, -, e0, -⟩ := idx_facts2 t
  unfold iblk2
  rw [View.read_apply]
  refine congrArg (V c (Pipeline.arrRef spec2 3) : Layers.Bias Ideal) (funext fun d => Fin.ext ?_)
  match d with
  | ⟨0, _⟩ => show win2_3.index t (0 : Fin 1) * 160 + 1 * a.val = a.val; omega

/-- The right weight's one block is the whole matrix. -/
theorem whole2_4 (c : Dev nD) (t : Fin cfg2.N) (a b : Fin 160) :
    (iblk2 V c 4 t : Vec Ideal S160x160 .f32) (ix2 a b) = (V c (Pipeline.arrRef spec2 4) : Layers.Mat Ideal) (ix2 a b) := by
  obtain ⟨-, -, -, -, -, -, -, e0, e1, -⟩ := idx_facts2 t
  unfold iblk2
  rw [View.read_apply]
  refine congrArg (V c (Pipeline.arrRef spec2 4) : Layers.Mat Ideal) (funext fun d => Fin.ext ?_)
  match d with
  | ⟨0, _⟩ => show win2_4.index t (0 : Fin 2) * 160 + 1 * a.val = a.val; omega
  | ⟨1, _⟩ => show win2_4.index t (1 : Fin 2) * 160 + 1 * b.val = b.val; omega

/-- What point `t` writes back is block `t` of the layer of the arrays the region finds. -/
theorem flushed2_eq (c : Dev nD) (t : Fin cfg2.N) :
    (dat2 (F := Ideal) V c).flushed 5 t = ((cfg2.win 5).blk t).view.read (Elt Ideal)
      (Layers.sageLayer (F := Ideal) (V c (Pipeline.arrRef spec2 0)) (V c (Pipeline.arrRef spec2 1))
        (V c (Pipeline.arrRef spec2 2)) (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero hz2]
  simp only [View.ld_unit_zero (S := S2000x160) hz2, View.ld_unit_zero (S := S160x160) hz2, View.ld_unit_zero (S := S160) hz1]
  obtain ⟨-, -, -, -, -, -, -, -, -, e0, e1⟩ := idx_facts2 t
  funext j
  show k2_pay1 (iblk2 V c 0 t) (iblk2 V c 1 t) (iblk2 V c 2 t) (iblk2 V c 4 t) (iblk2 V c 3 t) ((cfg2.win 5).xinj (grid2.coords t) j)
    = Layers.sageLayer (F := Ideal) (V c (Pipeline.arrRef spec2 0)) (V c (Pipeline.arrRef spec2 1))
        (V c (Pipeline.arrRef spec2 2)) (V c (Pipeline.arrRef spec2 3)) (V c (Pipeline.arrRef spec2 4)) (((cfg2.win 5).blk t).view.emb j)
  refine sage_block _ _ t.val (fun p q r hr => ?_) _ _ ?_ ?_
  · rw [sagePay2_apply, sageLayer_apply]
    simp only [rows2_0 V c t p _ r hr, rows2_1 V c t p _ r hr, whole2_2 V c t, whole2_3 V c t, whole2_4 V c t]
  · show win2_5.index t (0 : Fin 2) * 2000 + 1 * (j 0).val = t.val * 2000 + (j 0).val; omega
  · show win2_5.index t (1 : Fin 2) * 160 + 1 * (j 1).val = (j 1).val; omega

/-- An index of the output array is in point `t`'s block iff each coordinate is in the block's range on its axis. -/
theorem mem_blk2 (t : Fin cfg2.N) (i : S50000x160.Idx) :
    i ∈ ((cfg2.win 5).blk t).view.set ↔ ∀ a : Fin 2, win2_5.index t a * S2000x160.size a ≤ (i a).val ∧ (i a).val < win2_5.index t a * S2000x160.size a + S2000x160.size a := by
  show i ∈ ((View.whole main_v36).slice (win2_5.rect t)).set ↔ _
  rw [View.set_slice_whole, Rect.mem_set_unit]
  exact Iff.rfl

/-- Row `r` of the output array is written by point `r / 2000`. -/
theorem cover2 (i : S50000x160.Idx) : ∃ t : Fin cfg2.N, (cfg2.win 5).flush t = true ∧ i ∈ ((cfg2.win 5).blk t).view.set := by
  have hi0 : (i 0).val < 50000 := (i 0).isLt
  have hi1 : (i 1).val < 160 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, -, e0, e1⟩ := idx_facts2 t
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 160 ≤ (i 1).val ∧ (i 1).val < win2_5.index t (1 : Fin 2) * 160 + 160; omega

/-- The output array after region 2: one graph-convolution layer of the arrays the region finds. -/
theorem final2 (c : Dev nD) :
    (dat2 (F := Ideal) V c).arrAt 5 cfg2.N
      = Layers.sageLayer (F := Ideal) (V c (Pipeline.arrRef spec2 0)) (V c (Pipeline.arrRef spec2 1))
          (V c (Pipeline.arrRef spec2 2)) (V c (Pipeline.arrRef spec2 3)) (V c (Pipeline.arrRef spec2 4)) :=
  (dat2 (F := Ideal) V c).arrAt_eq_of_cover 5 _ (fun t _ => flushed2_eq V c t) cover2

end Region2

end Cert.KernelIdeal.SageValue

end
-- ==== Proof.HeadRegion.lean ====
/-
  The output head, read off the pipeline's proof data.

  The region runs one body on blocks of 2000 rows with two stores. With `h` the feature array, `W_1`, `b_1` the
  first dense layer and `W_2`, `b_2` the second, the body stores the embedding
  `em (p, q) = leaky (Σ_k h (p, k) · W_1 (k, q) + b_1 q)` (the leaky rectifier keeps a positive entry and multiplies any
  other by the binary32 word nearest 0.01) and then the two logits `out (p, q) = Σ_k em (p, k) · W_2 (k, q) + b_2 q`,
  computed from the embedding block it has just formed. On the extended reals a change of float format is the identity
  and a matrix product into a zero accumulator is the plain sum over the contracted axis. The block at grid point `t`
  is rows `2000 t … 2000 t + 1999`, the weights and biases are fetched whole, and the 25 blocks tile the 50000 rows, so
  the two output arrays end holding `Layers.headEm` of the arrays the region finds and `Layers.headOut` of that
  embedding, whatever those arrays are.
-/
import proofs.«106324_j28432683499967_2_alg».proof.Proof.Gen.KernelIdeal.Frame
import proofs.«106324_j28432683499967_2_alg».proof.Proof.Layers
import Idealize.ShloMosaic.Lib.Pipeline.Value
import Idealize.ShloMosaic.Lib.ValueIdx
import Idealize.ShloMosaic.PureOps.Ideal.Laws

noncomputable section

namespace Cert.KernelIdeal.HeadValue

open Idealize.ShloMosaic Idealize.ShloMosaic.TcCoe Idealize.SL.Sem Idealize.ShloMosaic.StableHlo
open Idealize.ShloMosaic.ValueIdx
open Cert.KernelIdeal Cert.KernelIdeal.Gen
open Cert.Proof

/-! ## The contraction indices of the four matrix products

Each product contracts axis 1 of the left operand with axis 0 of the right one, so at the output index `(p, q)` and
the contraction coordinate `k` the left operand is read at `(p, k)` and the right one at `(k, q)`. -/

theorem refDot_lhs0 (i : S50000x160.Idx) (c : Cert.ReferenceIdeal.dot_S50000x160_S160x160_S50000x160_1_0_0_1_n_n.contr.Idx) : (Cert.ReferenceIdeal.dot_S50000x160_S160x160_S50000x160_1_0_0_1_n_n.lhsIdx i c 0).val = (i 0).val := by
  unfold DotDims.lhsIdx
  rw [dif_neg (show ¬(0 : Fin S50000x160.rank) ∈ Cert.ReferenceIdeal.dot_S50000x160_S160x160_S50000x160_1_0_0_1_n_n.lhsBatch by decide),
    dif_pos (show (0 : Fin S50000x160.rank) ∈ Cert.ReferenceIdeal.dot_S50000x160_S160x160_S50000x160_1_0_0_1_n_n.lhsNonContracting by decide)]
  rfl
theorem refDot_lhs1 (i : S50000x160.Idx) (c : Cert.ReferenceIdeal.dot_S50000x160_S160x160_S50000x160_1_0_0_1_n_n.contr.Idx) : (Cert.ReferenceIdeal.dot_S50000x160_S160x160_S50000x160_1_0_0_1_n_n.lhsIdx i c 1).val = (c ⟨0, by decide⟩).val :=
  Cert.ReferenceIdeal.dot_S50000x160_S160x160_S50000x160_1_0_0_1_n_n.lhsIdx_val_of_single rfl i c
theorem refDot_rhs0 (i : S50000x160.Idx) (c : Cert.ReferenceIdeal.dot_S50000x160_S160x160_S50000x160_1_0_0_1_n_n.contr.Idx) : (Cert.ReferenceIdeal.dot_S50000x160_S160x160_S50000x160_1_0_0_1_n_n.rhsIdx i c 0).val = (c ⟨0, by decide⟩).val :=
  Cert.ReferenceIdeal.dot_S50000x160_S160x160_S50000x160_1_0_0_1_n_n.rhsIdx_val_of_single rfl i c
theorem refDot_rhs1 (i : S50000x160.Idx) (c : Cert.ReferenceIdeal.dot_S50000x160_S160x160_S50000x160_1_0_0_1_n_n.contr.Idx) : (Cert.ReferenceIdeal.dot_S50000x160_S160x160_S50000x160_1_0_0_1_n_n.rhsIdx i c 1).val = (i 1).val := by
  unfold DotDims.rhsIdx
  rw [dif_neg (show ¬(1 : Fin S160x160.rank) ∈ Cert.ReferenceIdeal.dot_S50000x160_S160x160_S50000x160_1_0_0_1_n_n.rhsBatch by decide),
    dif_pos (show (1 : Fin S160x160.rank) ∈ Cert.ReferenceIdeal.dot_S50000x160_S160x160_S50000x160_1_0_0_1_n_n.rhsNonContracting by decide)]
  rfl

/-- At output entry `(p, q)` and contraction coordinate `k` the left operand is read at `(p, k)` … -/
theorem refDot_lhs (p : Fin 50000) (q : Fin 160) (k : Fin 160) :
    Cert.ReferenceIdeal.dot_S50000x160_S160x160_S50000x160_1_0_0_1_n_n.lhsIdx (ix2 p q) ((contrEquiv1 Cert.ReferenceIdeal.dot_S50000x160_S160x160_S50000x160_1_0_0_1_n_n 160 rfl rfl).symm k) = ix2 p k :=
  funext fun a => Fin.ext (by
    have hk := contrEquiv1_symm_val Cert.ReferenceIdeal.dot_S50000x160_S160x160_S50000x160_1_0_0_1_n_n 160 rfl rfl k
    match a with
    | ⟨0, _⟩ => exact refDot_lhs0 _ _
    | ⟨1, _⟩ => exact (refDot_lhs1 _ _).trans hk)
/-- … and the right operand at `(k, q)`. -/
theorem refDot_rhs (p : Fin 50000) (q : Fin 160) (k : Fin 160) :
    Cert.ReferenceIdeal.dot_S50000x160_S160x160_S50000x160_1_0_0_1_n_n.rhsIdx (ix2 p q) ((contrEquiv1 Cert.ReferenceIdeal.dot_S50000x160_S160x160_S50000x160_1_0_0_1_n_n 160 rfl rfl).symm k) = ix2 k q :=
  funext fun a => Fin.ext (by
    have hk := contrEquiv1_symm_val Cert.ReferenceIdeal.dot_S50000x160_S160x160_S50000x160_1_0_0_1_n_n 160 rfl rfl k
    match a with
    | ⟨0, _⟩ => exact (refDot_rhs0 _ _).trans hk
    | ⟨1, _⟩ => exact refDot_rhs1 _ _)

theorem blkDot_lhs0 (i : S2000x160.Idx) (c : dot_S2000x160_S160x160_S2000x160_1_0_0_1_n_n.contr.Idx) : (dot_S2000x160_S160x160_S2000x160_1_0_0_1_n_n.lhsIdx i c 0).val = (i 0).val := by
  unfold DotDims.lhsIdx
  rw [dif_neg (show ¬(0 : Fin S2000x160.rank) ∈ dot_S2000x160_S160x160_S2000x160_1_0_0_1_n_n.lhsBatch by decide),
    dif_pos (show (0 : Fin S2000x160.rank) ∈ dot_S2000x160_S160x160_S2000x160_1_0_0_1_n_n.lhsNonContracting by decide)]
  rfl
theorem blkDot_lhs1 (i : S2000x160.Idx) (c : dot_S2000x160_S160x160_S2000x160_1_0_0_1_n_n.contr.Idx) : (dot_S2000x160_S160x160_S2000x160_1_0_0_1_n_n.lhsIdx i c 1).val = (c ⟨0, by decide⟩).val :=
  dot_S2000x160_S160x160_S2000x160_1_0_0_1_n_n.lhsIdx_val_of_single rfl i c
theorem blkDot_rhs0 (i : S2000x160.Idx) (c : dot_S2000x160_S160x160_S2000x160_1_0_0_1_n_n.contr.Idx) : (dot_S2000x160_S160x160_S2000x160_1_0_0_1_n_n.rhsIdx i c 0).val = (c ⟨0, by decide⟩).val :=
  dot_S2000x160_S160x160_S2000x160_1_0_0_1_n_n.rhsIdx_val_of_single rfl i c
theorem blkDot_rhs1 (i : S2000x160.Idx) (c : dot_S2000x160_S160x160_S2000x160_1_0_0_1_n_n.contr.Idx) : (dot_S2000x160_S160x160_S2000x160_1_0_0_1_n_n.rhsIdx i c 1).val = (i 1).val := by
  unfold DotDims.rhsIdx
  rw [dif_neg (show ¬(1 : Fin S160x160.rank) ∈ dot_S2000x160_S160x160_S2000x160_1_0_0_1_n_n.rhsBatch by decide),
    dif_pos (show (1 : Fin S160x160.rank) ∈ dot_S2000x160_S160x160_S2000x160_1_0_0_1_n_n.rhsNonContracting by decide)]
  rfl

/-- At output entry `(p, q)` and contraction coordinate `k` the left operand is read at `(p, k)` … -/
theorem blkDot_lhs (p : Fin 2000) (q : Fin 160) (k : Fin 160) :
    dot_S2000x160_S160x160_S2000x160_1_0_0_1_n_n.lhsIdx (ix2 p q) ((contrEquiv1 dot_S2000x160_S160x160_S2000x160_1_0_0_1_n_n 160 rfl rfl).symm k) = ix2 p k :=
  funext fun a => Fin.ext (by
    have hk := contrEquiv1_symm_val dot_S2000x160_S160x160_S2000x160_1_0_0_1_n_n 160 rfl rfl k
    match a with
    | ⟨0, _⟩ => exact blkDot_lhs0 _ _
    | ⟨1, _⟩ => exact (blkDot_lhs1 _ _).trans hk)
/-- … and the right operand at `(k, q)`. -/
theorem blkDot_rhs (p : Fin 2000) (q : Fin 160) (k : Fin 160) :
    dot_S2000x160_S160x160_S2000x160_1_0_0_1_n_n.rhsIdx (ix2 p q) ((contrEquiv1 dot_S2000x160_S160x160_S2000x160_1_0_0_1_n_n 160 rfl rfl).symm k) = ix2 k q :=
  funext fun a => Fin.ext (by
    have hk := contrEquiv1_symm_val dot_S2000x160_S160x160_S2000x160_1_0_0_1_n_n 160 rfl rfl k
    match a with
    | ⟨0, _⟩ => exact (blkDot_rhs0 _ _).trans hk
    | ⟨1, _⟩ => exact blkDot_rhs1 _ _)

theorem refDot2_lhs0 (i : S50000x2.Idx) (c : Cert.ReferenceIdeal.dot_S50000x160_S160x2_S50000x2_1_0_0_1_n_n.contr.Idx) : (Cert.ReferenceIdeal.dot_S50000x160_S160x2_S50000x2_1_0_0_1_n_n.lhsIdx i c 0).val = (i 0).val := by
  unfold DotDims.lhsIdx
  rw [dif_neg (show ¬(0 : Fin S50000x160.rank) ∈ Cert.ReferenceIdeal.dot_S50000x160_S160x2_S50000x2_1_0_0_1_n_n.lhsBatch by decide),
    dif_pos (show (0 : Fin S50000x160.rank) ∈ Cert.ReferenceIdeal.dot_S50000x160_S160x2_S50000x2_1_0_0_1_n_n.lhsNonContracting by decide)]
  rfl
theorem refDot2_lhs1 (i : S50000x2.Idx) (c : Cert.ReferenceIdeal.dot_S50000x160_S160x2_S50000x2_1_0_0_1_n_n.contr.Idx) : (Cert.ReferenceIdeal.dot_S50000x160_S160x2_S50000x2_1_0_0_1_n_n.lhsIdx i c 1).val = (c ⟨0, by decide⟩).val :=
  Cert.ReferenceIdeal.dot_S50000x160_S160x2_S50000x2_1_0_0_1_n_n.lhsIdx_val_of_single rfl i c
theorem refDot2_rhs0 (i : S50000x2.Idx) (c : Cert.ReferenceIdeal.dot_S50000x160_S160x2_S50000x2_1_0_0_1_n_n.contr.Idx) : (Cert.ReferenceIdeal.dot_S50000x160_S160x2_S50000x2_1_0_0_1_n_n.rhsIdx i c 0).val = (c ⟨0, by decide⟩).val :=
  Cert.ReferenceIdeal.dot_S50000x160_S160x2_S50000x2_1_0_0_1_n_n.rhsIdx_val_of_single rfl i c
theorem refDot2_rhs1 (i : S50000x2.Idx) (c : Cert.ReferenceIdeal.dot_S50000x160_S160x2_S50000x2_1_0_0_1_n_n.contr.Idx) : (Cert.ReferenceIdeal.dot_S50000x160_S160x2_S50000x2_1_0_0_1_n_n.rhsIdx i c 1).val = (i 1).val := by
  unfold DotDims.rhsIdx
  rw [dif_neg (show ¬(1 : Fin S160x2.rank) ∈ Cert.ReferenceIdeal.dot_S50000x160_S160x2_S50000x2_1_0_0_1_n_n.rhsBatch by decide),
    dif_pos (show (1 : Fin S160x2.rank) ∈ Cert.ReferenceIdeal.dot_S50000x160_S160x2_S50000x2_1_0_0_1_n_n.rhsNonContracting by decide)]
  rfl

/-- At output entry `(p, q)` and contraction coordinate `k` the left operand is read at `(p, k)` … -/
theorem refDot2_lhs (p : Fin 50000) (q : Fin 2) (k : Fin 160) :
    Cert.ReferenceIdeal.dot_S50000x160_S160x2_S50000x2_1_0_0_1_n_n.lhsIdx (ix2 p q) ((contrEquiv1 Cert.ReferenceIdeal.dot_S50000x160_S160x2_S50000x2_1_0_0_1_n_n 160 rfl rfl).symm k) = ix2 p k :=
  funext fun a => Fin.ext (by
    have hk := contrEquiv1_symm_val Cert.ReferenceIdeal.dot_S50000x160_S160x2_S50000x2_1_0_0_1_n_n 160 rfl rfl k
    match a with
    | ⟨0, _⟩ => exact refDot2_lhs0 _ _
    | ⟨1, _⟩ => exact (refDot2_lhs1 _ _).trans hk)
/-- … and the right operand at `(k, q)`. -/
theorem refDot2_rhs (p : Fin 50000) (q : Fin 2) (k : Fin 160) :
    Cert.ReferenceIdeal.dot_S50000x160_S160x2_S50000x2_1_0_0_1_n_n.rhsIdx (ix2 p q) ((contrEquiv1 Cert.ReferenceIdeal.dot_S50000x160_S160x2_S50000x2_1_0_0_1_n_n 160 rfl rfl).symm k) = ix2 k q :=
  funext fun a => Fin.ext (by
    have hk := contrEquiv1_symm_val Cert.ReferenceIdeal.dot_S50000x160_S160x2_S50000x2_1_0_0_1_n_n 160 rfl rfl k
    match a with
    | ⟨0, _⟩ => exact (refDot2_rhs0 _ _).trans hk
    | ⟨1, _⟩ => exact refDot2_rhs1 _ _)

theorem blkDot2_lhs0 (i : S2000x2.Idx) (c : dot_S2000x160_S160x2_S2000x2_1_0_0_1_n_n.contr.Idx) : (dot_S2000x160_S160x2_S2000x2_1_0_0_1_n_n.lhsIdx i c 0).val = (i 0).val := by
  unfold DotDims.lhsIdx
  rw [dif_neg (show ¬(0 : Fin S2000x160.rank) ∈ dot_S2000x160_S160x2_S2000x2_1_0_0_1_n_n.lhsBatch by decide),
    dif_pos (show (0 : Fin S2000x160.rank) ∈ dot_S2000x160_S160x2_S2000x2_1_0_0_1_n_n.lhsNonContracting by decide)]
  rfl
theorem blkDot2_lhs1 (i : S2000x2.Idx) (c : dot_S2000x160_S160x2_S2000x2_1_0_0_1_n_n.contr.Idx) : (dot_S2000x160_S160x2_S2000x2_1_0_0_1_n_n.lhsIdx i c 1).val = (c ⟨0, by decide⟩).val :=
  dot_S2000x160_S160x2_S2000x2_1_0_0_1_n_n.lhsIdx_val_of_single rfl i c
theorem blkDot2_rhs0 (i : S2000x2.Idx) (c : dot_S2000x160_S160x2_S2000x2_1_0_0_1_n_n.contr.Idx) : (dot_S2000x160_S160x2_S2000x2_1_0_0_1_n_n.rhsIdx i c 0).val = (c ⟨0, by decide⟩).val :=
  dot_S2000x160_S160x2_S2000x2_1_0_0_1_n_n.rhsIdx_val_of_single rfl i c
theorem blkDot2_rhs1 (i : S2000x2.Idx) (c : dot_S2000x160_S160x2_S2000x2_1_0_0_1_n_n.contr.Idx) : (dot_S2000x160_S160x2_S2000x2_1_0_0_1_n_n.rhsIdx i c 1).val = (i 1).val := by
  unfold DotDims.rhsIdx
  rw [dif_neg (show ¬(1 : Fin S160x2.rank) ∈ dot_S2000x160_S160x2_S2000x2_1_0_0_1_n_n.rhsBatch by decide),
    dif_pos (show (1 : Fin S160x2.rank) ∈ dot_S2000x160_S160x2_S2000x2_1_0_0_1_n_n.rhsNonContracting by decide)]
  rfl

/-- At output entry `(p, q)` and contraction coordinate `k` the left operand is read at `(p, k)` … -/
theorem blkDot2_lhs (p : Fin 2000) (q : Fin 2) (k : Fin 160) :
    dot_S2000x160_S160x2_S2000x2_1_0_0_1_n_n.lhsIdx (ix2 p q) ((contrEquiv1 dot_S2000x160_S160x2_S2000x2_1_0_0_1_n_n 160 rfl rfl).symm k) = ix2 p k :=
  funext fun a => Fin.ext (by
    have hk := contrEquiv1_symm_val dot_S2000x160_S160x2_S2000x2_1_0_0_1_n_n 160 rfl rfl k
    match a with
    | ⟨0, _⟩ => exact blkDot2_lhs0 _ _
    | ⟨1, _⟩ => exact (blkDot2_lhs1 _ _).trans hk)
/-- … and the right operand at `(k, q)`. -/
theorem blkDot2_rhs (p : Fin 2000) (q : Fin 2) (k : Fin 160) :
    dot_S2000x160_S160x2_S2000x2_1_0_0_1_n_n.rhsIdx (ix2 p q) ((contrEquiv1 dot_S2000x160_S160x2_S2000x2_1_0_0_1_n_n 160 rfl rfl).symm k) = ix2 k q :=
  funext fun a => Fin.ext (by
    have hk := contrEquiv1_symm_val dot_S2000x160_S160x2_S2000x2_1_0_0_1_n_n 160 rfl rfl k
    match a with
    | ⟨0, _⟩ => exact (blkDot2_rhs0 _ _).trans hk
    | ⟨1, _⟩ => exact blkDot2_rhs1 _ _)

/-! ## The head's layer functions read at an index -/

/-- Entry `(p, q)` of `y · W` is the sum over `k` of `y (p, k) · W (k, q)`. -/
theorem matW_apply (y : Layers.Feat Ideal) (W : Layers.Mat Ideal) (p : Fin 50000) (q : Fin 160) :
    Layers.matW (F := Ideal) y W (ix2 p q) = ∑ k : Fin 160, y (ix2 p k) * W (ix2 k q) := by
  unfold Layers.matW
  simp only [Host.dotGeneral]
  rw [Ideal.dotGeneral_apply,
    ← Equiv.sum_comp (contrEquiv1 Cert.ReferenceIdeal.dot_S50000x160_S160x160_S50000x160_1_0_0_1_n_n 160 rfl rfl).symm]
  refine Finset.sum_congr rfl fun k _ => ?_
  rw [refDot_lhs, refDot_rhs]

/-- Entry `(p, q)` of the bias laid along the rows is `b q`. -/
theorem rowBias_apply (b : Layers.Bias Ideal) (p : Fin 50000) (q : Fin 160) :
    Layers.rowBias (F := Ideal) b (ix2 p q) = b (ix1 q) := by
  unfold Layers.rowBias
  refine (broadcastInDim_apply _ _ _ (ix2 p q) (ix2 (0 : Fin 1) q) ?_).trans ?_
  · intro a
    match a with
    | ⟨0, _⟩ => show 0 = if (1 : Nat) = 1 then 0 else p.val; rw [if_pos rfl]
    | ⟨1, _⟩ => show q.val = if (160 : Nat) = 1 then 0 else q.val; rw [if_neg (by decide)]
  · refine broadcastInDim_apply _ _ b (ix2 (0 : Fin 1) q) (ix1 q) ?_
    intro a
    match a with
    | ⟨0, _⟩ => show q.val = if (160 : Nat) = 1 then 0 else q.val; rw [if_neg (by decide)]

/-- The leaky rectifier on one extended real: `x` where `x > 0`, `0.01 · x` elsewhere (the constant as a binary32 word). -/
def leakyAt (x : Ideal .f32) : Ideal .f32 :=
  Scalar.select (FloatOps.cmpf .ogt x (FloatOps.ofBits (F := Ideal) .f32 0x00000000#32)) x
    (FloatOps.mulf (FloatOps.ofBits (F := Ideal) .f32 0x3C23D70A#32) x)

/-- A scalar constant spread over the array reads the constant everywhere. -/
theorem splat_apply (w : BitVec 32) (hb : Cert.ReferenceIdeal.S_.BroadcastsInDim Cert.ReferenceIdeal.S50000x160 ![]) (i : S50000x160.Idx) :
    broadcastInDim Cert.ReferenceIdeal.S50000x160 ![] hb (constant (F := Ideal) Cert.ReferenceIdeal.S_ .f32 w) i
      = FloatOps.ofBits (F := Ideal) .f32 w :=
  broadcastInDim_apply _ hb _ i (fun a => a.elim0) (fun a => a.elim0)

/-- The whole-array leaky rectifier acts entry by entry. -/
theorem leaky_apply (y : Layers.Feat Ideal) (i : S50000x160.Idx) : Layers.leaky (F := Ideal) y i = leakyAt (y i) := by
  unfold Layers.leaky leakyAt
  show Scalar.select (FloatOps.cmpf .ogt (y i)
        (broadcastInDim Cert.ReferenceIdeal.S50000x160 ![] _ (constant (F := Ideal) Cert.ReferenceIdeal.S_ .f32 0x00000000#32) i)) (y i)
      (FloatOps.mulf (broadcastInDim Cert.ReferenceIdeal.S50000x160 ![] _ (constant (F := Ideal) Cert.ReferenceIdeal.S_ .f32 0x3C23D70A#32) i) (y i)) = _
  rw [splat_apply, splat_apply]

/-- The embedding at entry `(p, q)`: the leaky rectifier of `Σ_k h (p, k) · W (k, q) + b q`. -/
theorem headEm_apply (h : Layers.Feat Ideal) (Wo1 : Layers.Mat Ideal) (bo1 : Layers.Bias Ideal) (p : Fin 50000) (q : Fin 160) :
    Layers.headEm (F := Ideal) h Wo1 bo1 (ix2 p q) = leakyAt ((∑ k : Fin 160, h (ix2 p k) * Wo1 (ix2 k q)) + bo1 (ix1 q)) := by
  unfold Layers.headEm
  rw [leaky_apply]
  show leakyAt (Layers.matW (F := Ideal) h Wo1 (ix2 p q) + Layers.rowBias (F := Ideal) bo1 (ix2 p q)) = _
  rw [matW_apply, rowBias_apply]

/-- Entry `(p, q)` of the product with the 160 × 2 weight. -/
theorem refMatmul2_apply (em : Layers.Feat Ideal) (Wo2 : (⟨Cert.ReferenceIdeal.S160x2, .f32⟩ : BufTy).Contents (Elt Ideal)) (p : Fin 50000) (q : Fin 2) :
    Host.dotGeneral (F := Ideal) (φ₁ := .f32) (φ₂ := .f32) Cert.ReferenceIdeal.dot_S50000x160_S160x2_S50000x2_1_0_0_1_n_n none em Wo2 (ix2 p q) = ∑ k : Fin 160, em (ix2 p k) * Wo2 (ix2 k q) := by
  simp only [Host.dotGeneral]
  rw [Ideal.dotGeneral_apply, ← Equiv.sum_comp (contrEquiv1 Cert.ReferenceIdeal.dot_S50000x160_S160x2_S50000x2_1_0_0_1_n_n 160 rfl rfl).symm]
  refine Finset.sum_congr rfl fun k _ => ?_
  rw [refDot2_lhs, refDot2_rhs]

/-- Entry `(p, q)` of the two-entry bias laid along the rows is `b q`. -/
theorem refBias2_apply (b : (⟨Cert.ReferenceIdeal.S2, .f32⟩ : BufTy).Contents (Elt Ideal)) (p : Fin 50000) (q : Fin 2)
    (h1 : Cert.ReferenceIdeal.S1x2.BroadcastsInDim Cert.ReferenceIdeal.S50000x2 ![0, 1]) (h2 : Cert.ReferenceIdeal.S2.BroadcastsInDim Cert.ReferenceIdeal.S1x2 ![1]) :
    broadcastInDim Cert.ReferenceIdeal.S50000x2 ![0, 1] h1 (broadcastInDim Cert.ReferenceIdeal.S1x2 ![1] h2 b) (ix2 p q) = b (ix1 q) := by
  refine (broadcastInDim_apply _ h1 _ (ix2 p q) (ix2 (0 : Fin 1) q) ?_).trans ?_
  · intro a
    match a with
    | ⟨0, _⟩ => show 0 = if (1 : Nat) = 1 then 0 else p.val; rw [if_pos rfl]
    | ⟨1, _⟩ => show q.val = if (2 : Nat) = 1 then 0 else q.val; rw [if_neg (by decide)]
  · refine broadcastInDim_apply _ h2 b (ix2 (0 : Fin 1) q) (ix1 q) ?_
    intro a
    match a with
    | ⟨0, _⟩ => show q.val = if (2 : Nat) = 1 then 0 else q.val; rw [if_neg (by decide)]

/-- The two logits at row `p`: `Σ_k em (p, k) · W (k, q) + b q`. -/
theorem headOut_apply (em : Layers.Feat Ideal) (Wo2 : (⟨Cert.ReferenceIdeal.S160x2, .f32⟩ : BufTy).Contents (Elt Ideal))
    (bo2 : (⟨Cert.ReferenceIdeal.S2, .f32⟩ : BufTy).Contents (Elt Ideal)) (p : Fin 50000) (q : Fin 2) :
    Layers.headOut (F := Ideal) em Wo2 bo2 (ix2 p q) = (∑ k : Fin 160, em (ix2 p k) * Wo2 (ix2 k q)) + bo2 (ix1 q) := by
  unfold Layers.headOut
  show Host.dotGeneral (F := Ideal) (φ₁ := .f32) (φ₂ := .f32) Cert.ReferenceIdeal.dot_S50000x160_S160x2_S50000x2_1_0_0_1_n_n none em Wo2 (ix2 p q)
      + broadcastInDim Cert.ReferenceIdeal.S50000x2 ![0, 1] _ (broadcastInDim Cert.ReferenceIdeal.S1x2 ![1] _ bo2) (ix2 p q) = _
  rw [refMatmul2_apply, refBias2_apply]

/-! ## The block body read at an index -/

/-- The block product into a zero accumulator at `(p, q)`: the sum over `k`. -/
theorem blkMatmul_apply (a : FVec Ideal S2000x160 .bf16) (b : FVec Ideal S160x160 .bf16) (p : Fin 2000) (q : Fin 160) :
    matmul dot_S2000x160_S160x160_S2000x160_1_0_0_1_n_n none a b (constant (F := Ideal) S2000x160 .f32 0x00000000#32) (ix2 p q)
      = ∑ k : Fin 160, a (ix2 p k) * b (ix2 k q) := by
  show FloatOps.matmul dot_S2000x160_S160x160_S2000x160_1_0_0_1_n_n none a b (constant (F := Ideal) S2000x160 .f32 0x00000000#32) (ix2 p q) = _
  rw [Ideal.matmul_constant_zero_apply,
    ← Equiv.sum_comp (contrEquiv1 dot_S2000x160_S160x160_S2000x160_1_0_0_1_n_n 160 rfl rfl).symm]
  refine Finset.sum_congr rfl fun k _ => ?_
  rw [blkDot_lhs, blkDot_rhs]

/-- The bias cast to one row and repeated down the block's rows, at `(p, q)`: `v q`. -/
theorem blkBias_apply (v : Vec Ideal S160 .f32) (p : Fin 2000) (q : Fin 160) :
    broadcastTo S2000x160 (shapeCast S1x160 v shapeCasts_S160_S1x160) broadcasts_S1x160_S2000x160 (ix2 p q) = v (ix1 q) := by
  refine (broadcastTo_apply _ broadcasts_S1x160_S2000x160 (ix2 p q) (ix2 (0 : Fin 1) q) ?_).trans ?_
  · intro a
    match a with
    | ⟨0, _⟩ => show 0 = if (1 : Nat) = 1 then 0 else p.val; rw [if_pos rfl]
    | ⟨1, _⟩ => show q.val = if (160 : Nat) = 1 then 0 else q.val; rw [if_neg (by decide)]
  · exact (shapeCast_addUnit_apply ![160] v shapeCasts_S160_S1x160 (ix2 (0 : Fin 1) q)).trans
      (congrArg v (funext fun a => by match a with | ⟨0, _⟩ => rfl))

/-- The block product with the 160 × 2 weight into a zero accumulator at `(p, q)`: the sum over `k`. -/
theorem blkMatmul2_apply (a : FVec Ideal S2000x160 .bf16) (b : FVec Ideal S160x2 .bf16) (p : Fin 2000) (q : Fin 2) :
    matmul dot_S2000x160_S160x2_S2000x2_1_0_0_1_n_n none a b (constant (F := Ideal) S2000x2 .f32 0x00000000#32) (ix2 p q)
      = ∑ k : Fin 160, a (ix2 p k) * b (ix2 k q) := by
  show FloatOps.matmul dot_S2000x160_S160x2_S2000x2_1_0_0_1_n_n none a b (constant (F := Ideal) S2000x2 .f32 0x00000000#32) (ix2 p q) = _
  rw [Ideal.matmul_constant_zero_apply, ← Equiv.sum_comp (contrEquiv1 dot_S2000x160_S160x2_S2000x2_1_0_0_1_n_n 160 rfl rfl).symm]
  refine Finset.sum_congr rfl fun k _ => ?_
  rw [blkDot2_lhs, blkDot2_rhs]

/-- The two-entry bias cast to one row and repeated down the block's rows, at `(p, q)`: `v q`. -/
theorem blkBias2_apply (v : Vec Ideal S2 .f32) (p : Fin 2000) (q : Fin 2) :
    broadcastTo S2000x2 (shapeCast S1x2 v shapeCasts_S2_S1x2) broadcasts_S1x2_S2000x2 (ix2 p q) = v (ix1 q) := by
  refine (broadcastTo_apply _ broadcasts_S1x2_S2000x2 (ix2 p q) (ix2 (0 : Fin 1) q) ?_).trans ?_
  · intro a
    match a with
    | ⟨0, _⟩ => show 0 = if (1 : Nat) = 1 then 0 else p.val; rw [if_pos rfl]
    | ⟨1, _⟩ => show q.val = if (2 : Nat) = 1 then 0 else q.val; rw [if_neg (by decide)]
  · exact (shapeCast_addUnit_apply ![2] v shapeCasts_S2_S1x2 (ix2 (0 : Fin 1) q)).trans
      (congrArg v (funext fun a => by match a with | ⟨0, _⟩ => rfl))

/-- The embedding the head's body stores, at `(p, q)` of the block. -/
theorem headPay1_apply (v0 : Vec Ideal S2000x160 .f32) (v3 : Vec Ideal S160x160 .f32) (v6 : Vec Ideal S160 .f32)
    (p : Fin 2000) (q : Fin 160) :
    k3_pay1 v0 v3 v6 (ix2 p q) = leakyAt ((∑ k : Fin 160, v0 (ix2 p k) * v3 (ix2 k q)) + v6 (ix1 q)) := by
  unfold k3_pay1
  simp only [shapeCast_self]
  show leakyAt (matmul dot_S2000x160_S160x160_S2000x160_1_0_0_1_n_n none (truncf .bf16 v0 bitsLt_bf16_f32) (truncf .bf16 v3 bitsLt_bf16_f32) (constant (F := Ideal) S2000x160 .f32 0x00000000#32) (ix2 p q)
      + broadcastTo S2000x160 (shapeCast S1x160 v6 shapeCasts_S160_S1x160) broadcasts_S1x160_S2000x160 (ix2 p q)) = _
  rw [blkMatmul_apply, blkBias_apply]
  rfl

/-- The logits the head's body stores, at `(p, q)` of the block, from the embedding block it has just computed. -/
theorem headPay2_apply (v0 : Vec Ideal S2000x160 .f32) (v3 : Vec Ideal S160x160 .f32) (v6 : Vec Ideal S160 .f32)
    (v16 : Vec Ideal S160x2 .f32) (v19 : Vec Ideal S2 .f32) (p : Fin 2000) (q : Fin 2) :
    k3_pay2 v0 v3 v6 v16 v19 (ix2 p q) = (∑ k : Fin 160, k3_pay1 v0 v3 v6 (ix2 p k) * v16 (ix2 k q)) + v19 (ix1 q) := by
  unfold k3_pay2
  show matmul dot_S2000x160_S160x2_S2000x2_1_0_0_1_n_n none (truncf .bf16 (k3_pay1 v0 v3 v6) bitsLt_bf16_f32) (truncf .bf16 v16 bitsLt_bf16_f32) (constant (F := Ideal) S2000x2 .f32 0x00000000#32) (ix2 p q)
      + broadcastTo S2000x2 (shapeCast S1x2 v19 shapeCasts_S2_S1x2) broadcasts_S1x2_S2000x2 (ix2 p q) = _
  rw [blkMatmul2_apply, blkBias2_apply]
  rfl

/-! ## Blocks of 2000 rows -/

theorem hz2 : (![0, 0] : Fin 2 → Nat) = fun _ => 0 := funext fun a => by fin_cases a <;> rfl
theorem hz1 : (![0] : Fin 1 → Nat) = fun _ => 0 := funext fun a => by fin_cases a <;> rfl

/-- A 2000 × 160 block `P` is rows `2000 T …` of a 50000 × 160 array `G` once it is so at coordinates. -/
theorem block160 (P : S2000x160.Idx → EReal) (G : S50000x160.Idx → EReal) (T : Nat)
    (hP : ∀ (p : Fin 2000) (q : Fin 160) (r : Fin 50000), r.val = T * 2000 + p.val → P (ix2 p q) = G (ix2 r q))
    (y : S2000x160.Idx) (i : S50000x160.Idx) (h0 : (i 0).val = T * 2000 + (y 0).val) (h1 : (i 1).val = (y 1).val) :
    P y = G i := by
  have hi : i = ix2 (i 0) (y 1) := by
    funext a
    match a with
    | ⟨0, _⟩ => rfl
    | ⟨1, _⟩ => exact Fin.ext h1
  rw [eq_ix2 y, hi]
  exact hP (y 0) (y 1) (i 0) h0

/-- The same for a 2000 × 2 block of a 50000 × 2 array. -/
theorem block2 (P : S2000x2.Idx → EReal) (G : S50000x2.Idx → EReal) (T : Nat)
    (hP : ∀ (p : Fin 2000) (q : Fin 2) (r : Fin 50000), r.val = T * 2000 + p.val → P (ix2 p q) = G (ix2 r q))
    (y : S2000x2.Idx) (i : S50000x2.Idx) (h0 : (i 0).val = T * 2000 + (y 0).val) (h1 : (i 1).val = (y 1).val) :
    P y = G i := by
  have hi : i = ix2 (i 0) (y 1) := by
    funext a
    match a with
    | ⟨0, _⟩ => rfl
    | ⟨1, _⟩ => exact Fin.ext h1
  rw [eq_ix2 y, hi]
  exact hP (y 0) (y 1) (i 0) h0

/-! ## Region 3: from the blocks to the two arrays -/

section Region3
variable (V : (c : Dev nD) → (b : Ref sig .tc) → Buf (Elt Ideal) ((c : Thread nD τ).loc b))

/-- The index maps over the grid: the feature window and the two output windows sit at row block `t`, the
    weights and the biases are whole arrays. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Row `p` of the features block at point `t` is row `2000 t + p` of the array. -/
theorem rows3_0 (c : Dev nD) (t : Fin cfg3.N) (p : Fin 2000) (k : Fin 160) (r : Fin 50000) (hr : r.val = t.val * 2000 + p.val) :
    (iblk3 V c 0 t : Vec Ideal S2000x160 .f32) (ix2 p k) = (V c (Pipeline.arrRef spec3 0) : Layers.Feat Ideal) (ix2 r k) := by
  obtain ⟨f00, f01, f10, f11, f20, f30, f31, f40, f50, f51, f60, f61⟩ := idx_facts3 t
  unfold iblk3
  rw [View.read_apply]
  refine congrArg (V c (Pipeline.arrRef spec3 0) : Layers.Feat Ideal) (funext fun a => Fin.ext ?_)
  match a with
  | ⟨0, _⟩ => show win3_0.index t (0 : Fin 2) * 2000 + 1 * p.val = r.val; omega
  | ⟨1, _⟩ => show win3_0.index t (1 : Fin 2) * 160 + 1 * k.val = k.val; omega

/-- The first weight's one block is the whole matrix. -/
theorem whole3_1 (c : Dev nD) (t : Fin cfg3.N) (a b : Fin 160) :
    (iblk3 V c 1 t : Vec Ideal S160x160 .f32) (ix2 a b) = (V c (Pipeline.arrRef spec3 1) : Layers.Mat Ideal) (ix2 a b) := by
  obtain ⟨f00, f01, f10, f11, f20, f30, f31, f40, f50, f51, f60, f61⟩ := idx_facts3 t
  unfold iblk3
  rw [View.read_apply]
  refine congrArg (V c (Pipeline.arrRef spec3 1) : Layers.Mat Ideal) (funext fun d => Fin.ext ?_)
  match d with
  | ⟨0, _⟩ => show win3_1.index t (0 : Fin 2) * 160 + 1 * a.val = a.val; omega
  | ⟨1, _⟩ => show win3_1.index t (1 : Fin 2) * 160 + 1 * b.val = b.val; omega

/-- The first bias's one block is the whole vector. -/
theorem whole3_2 (c : Dev nD) (t : Fin cfg3.N) (a : Fin 160) :
    (iblk3 V c 2 t : Vec Ideal S160 .f32) (ix1 a) = (V c (Pipeline.arrRef spec3 2) : Layers.Bias Ideal) (ix1 a) := by
  obtain ⟨f00, f01, f10, f11, f20, f30, f31, f40, f50, f51, f60, f61⟩ := idx_facts3 t
  unfold iblk3
  rw [View.read_apply]
  refine congrArg (V c (Pipeline.arrRef spec3 2) : Layers.Bias Ideal) (funext fun d => Fin.ext ?_)
  match d with
  | ⟨0, _⟩ => show win3_2.index t (0 : Fin 1) * 160 + 1 * a.val = a.val; omega

/-- The second weight's one block is the whole matrix. -/
theorem whole3_3 (c : Dev nD) (t : Fin cfg3.N) (a : Fin 160) (b : Fin 2) :
    (iblk3 V c 3 t : Vec Ideal S160x2 .f32) (ix2 a b) = (V c (Pipeline.arrRef spec3 3) : (⟨Cert.ReferenceIdeal.S160x2, .f32⟩ : BufTy).Contents (Elt Ideal)) (ix2 a b) := by
  obtain ⟨f00, f01, f10, f11, f20, f30, f31, f40, f50, f51, f60, f61⟩ := idx_facts3 t
  unfold iblk3
  rw [View.read_apply]
  refine congrArg (V c (Pipeline.arrRef spec3 3) : (⟨Cert.ReferenceIdeal.S160x2, .f32⟩ : BufTy).Contents (Elt Ideal)) (funext fun d => Fin.ext ?_)
  match d with
  | ⟨0, _⟩ => show win3_3.index t (0 : Fin 2) * 160 + 1 * a.val = a.val; omega
  | ⟨1, _⟩ => show win3_3.index t (1 : Fin 2) * 2 + 1 * b.val = b.val; omega

/-- The second bias's one block is the whole vector. -/
theorem whole3_4 (c : Dev nD) (t : Fin cfg3.N) (b : Fin 2) :
    (iblk3 V c 4 t : Vec Ideal S2 .f32) (ix1 b) = (V c (Pipeline.arrRef spec3 4) : (⟨Cert.ReferenceIdeal.S2, .f32⟩ : BufTy).Contents (Elt Ideal)) (ix1 b) := by
  obtain ⟨f00, f01, f10, f11, f20, f30, f31, f40, f50, f51, f60, f61⟩ := idx_facts3 t
  unfold iblk3
  rw [View.read_apply]
  refine congrArg (V c (Pipeline.arrRef spec3 4) : (⟨Cert.ReferenceIdeal.S2, .f32⟩ : BufTy).Contents (Elt Ideal)) (funext fun d => Fin.ext ?_)
  match d with
  | ⟨0, _⟩ => show win3_4.index t (0 : Fin 1) * 2 + 1 * b.val = b.val; omega

/-- Row `p` of the embedding block the body computes at point `t` is row `2000 t + p` of the embedding of the arrays. -/
theorem em_rows (c : Dev nD) (t : Fin cfg3.N) (p : Fin 2000) (k : Fin 160) (r : Fin 50000) (hr : r.val = t.val * 2000 + p.val) :
    k3_pay1 (iblk3 V c 0 t) (iblk3 V c 1 t) (iblk3 V c 2 t) (ix2 p k) = (Layers.headEm (F := Ideal) (V c (Pipeline.arrRef spec3 0)) (V c (Pipeline.arrRef spec3 1)) (V c (Pipeline.arrRef spec3 2))) (ix2 r k) := by
  rw [headPay1_apply, headEm_apply]
  simp only [rows3_0 V c t p _ r hr, whole3_1 V c t, whole3_2 V c t]

/-- What point `t` writes back to the embedding is block `t` of the embedding of the arrays the region finds. -/
theorem flushed3_em (c : Dev nD) (t : Fin cfg3.N) :
    (dat3 (F := Ideal) V c).flushed 6 t = ((cfg3.win 6).blk t).view.read (Elt Ideal) (Layers.headEm (F := Ideal) (V c (Pipeline.arrRef spec3 0)) (V c (Pipeline.arrRef spec3 1)) (V c (Pipeline.arrRef spec3 2))) := by
  show (cfg3.win 6).cut (grid3.coords t) ((dat3 (F := Ideal) V c).after 6 t) = _
  rw [after3_6]
  unfold out3_6
  rw [View.canon_unit_zero hz2]
  simp only [View.ld_unit_zero (S := S2000x160) hz2, View.ld_unit_zero (S := S160x160) hz2, View.ld_unit_zero (S := S160) hz1]
  obtain ⟨f00, f01, f10, f11, f20, f30, f31, f40, f50, f51, f60, f61⟩ := idx_facts3 t
  funext j
  show k3_pay1 (iblk3 V c 0 t) (iblk3 V c 1 t) (iblk3 V c 2 t) ((cfg3.win 6).xinj (grid3.coords t) j)
    = (Layers.headEm (F := Ideal) (V c (Pipeline.arrRef spec3 0)) (V c (Pipeline.arrRef spec3 1)) (V c (Pipeline.arrRef spec3 2))) (((cfg3.win 6).blk t).view.emb j)
  refine block160 _ _ t.val (fun p q r hr => em_rows V c t p q r hr) _ _ ?_ ?_
  · show win3_6.index t (0 : Fin 2) * 2000 + 1 * (j 0).val = t.val * 2000 + (j 0).val; omega
  · show win3_6.index t (1 : Fin 2) * 160 + 1 * (j 1).val = (j 1).val; omega

/-- What point `t` writes back to the logits is block `t` of the logits of the arrays the region finds. -/
theorem flushed3_out (c : Dev nD) (t : Fin cfg3.N) :
    (dat3 (F := Ideal) V c).flushed 5 t = ((cfg3.win 5).blk t).view.read (Elt Ideal) (Layers.headOut (F := Ideal) (Layers.headEm (F := Ideal) (V c (Pipeline.arrRef spec3 0)) (V c (Pipeline.arrRef spec3 1)) (V c (Pipeline.arrRef spec3 2))) (V c (Pipeline.arrRef spec3 3)) (V c (Pipeline.arrRef spec3 4))) := by
  show (cfg3.win 5).cut (grid3.coords t) ((dat3 (F := Ideal) V c).after 5 t) = _
  rw [after3_5]
  unfold out3_5
  rw [View.canon_unit_zero hz2]
  simp only [View.ld_unit_zero (S := S2000x160) hz2, View.ld_unit_zero (S := S160x160) hz2, View.ld_unit_zero (S := S160) hz1,
    View.ld_unit_zero (S := S160x2) hz2, View.ld_unit_zero (S := S2) hz1]
  obtain ⟨f00, f01, f10, f11, f20, f30, f31, f40, f50, f51, f60, f61⟩ := idx_facts3 t
  funext j
  show k3_pay2 (iblk3 V c 0 t) (iblk3 V c 1 t) (iblk3 V c 2 t) (iblk3 V c 3 t) (iblk3 V c 4 t) ((cfg3.win 5).xinj (grid3.coords t) j)
    = (Layers.headOut (F := Ideal) (Layers.headEm (F := Ideal) (V c (Pipeline.arrRef spec3 0)) (V c (Pipeline.arrRef spec3 1)) (V c (Pipeline.arrRef spec3 2))) (V c (Pipeline.arrRef spec3 3)) (V c (Pipeline.arrRef spec3 4))) (((cfg3.win 5).blk t).view.emb j)
  refine block2 _ _ t.val (fun p q r hr => ?_) _ _ ?_ ?_
  · rw [headPay2_apply, headOut_apply]
    simp only [em_rows V c t p _ r hr, whole3_3 V c t, whole3_4 V c t]
  · show win3_5.index t (0 : Fin 2) * 2000 + 1 * (j 0).val = t.val * 2000 + (j 0).val; omega
  · show win3_5.index t (1 : Fin 2) * 2 + 1 * (j 1).val = (j 1).val; omega

/-- An index of the embedding array is in point `t`'s block iff each coordinate is in the block's range on its axis. -/
theorem mem_blk3_em (t : Fin cfg3.N) (i : S50000x160.Idx) :
    i ∈ ((cfg3.win 6).blk t).view.set ↔ ∀ a : Fin 2, win3_6.index t a * S2000x160.size a ≤ (i a).val ∧ (i a).val < win3_6.index t a * S2000x160.size a + S2000x160.size a := by
  show i ∈ ((View.whole main_v37_1).slice (win3_6.rect t)).set ↔ _
  rw [View.set_slice_whole, Rect.mem_set_unit]
  exact Iff.rfl

/-- The same for the logits array. -/
theorem mem_blk3_out (t : Fin cfg3.N) (i : S50000x2.Idx) :
    i ∈ ((cfg3.win 5).blk t).view.set ↔ ∀ a : Fin 2, win3_5.index t a * S2000x2.size a ≤ (i a).val ∧ (i a).val < win3_5.index t a * S2000x2.size a + S2000x2.size a := by
  show i ∈ ((View.whole main_v37_0).slice (win3_5.rect t)).set ↔ _
  rw [View.set_slice_whole, Rect.mem_set_unit]
  exact Iff.rfl

/-- Row `r` of the embedding array is written by point `r / 2000`. -/
theorem tiles3_em (i : S50000x160.Idx) : ∃ t : Fin cfg3.N, (cfg3.win 6).flush t = true ∧ i ∈ ((cfg3.win 6).blk t).view.set := by
  have hi0 : (i 0).val < 50000 := (i 0).isLt
  have hi1 : (i 1).val < 160 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨f00, f01, f10, f11, f20, f30, f31, f40, f50, f51, f60, f61⟩ := idx_facts3 t
  refine ⟨t, flush3_6 t, ?_⟩
  rw [mem_blk3_em]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 160 ≤ (i 1).val ∧ (i 1).val < win3_6.index t (1 : Fin 2) * 160 + 160; omega

/-- Row `r` of the logits array is written by point `r / 2000`. -/
theorem tiles3_out (i : S50000x2.Idx) : ∃ t : Fin cfg3.N, (cfg3.win 5).flush t = true ∧ i ∈ ((cfg3.win 5).blk t).view.set := by
  have hi0 : (i 0).val < 50000 := (i 0).isLt
  have hi1 : (i 1).val < 2 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨f00, f01, f10, f11, f20, f30, f31, f40, f50, f51, f60, f61⟩ := idx_facts3 t
  refine ⟨t, flush3_5 t, ?_⟩
  rw [mem_blk3_out]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 2 ≤ (i 1).val ∧ (i 1).val < win3_5.index t (1 : Fin 2) * 2 + 2; omega

/-- The embedding array after region 3: the head's embedding of the arrays the region finds. -/
theorem final3_em (c : Dev nD) :
    (dat3 (F := Ideal) V c).arrAt 6 cfg3.N = Layers.headEm (F := Ideal) (V c (Pipeline.arrRef spec3 0)) (V c (Pipeline.arrRef spec3 1)) (V c (Pipeline.arrRef spec3 2)) :=
  (dat3 (F := Ideal) V c).arrAt_eq_of_cover 6 _ (fun t _ => flushed3_em V c t) tiles3_em

/-- The logits array after region 3: the head's logits of that embedding. -/
theorem final3_out (c : Dev nD) :
    (dat3 (F := Ideal) V c).arrAt 5 cfg3.N
      = Layers.headOut (F := Ideal) (Layers.headEm (F := Ideal) (V c (Pipeline.arrRef spec3 0)) (V c (Pipeline.arrRef spec3 1)) (V c (Pipeline.arrRef spec3 2))) (V c (Pipeline.arrRef spec3 3)) (V c (Pipeline.arrRef spec3 4)) :=
  (dat3 (F := Ideal) V c).arrAt_eq_of_cover 5 _ (fun t _ => flushed3_out V c t) tiles3_out

end Region3

end Cert.KernelIdeal.HeadValue

end
-- ==== Proof.KernelValue.lean ====
/-
  The values of the idealized kernel program's two results.
  Each region's output array is the corresponding dense layer of the arrays the region reads (the three region
  modules); what those arrays hold when the region is entered is known from the boundaries (the chain module). Composed
  from the launch to the return: the first region leaves the fan-in features of the arguments, each aggregation
  stretch and the region after it one graph convolution of the features before it, and the last region the embedding
  and the logits.
-/
import proofs.«106324_j28432683499967_2_alg».proof.Proof.KernelChain
import proofs.«106324_j28432683499967_2_alg».proof.Proof.Network
import proofs.«106324_j28432683499967_2_alg».proof.Proof.FaninRegion
import proofs.«106324_j28432683499967_2_alg».proof.Proof.SageRegion
import proofs.«106324_j28432683499967_2_alg».proof.Proof.HeadRegion

set_option maxRecDepth 16384

noncomputable section

namespace Cert.KernelIdeal.Chain

open Cert.KernelIdeal Cert.KernelIdeal.Gen Cert.Proof
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the first region: the fan-in features of the arguments. -/
theorem feat0_at2 : W2 m ρ c (Proc.devRef .tc main_v4) = (Layers.fanin (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  refine (W2_arr m ρ c 17).trans ((Cert.KernelIdeal.FaninValue.final0 (V1 m ρ) c).trans ?_)
  show Layers.fanin (W1 m ρ c (Proc.devRef .tc main_arg0)) (W1 m ρ c (Proc.devRef .tc main_arg2)) (W1 m ρ c (Proc.devRef .tc main_arg3)) (W1 m ρ c (Proc.devRef .tc main_arg4)) (W1 m ρ c (Proc.devRef .tc main_arg5)) (W1 m ρ c (Proc.devRef .tc main_arg6)) (W1 m ρ c (Proc.devRef .tc main_arg7)) (W1 m ρ c (Proc.devRef .tc main_arg8)) (W1 m ρ c (Proc.devRef .tc main_arg9)) (W1 m ρ c (Proc.devRef .tc main_arg10)) (W1 m ρ c (Proc.devRef .tc main_arg11)) (W1 m ρ c (Proc.devRef .tc main_arg12)) (W1 m ρ c (Proc.devRef .tc main_arg13)) (W1 m ρ c (Proc.devRef .tc main_arg14)) (W1 m ρ c (Proc.devRef .tc main_arg15)) (W1 m ρ c (Proc.devRef .tc main_arg16)) (W1 m ρ c (Proc.devRef .tc main_arg17)) = _
  rw [arg0_at1 m ρ c, arg2_at1 m ρ c, arg3_at1 m ρ c, arg4_at1 m ρ c, arg5_at1 m ρ c, arg6_at1 m ρ c, arg7_at1 m ρ c, arg8_at1 m ρ c, arg9_at1 m ρ c, arg10_at1 m ρ c, arg11_at1 m ρ c, arg12_at1 m ρ c, arg13_at1 m ρ c, arg14_at1 m ρ c, arg15_at1 m ρ c, arg16_at1 m ρ c, arg17_at1 m ρ c]

/-- After the second region: one graph convolution of the fan-in features. -/
theorem feat1_at4 : W4 m ρ c (Proc.devRef .tc main_v23) = (Layers.conv (Layers.fanin (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (m ((c : Thread nD τ).loc main_arg1)) (m ((c : Thread nD τ).loc main_arg18)) (m ((c : Thread nD τ).loc main_arg19)) (m ((c : Thread nD τ).loc main_arg20))) := by
  refine (W4_arr m ρ c 5).trans ((Cert.KernelIdeal.SageValue.final1 (V3 m ρ) c).trans ?_)
  show Layers.sageLayer (W3 m ρ c (Proc.devRef .tc main_v22)) (W3 m ρ c (Proc.devRef .tc main_v4)) (W3 m ρ c (Proc.devRef .tc main_arg18)) (W3 m ρ c (Proc.devRef .tc main_arg19)) (W3 m ρ c (Proc.devRef .tc main_arg20)) = _
  rw [mean_at3 m ρ c, feat0_keep3 m ρ c, arg18_at3 m ρ c, arg19_at3 m ρ c, arg20_at3 m ρ c,
    src_keep2 m ρ c, dst_keep2 m ρ c, src_at1 m ρ c, dst_at1 m ρ c, feat0_at2 m ρ c]
  rfl

/-- After the third region: the convolution applied twice. -/
theorem feat2_at6 : W6 m ρ c (Proc.devRef .tc main_v36) = (Layers.conv (Layers.conv (Layers.fanin (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (m ((c : Thread nD τ).loc main_arg1)) (m ((c : Thread nD τ).loc main_arg18)) (m ((c : Thread nD τ).loc main_arg19)) (m ((c : Thread nD τ).loc main_arg20))) (m ((c : Thread nD τ).loc main_arg1)) (m ((c : Thread nD τ).loc main_arg18)) (m ((c : Thread nD τ).loc main_arg19)) (m ((c : Thread nD τ).loc main_arg20))) := by
  refine (W6_arr m ρ c 5).trans ((Cert.KernelIdeal.SageValue.final2 (V5 m ρ) c).trans ?_)
  show Layers.sageLayer (W5 m ρ c (Proc.devRef .tc main_v35)) (W5 m ρ c (Proc.devRef .tc main_v23)) (W5 m ρ c (Proc.devRef .tc main_arg18)) (W5 m ρ c (Proc.devRef .tc main_arg19)) (W5 m ρ c (Proc.devRef .tc main_arg20)) = _
  rw [mean_at5 m ρ c, feat1_keep5 m ρ c, arg18_at5 m ρ c, arg19_at5 m ρ c, arg20_at5 m ρ c,
    src_keep4 m ρ c, dst_keep4 m ρ c, deg_keep4 m ρ c, deg_at3 m ρ c,
    src_keep2 m ρ c, dst_keep2 m ρ c, src_at1 m ρ c, dst_at1 m ρ c, feat1_at4 m ρ c]
  rfl

/-- The second result: the embedding of the arguments. -/
theorem embedding_at7 : W7 m ρ c (Proc.devRef .tc main_v37_1) = Layers.embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W7_arr m ρ c 6).trans ((Cert.KernelIdeal.HeadValue.final3_em (V6 m ρ) c).trans ?_)
  show Layers.headEm (W6 m ρ c (Proc.devRef .tc main_v36)) (W6 m ρ c (Proc.devRef .tc main_arg21)) (W6 m ρ c (Proc.devRef .tc main_arg22)) = _
  rw [feat2_at6 m ρ c, arg21_at6 m ρ c, arg22_at6 m ρ c]
  rfl

/-- The first result: the logits of the arguments. -/
theorem logits_at7 : W7 m ρ c (Proc.devRef .tc main_v37_0) = Layers.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W7_arr m ρ c 5).trans ((Cert.KernelIdeal.HeadValue.final3_out (V6 m ρ) c).trans ?_)
  show Layers.headOut (Layers.headEm (W6 m ρ c (Proc.devRef .tc main_v36)) (W6 m ρ c (Proc.devRef .tc main_arg21)) (W6 m ρ c (Proc.devRef .tc main_arg22))) (W6 m ρ c (Proc.devRef .tc main_arg23)) (W6 m ρ c (Proc.devRef .tc main_arg24)) = _
  rw [feat2_at6 m ρ c, arg21_at6 m ρ c, arg22_at6 m ρ c, arg23_at6 m ρ c, arg24_at6 m ρ c]
  rfl

end Cert.KernelIdeal.Chain

end
-- ==== Proof.lean ====
/-
  The kernel computes, region by region, the same network as the reference does with host operations: five linear
  projections with bias and leaky rectifier joined along the feature axis and passed through one more such layer; two
  graph convolutions with shared weights, whose irregular half (gather the source rows, add them up per destination,
  divide by the degree) both programs do with the same host operations and whose dense half the kernel does in a
  region; and an output head. On the extended reals a change of float format is the identity and a matrix product is
  the plain sum over the contracted axis, so each region's output array is, entry by entry, the reference's layer of
  the region's input arrays; no law beyond reading both sides at an index is used, and the precondition is not opened.
  The three frames are the generated ones (the reference's is its generated run with the results dropped); the
  idealization changed nothing, so there is nothing to preserve.
-/
import proofs.«106324_j28432683499967_2_alg».proof.Defs
import proofs.«106324_j28432683499967_2_alg».proof.Proof.Gen.Kernel
import proofs.«106324_j28432683499967_2_alg».proof.Proof.Gen.Kernel.Frame
import proofs.«106324_j28432683499967_2_alg».proof.Proof.Gen.KernelIdeal
import proofs.«106324_j28432683499967_2_alg».proof.Proof.Gen.KernelIdeal.Frame
import proofs.«106324_j28432683499967_2_alg».proof.Proof.Gen.ReferenceIdeal
import proofs.«106324_j28432683499967_2_alg».proof.Proof.Gen.Pre_finite_inputs
import proofs.«106324_j28432683499967_2_alg».proof.Proof.Gen.ReferenceIdeal.Run
import proofs.«106324_j28432683499967_2_alg».proof.Proof.Gen.ReferenceIdeal.Read
import proofs.«106324_j28432683499967_2_alg».proof.Proof.KernelRun
import proofs.«106324_j28432683499967_2_alg».proof.Proof.KernelValue
import proofs.«106324_j28432683499967_2_alg».proof.Proof.Network
import Idealize.ShloMosaic.Adequacy
import Idealize.ShloMosaic.Init

set_option maxRecDepth 16384

noncomputable section

namespace Cert.Proof

open Idealize.ShloMosaic Idealize.SL.Sem Cert.Proof

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the logits and the embedding of the arguments: the kernel by its run and the values of
    its regions, the reference by its run, whose result terms are these functions; the memories agree on the arguments. -/
theorem algebraic : Cert.algebraic_KernelIdeal_ReferenceIdeal := by
  intro m ρ m' ρ' _ hagree
  refine ⟨fun c => Layers.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)),
    fun c => Layers.embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.Chain.logits_at7 m ρ c),
        (h c).2.1.trans (Cert.KernelIdeal.Chain.embedding_at7 m ρ c), (h c).2.2⟩)
      (Cert.KernelIdeal.RunValue.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17, h18, h19, h20, h21, h22, h23, h24⟩ := hagree c
      exact (Cert.ReferenceIdeal.RefValue.logits_eq m' c).trans (Layers.logits_congr h0 h1 h2 h3 h4 h5 h6 h7 h8 h9 h10 h11 h12 h13 h14 h15 h16 h17 h18 h19 h20 h21 h22 h23 h24)
    · obtain ⟨h0, h1, h2, h3, h4, h5, h6, h7, h8, h9, h10, h11, h12, h13, h14, h15, h16, h17, h18, h19, h20, h21, h22, h23, h24⟩ := hagree c
      exact (Cert.ReferenceIdeal.RefValue.embedding_eq m' c).trans (Layers.embedding_congr h0 h1 h2 h3 h4 h5 h6 h7 h8 h9 h10 h11 h12 h13 h14 h15 h16 h17 h18 h19 h20 h21 h22)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
